-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x800000 : Shape := ⟨2, ![2, 800000]⟩
abbrev S500x64 : Shape := ⟨2, ![500, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S448x50 : Shape := ⟨2, ![448, 50]⟩
abbrev S50 : Shape := ⟨1, ![50]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S448x50 : S_.BroadcastsInDim S448x50 (![] : Fin 0 → Fin S448x50.rank)
  reducesTo_S448x50_S_d0_1 : S448x50.ReducesTo [0, 1] S_
  bcast_S_S50 : S_.BroadcastsInDim S50 (![] : Fin 0 → Fin S50.rank)
  reducesTo_S50_S_d0 : S50.ReducesTo [0] S_

variable [Facts]

def fn_part2 {F : FTy → Type} [FloatOps F] (main_arg8 : FVec F S448x50 .f32) (main_arg9 : FVec F S50 .f32) (main_v33 : IVec S_ 1) : IVec S_ 1 :=
  let main_v34 : FVec F S448x50 .f32 := Host.absf main_arg8
  let main_cst_12 : FVec F S_ .f32 := constant S_ .f32 0x7F800000#32
  let main_v35 : FVec F S448x50 .f32 := broadcastInDim S448x50 ![] bcast_S_S448x50 main_cst_12
  let main_v36 : IVec S448x50 1 := cmpf .olt main_v34 main_v35
  let main_c_13 : IVec S_ 1 := constantI S_ 1 1#1
  let main_v37 : IVec S_ 1 := (fun x v => Host.reduce IntOp.andi x v reducesTo_S448x50_S_d0_1 h_S_) main_v36 main_c_13
  let main_v38 : IVec S_ 1 := andi main_v33 main_v37
  let main_v39 : FVec F S50 .f32 := Host.absf main_arg9
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  main_v43

def fn_part1 {F : FTy → Type} [FloatOps F] (main_arg5 : FVec F S64 .f32) (main_arg6 : FVec F S128x128 .f32) (main_arg7 : FVec F S128 .f32) (main_arg8 : FVec F S448x50 .f32) (main_arg9 : FVec F S50 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x500 .f32) (main_arg1 : IVec S2x800000 32) (main_arg2 : FVec F S500x64 .f32) (main_arg3 : FVec F S64 .f32) (main_arg4 : FVec F S64x64 .f32) (main_arg5 : FVec F S64 .f32) (main_arg6 : FVec F S128x128 .f32) (main_arg7 : FVec F S128 .f32) (main_arg8 : FVec F S448x50 .f32) (main_arg9 : FVec F S50 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S500x64 .f32 := Host.absf main_arg2
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x500 : Shape := ⟨2, ![50000, 500]⟩
abbrev S2x800000 : Shape := ⟨2, ![2, 800000]⟩
abbrev S500x64 : Shape := ⟨2, ![500, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S448x50 : Shape := ⟨2, ![448, 50]⟩
abbrev S50 : Shape := ⟨1, ![50]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S2000x500 : Shape := ⟨2, ![2000, 500]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S64x50 : Shape := ⟨2, ![64, 50]⟩
abbrev S128x50 : Shape := ⟨2, ![128, 50]⟩
abbrev S1x50 : Shape := ⟨2, ![1, 50]⟩
abbrev S50000x50 : Shape := ⟨2, ![50000, 50]⟩
abbrev S2000x50 : Shape := ⟨2, ![2000, 50]⟩

abbrev nBuf : Space → Nat
  | .hbm => 93
  | .vmem => 47
  | .smem => 0
  | _ => 0

abbrev bufTy : (tb : Table) → Fin (tcTables nBuf tb) → BufTy
  | .hbm, ⟨0, _⟩ => ⟨S50000x500, .f32⟩
  | .hbm, ⟨1, _⟩ => ⟨S2x800000, .i32⟩
  | .hbm, ⟨2, _⟩ => ⟨S500x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S448x50, .f32⟩
  | .hbm, ⟨9, _⟩ => ⟨S50, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S64x128, .f32⟩
  | .hbm, ⟨51, _⟩ => ⟨S64x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S64x50, .f32⟩
  | .hbm, ⟨87, _⟩ => ⟨S64x50, .f32⟩
  | .hbm, ⟨88, _⟩ => ⟨S64x50, .f32⟩
  | .hbm, ⟨89, _⟩ => ⟨S128x50, .f32⟩
  | .hbm, ⟨90, _⟩ => ⟨S128x50, .f32⟩
  | .hbm, ⟨91, _⟩ => ⟨S1x50, .f32⟩
  | .hbm, ⟨92, _⟩ => ⟨S50000x50, .f32⟩
  | .local _ .vmem, ⟨0, _⟩ => ⟨S2000x500, .f32⟩
  | .local _ .vmem, ⟨1, _⟩ => ⟨S2000x500, .f32⟩
  | .local _ .vmem, ⟨2, _⟩ => ⟨S500x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S64x128, .f32⟩
  | .local _ .vmem, ⟨21, _⟩ => ⟨S64x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S64x50, .f32⟩
  | .local _ .vmem, ⟨40, _⟩ => ⟨S64x50, .f32⟩
  | .local _ .vmem, ⟨41, _⟩ => ⟨S64x50, .f32⟩
  | .local _ .vmem, ⟨42, _⟩ => ⟨S128x50, .f32⟩
  | .local _ .vmem, ⟨43, _⟩ => ⟨S128x50, .f32⟩
  | .local _ .vmem, ⟨44, _⟩ => ⟨S1x50, .f32⟩
  | .local _ .vmem, ⟨45, _⟩ => ⟨S2000x50, .f32⟩
  | .local _ .vmem, ⟨46, _⟩ => ⟨S2000x50, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_stg3_0 : Ref sig .tc := ⟨.vmem, 35, rfl⟩
abbrev cc5_stg3_1 : Ref sig .tc := ⟨.vmem, 36, rfl⟩
abbrev cc5_stg4_0 : Ref sig .tc := ⟨.vmem, 37, rfl⟩
abbrev cc5_stg4_1 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg7_0 : Ref sig .tc := ⟨.vmem, 41, rfl⟩
abbrev cc5_stg8_0 : Ref sig .tc := ⟨.vmem, 42, rfl⟩
abbrev cc5_stg9_0 : Ref sig .tc := ⟨.vmem, 43, rfl⟩
abbrev cc5_stg10_0 : Ref sig .tc := ⟨.vmem, 44, rfl⟩
abbrev cc5_stg11_0 : Ref sig .tc := ⟨.vmem, 45, rfl⟩
abbrev cc5_stg11_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc5_sem3_0 : DmaSem sig := 35
abbrev cc5_sem3_1 : DmaSem sig := 36
abbrev cc5_sem4_0 : DmaSem sig := 37
abbrev cc5_sem4_1 : DmaSem sig := 38
abbrev cc5_sem5_0 : DmaSem sig := 39
abbrev cc5_sem6_0 : DmaSem sig := 40
abbrev cc5_sem7_0 : DmaSem sig := 41
abbrev cc5_sem8_0 : DmaSem sig := 42
abbrev cc5_sem9_0 : DmaSem sig := 43
abbrev cc5_sem10_0 : DmaSem sig := 44
abbrev cc5_sem11_0 : DmaSem sig := 45
abbrev cc5_sem11_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S64x50 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x50 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x50 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x50 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x50 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x50 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S2000x50 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S128x128_S64x128_0_0 : S128x128.Slices ![0, 0] S64x128
  slices_S128x128_S64x128_64_0 : S128x128.Slices ![64, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  slices_S448x50_S64x50_0_0 : S448x50.Slices ![0, 0] S64x50
  slices_S448x50_S64x50_64_0 : S448x50.Slices ![64, 0] S64x50
  slices_S448x50_S64x50_128_0 : S448x50.Slices ![128, 0] S64x50
  slices_S448x50_S128x50_192_0 : S448x50.Slices ![192, 0] S128x50
  slices_S448x50_S128x50_320_0 : S448x50.Slices ![320, 0] S128x50
  shapeCasts_S50_S1x50 : S50.ShapeCasts S1x50
  inb_S64x50_S64x50_0_0 : ∀ a, (![0, 0] : Fin 2 → Nat) a + S64x50.size a ≤ S64x50.size a
  h_S64x50 : 0 < S64x50.numel
  shapeCasts_S64x50_S64x50 : S64x50.ShapeCasts S64x50
  inb_S128x50_S128x50_0_0 : ∀ a, (![0, 0] : Fin 2 → Nat) a + S128x50.size a ≤ S128x50.size a
  h_S128x50 : 0 < S128x50.numel
  shapeCasts_S128x50_S128x50 : S128x50.ShapeCasts S128x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2000x50 : S1x50.Broadcasts S2000x50
  inb_S2000x50_S2000x50_0_0 : ∀ a, (![0, 0] : Fin 2 → Nat) a + S2000x50.size a ≤ S2000x50.size a
  h_S2000x50 : 0 < S2000x50.numel
  dot_S2000x500_S500x64_S2000x64_1_0_0_1_n_n_wf : DotDims.WF S2000x500 S500x64 S2000x64 [1] [0] [0] [1] [] []
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x64_S64x50_S2000x50_1_0_0_1_n_n_wf : DotDims.WF S2000x64 S64x50 S2000x50 [1] [0] [0] [1] [] []
  dot_S2000x128_S128x50_S2000x50_1_0_0_1_n_n_wf : DotDims.WF S2000x128 S128x50 S2000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S50000x500.size a
  hwx0_0 : ∀ i : grid0.Coords, EltTy.bits .f32 = 32 ∨ (Rect.block (s := S50000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x50.size a ≤ S64x50.size a
  hwx5_5 : ∀ i : grid5.Coords, EltTy.bits .f32 = 32 ∨ (Rect.block (s := S64x50) S64x50.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x50.size a ≤ S64x50.size a
  hwx5_6 : ∀ i : grid5.Coords, EltTy.bits .f32 = 32 ∨ (Rect.block (s := S64x50) S64x50.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x50.size a ≤ S64x50.size a
  hwx5_7 : ∀ i : grid5.Coords, EltTy.bits .f32 = 32 ∨ (Rect.block (s := S64x50) S64x50.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x50.size a ≤ S128x50.size a
  hwx5_8 : ∀ i : grid5.Coords, EltTy.bits .f32 = 32 ∨ (Rect.block (s := S128x50) S128x50.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x50.size a ≤ S128x50.size a
  hwx5_9 : ∀ i : grid5.Coords, EltTy.bits .f32 = 32 ∨ (Rect.block (s := S128x50) S128x50.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x50.size a ≤ S1x50.size a
  hwx5_10 : ∀ i : grid5.Coords, EltTy.bits .f32 = 32 ∨ (Rect.block (s := S1x50) S1x50.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S2000x50.size a ≤ S50000x50.size a
  hwx5_11 : ∀ i : grid5.Coords, EltTy.bits .f32 = 32 ∨ (Rect.block (s := S50000x50) S2000x50.size (cc5_transform_11 i) (hinb5_11 i)).WholeWords (EltTy.packing .f32)

variable [Facts₀]

def dot_S2000x500_S500x64_S2000x64_1_0_0_1_n_n : DotDims S2000x500 S500x64 S2000x64 where
  lhsContracting := [1]
  rhsContracting := [0]
  lhsNonContracting := [0]
  rhsNonContracting := [1]
  lhsBatch := []
  rhsBatch := []
  wf := dot_S2000x500_S500x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x50_S2000x50_1_0_0_1_n_n : DotDims S2000x64 S64x50 S2000x50 where
  lhsContracting := [1]
  rhsContracting := [0]
  lhsNonContracting := [0]
  rhsNonContracting := [1]
  lhsBatch := []
  rhsBatch := []
  wf := dot_S2000x64_S64x50_S2000x50_1_0_0_1_n_n_wf
def dot_S2000x128_S128x50_S2000x50_1_0_0_1_n_n : DotDims S2000x128 S128x50 S2000x50 where
  lhsContracting := [1]
  rhsContracting := [0]
  lhsNonContracting := [0]
  rhsNonContracting := [1]
  lhsBatch := []
  rhsBatch := []
  wf := dot_S2000x128_S128x50_S2000x50_1_0_0_1_n_n_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v49) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v5) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v19) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v33) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v49) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v63) S2000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v64) S64x50.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v65) S64x50.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v66) S64x50.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v67) S128x50.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v68) S128x50.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v69) S1x50.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v70) S2000x50.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S50000x500 : Shape := ⟨2, ![50000, 500]⟩
abbrev S2x800000 : Shape := ⟨2, ![2, 800000]⟩
abbrev S500x64 : Shape := ⟨2, ![500, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S448x50 : Shape := ⟨2, ![448, 50]⟩
abbrev S50 : Shape := ⟨1, ![50]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S800000x128 : Shape := ⟨2, ![800000, 128]⟩
abbrev S1x128 : Shape := ⟨2, ![1, 128]⟩
abbrev S50000x256 : Shape := ⟨2, ![50000, 256]⟩
abbrev S50000x448 : Shape := ⟨2, ![50000, 448]⟩
abbrev S50000x50 : Shape := ⟨2, ![50000, 50]⟩
abbrev S1x50 : Shape := ⟨2, ![1, 50]⟩

abbrev nBuf : Space → Nat
  | .hbm => 104
  | .vmem => 0
  | .smem => 0
  | _ => 0

abbrev bufTy : (tb : Table) → Fin (tcTables nBuf tb) → BufTy
  | .hbm, ⟨0, _⟩ => ⟨S50000x500, .f32⟩
  | .hbm, ⟨1, _⟩ => ⟨S2x800000, .i32⟩
  | .hbm, ⟨2, _⟩ => ⟨S500x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S448x50, .f32⟩
  | .hbm, ⟨9, _⟩ => ⟨S50, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x64, .f32⟩
  | .hbm, ⟨15, _⟩ => ⟨S1x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S50000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S50000x256, .f32⟩
  | .hbm, ⟨91, _⟩ => ⟨S50000x448, .f32⟩
  | .hbm, ⟨92, _⟩ => ⟨S50000x50, .f32⟩
  | .hbm, ⟨93, _⟩ => ⟨S1x50, .f32⟩
  | .hbm, ⟨94, _⟩ => ⟨S50000x50, .f32⟩
  | .hbm, ⟨95, _⟩ => ⟨S50000x50, .f32⟩
  | .hbm, ⟨96, _⟩ => ⟨S50000x50, .f32⟩
  | .hbm, ⟨97, _⟩ => ⟨S50000x50, .f32⟩
  | .hbm, ⟨98, _⟩ => ⟨S_, .f32⟩
  | .hbm, ⟨99, _⟩ => ⟨S50000x50, .f32⟩
  | .hbm, ⟨100, _⟩ => ⟨S50000x50, .f32⟩
  | .hbm, ⟨101, _⟩ => ⟨S_, .f32⟩
  | .hbm, ⟨102, _⟩ => ⟨S50000x50, .f32⟩
  | .hbm, ⟨103, _⟩ => ⟨S50000x50, .f32⟩
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_7 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_v77 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  concatenates_S50000x64_S50000x128_S50000x256_S50000x448_d1 : Shape.Concatenates [S50000x64, S50000x128, S50000x256] S50000x448 1
  bcast_S50_S1x50_1 : S50.BroadcastsInDim S1x50 (![1] : Fin 1 → Fin S1x50.rank)
  bcast_S1x50_S50000x50_0_1 : S1x50.BroadcastsInDim S50000x50 (![0, 1] : Fin 2 → Fin S50000x50.rank)
  bcast_S_S50000x50 : S_.BroadcastsInDim S50000x50 (![] : Fin 0 → Fin S50000x50.rank)
  dot_S50000x500_S500x64_S50000x64_1_0_0_1_n_n_wf : DotDims.WF S50000x500 S500x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x448_S448x50_S50000x50_1_0_0_1_n_n_wf : DotDims.WF S50000x448 S448x50 S50000x50 [1] [0] [0] [1] [] []

variable [Facts₀]

def dot_S50000x500_S500x64_S50000x64_1_0_0_1_n_n : DotDims S50000x500 S500x64 S50000x64 where
  lhsContracting := [1]
  rhsContracting := [0]
  lhsNonContracting := [0]
  rhsNonContracting := [1]
  lhsBatch := []
  rhsBatch := []
  wf := dot_S50000x500_S500x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x448_S448x50_S50000x50_1_0_0_1_n_n : DotDims S50000x448 S448x50 S50000x50 where
  lhsContracting := [1]
  rhsContracting := [0]
  lhsNonContracting := [0]
  rhsNonContracting := [1]
  lhsBatch := []
  rhsBatch := []
  wf := dot_S50000x448_S448x50_S50000x50_1_0_0_1_n_n_wf

class Facts : Prop extends Facts₀ where

variable [Facts]
-- ==== Proof.KernelRun.lean ====
/-
  The run of the whole program with its result named: every weakly fair execution terminates without a fault, the
  result array ends at the contents the last region's write-backs leave, and the argument arrays end as they
  started. The contents at each boundary between host stretches and regions are the generated fold; here its
  last stage is read at the result's buffer as well as at the arguments'.
-/
import proofs.«141040_j31164282700071_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, each argument as launched. -/
theorem run_out : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v70 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunOut

end
-- ==== Proof.RefRun.lean ====
/-
  The reference program's run, in six stretches. Its host operations, in program order, are cut into six lists;
  the program is the straight line of their concatenation, so its run ends with every buffer at the fold of the
  operations' results over the launch contents, and that fold is the six stretches' folds one after the other.
-/
import proofs.«141040_j31164282700071_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The six stretches -/

/-- The first dense layer: the two rows of the edge array, the product with the first weights, the bias, the cut at zero, and the product of the result with the second weights. -/
abbrev C0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x500_S500x64_S50000x64_1_0_0_1_n_n none l r) : (⟨S50000x500, .f32⟩ : BufTy).Contents (Elt F) → (⟨S500x64, .f32⟩ : BufTy).Contents (Elt F) → (⟨S50000x64, .f32⟩ : BufTy).Contents (Elt F)),
    unary main_arg3 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v7) (TRef.of (T := ⟨S50000x64, .f32⟩) main_call0_v0) (TRef.of (T := ⟨S50000x64, .f32⟩) main_v8) maximumf,
    binary main_v8 main_arg4 main_v9 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The first neighbourhood sum (gather at the source nodes, sum into the destination nodes, bias) and its product with the second weights. -/
abbrev C1 : List (HloOp τ sig (Elt F)) :=
  [ nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v1 main_v10 main_v11 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v12 (broadcastInDim S800000 ![] bcast_S_S800000 : (⟨S_, .i32⟩ : BufTy).Contents (Elt F) → (⟨S800000, .i32⟩ : BufTy).Contents (Elt F)),
    binary main_v1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_v9 main_v15 main_v16 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v17 (broadcastInDim S50000x64 ![] bcast_S_S50000x64 : (⟨S_, .f32⟩ : BufTy).Contents (Elt F) → (⟨S50000x64, .f32⟩ : BufTy).Contents (Elt F)),
    unary main_v3 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v20 (broadcastInDim S1x64 ![1] bcast_S64_S1x64_1 : (⟨S64, .f32⟩ : BufTy).Contents (Elt F) → (⟨S1x64, .f32⟩ : BufTy).Contents (Elt F)),
    unary main_v20 main_v21 (broadcastInDim S50000x64 ![0, 1] bcast_S1x64_S50000x64_0_1 : (⟨S1x64, .f32⟩ : BufTy).Contents (Elt F) → (⟨S50000x64, .f32⟩ : BufTy).Contents (Elt F)),
    binary main_v19 main_v21 main_v22 (addf : (⟨S50000x64, .f32⟩ : BufTy).Contents (Elt F) → (⟨S50000x64, .f32⟩ : BufTy).Contents (Elt F) → (⟨S50000x64, .f32⟩ : BufTy).Contents (Elt F)),
    binary main_v22 main_arg4 main_v23 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The second neighbourhood sum, the two sums side by side, and their product with the third weights. -/
abbrev C2 : List (HloOp τ sig (Elt F)) :=
  [ nullary main_c_1 (constantI S_ 32 0#32),
    unary main_c_1 main_v24 (broadcastInDim S800000 ![] bcast_S_S800000 : (⟨S_, .i32⟩ : BufTy).Contents (Elt F) → (⟨S800000, .i32⟩ : BufTy).Contents (Elt F)),
    binary main_v1 main_v24 main_v25 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v26 (broadcastInDim S800000 ![] bcast_S_S800000 : (⟨S_, .i32⟩ : BufTy).Contents (Elt F) → (⟨S800000, .i32⟩ : BufTy).Contents (Elt F)),
    binary main_v1 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v1 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v23 main_v29 main_v30 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_3 (constant S_ .f32 0x00000000#32),
    unary main_cst_3 main_v31 (broadcastInDim S50000x64 ![] bcast_S_S50000x64 : (⟨S_, .f32⟩ : BufTy).Contents (Elt F) → (⟨S50000x64, .f32⟩ : BufTy).Contents (Elt F)),
    unary main_v3 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v34 (broadcastInDim S1x64 ![1] bcast_S64_S1x64_1 : (⟨S64, .f32⟩ : BufTy).Contents (Elt F) → (⟨S1x64, .f32⟩ : BufTy).Contents (Elt F)),
    unary main_v34 main_v35 (broadcastInDim S50000x64 ![0, 1] bcast_S1x64_S50000x64_0_1 : (⟨S1x64, .f32⟩ : BufTy).Contents (Elt F) → (⟨S50000x64, .f32⟩ : BufTy).Contents (Elt F)),
    binary main_v33 main_v35 main_v36 (addf : (⟨S50000x64, .f32⟩ : BufTy).Contents (Elt F) → (⟨S50000x64, .f32⟩ : BufTy).Contents (Elt F) → (⟨S50000x64, .f32⟩ : BufTy).Contents (Elt F)),
    binary main_v22 main_v36 main_v37 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v37 main_arg6 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The third neighbourhood sum over 128 columns and its product with the third weights. -/
abbrev C3 : List (HloOp τ sig (Elt F)) :=
  [ nullary main_c_4 (constantI S_ 32 0#32),
    unary main_c_4 main_v39 (broadcastInDim S800000 ![] bcast_S_S800000 : (⟨S_, .i32⟩ : BufTy).Contents (Elt F) → (⟨S800000, .i32⟩ : BufTy).Contents (Elt F)),
    binary main_v1 main_v39 main_v40 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v41 (broadcastInDim S800000 ![] bcast_S_S800000 : (⟨S_, .i32⟩ : BufTy).Contents (Elt F) → (⟨S800000, .i32⟩ : BufTy).Contents (Elt F)),
    binary main_v1 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_v1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v38 main_v44 main_v45 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v46 (broadcastInDim S50000x128 ![] bcast_S_S50000x128 : (⟨S_, .f32⟩ : BufTy).Contents (Elt F) → (⟨S50000x128, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg7 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    binary main_v51 main_arg6 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The fourth neighbourhood sum, all the features side by side, and their product with the last weights. -/
abbrev C4 : List (HloOp τ sig (Elt F)) :=
  [ nullary main_c_7 (constantI S_ 32 0#32),
    unary main_c_7 main_v53 (broadcastInDim S800000 ![] bcast_S_S800000 : (⟨S_, .i32⟩ : BufTy).Contents (Elt F) → (⟨S800000, .i32⟩ : BufTy).Contents (Elt F)),
    binary main_v1 main_v53 main_v54 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v55 (broadcastInDim S800000 ![] bcast_S_S800000 : (⟨S_, .i32⟩ : BufTy).Contents (Elt F) → (⟨S800000, .i32⟩ : BufTy).Contents (Elt F)),
    binary main_v1 main_v55 main_v56 (addi : (⟨S800000, .i32⟩ : BufTy).Contents (Elt F) → (⟨S800000, .i32⟩ : BufTy).Contents (Elt F) → (⟨S800000, .i32⟩ : BufTy).Contents (Elt F)),
    ternary main_v54 main_v56 main_v1 main_v57 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v57 main_v58 (broadcastInDim S800000x1 ![0] bcast_S800000_S800000x1_0 : (⟨S800000, .i32⟩ : BufTy).Contents (Elt F) → (⟨S800000x1, .i32⟩ : BufTy).Contents (Elt F)),
    binary main_v52 main_v58 main_v59 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v60 (broadcastInDim S50000x128 ![] bcast_S_S50000x128 : (⟨S_, .f32⟩ : BufTy).Contents (Elt F) → (⟨S50000x128, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg7 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    binary main_v51 main_v65 main_v66 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    nary ![main_v8, main_v37, main_v66] main_v67 (fun u => concatenate S50000x448 1 [⟨S50000x64, u 0⟩, ⟨S50000x128, u 1⟩, ⟨S50000x256, u 2⟩] concatenates_S50000x64_S50000x128_S50000x256_S50000x448_d1),
    binary main_v67 main_arg8 main_v68 ((fun l r => Host.dotGeneral dot_S50000x448_S448x50_S50000x50_1_0_0_1_n_n none l r) : (⟨S50000x448, .f32⟩ : BufTy).Contents (Elt F) → (⟨S448x50, .f32⟩ : BufTy).Contents (Elt F) → (⟨S50000x50, .f32⟩ : BufTy).Contents (Elt F)) ]

/-- The last bias and the logistic function: one over one plus the exponential of the negation. -/
abbrev C5 : List (HloOp τ sig (Elt F)) :=
  [ unary main_arg9 main_v69 (broadcastInDim S1x50 ![1] bcast_S50_S1x50_1 : (⟨S50, .f32⟩ : BufTy).Contents (Elt F) → (⟨S1x50, .f32⟩ : BufTy).Contents (Elt F)),
    unary main_v69 main_v70 (broadcastInDim S50000x50 ![0, 1] bcast_S1x50_S50000x50_0_1 : (⟨S1x50, .f32⟩ : BufTy).Contents (Elt F) → (⟨S50000x50, .f32⟩ : BufTy).Contents (Elt F)),
    binary main_v68 main_v70 main_v71 (addf : (⟨S50000x50, .f32⟩ : BufTy).Contents (Elt F) → (⟨S50000x50, .f32⟩ : BufTy).Contents (Elt F) → (⟨S50000x50, .f32⟩ : BufTy).Contents (Elt F)),
    unary main_v71 main_v72 (Host.negf : (⟨S50000x50, .f32⟩ : BufTy).Contents (Elt F) → (⟨S50000x50, .f32⟩ : BufTy).Contents (Elt F)),
    unary main_v72 main_v73 (Host.exp : (⟨S50000x50, .f32⟩ : BufTy).Contents (Elt F) → (⟨S50000x50, .f32⟩ : BufTy).Contents (Elt F)),
    nullary main_cst_10 (constant S_ .f32 0x3F800000#32),
    unary main_cst_10 main_v74 (broadcastInDim S50000x50 ![] bcast_S_S50000x50 : (⟨S_, .f32⟩ : BufTy).Contents (Elt F) → (⟨S50000x50, .f32⟩ : BufTy).Contents (Elt F)),
    binary main_v74 main_v73 main_v75 (addf : (⟨S50000x50, .f32⟩ : BufTy).Contents (Elt F) → (⟨S50000x50, .f32⟩ : BufTy).Contents (Elt F) → (⟨S50000x50, .f32⟩ : BufTy).Contents (Elt F)),
    nullary main_cst_11 (constant S_ .f32 0x3F800000#32),
    unary main_cst_11 main_v76 (broadcastInDim S50000x50 ![] bcast_S_S50000x50 : (⟨S_, .f32⟩ : BufTy).Contents (Elt F) → (⟨S50000x50, .f32⟩ : BufTy).Contents (Elt F)),
    binary main_v76 main_v75 main_v77 (Host.divf : (⟨S50000x50, .f32⟩ : BufTy).Contents (Elt F) → (⟨S50000x50, .f32⟩ : BufTy).Contents (Elt F) → (⟨S50000x50, .f32⟩ : BufTy).Contents (Elt F)) ]

/-! ## The program is their concatenation -/

set_option maxRecDepth 8192 in
set_option maxHeartbeats 4000000 in
theorem main_eq (c : Dev nD) : main (F := F) c = seq (C0 ++ C1 ++ C2 ++ C3 ++ C4 ++ C5) := rfl

theorem scopedRefs_eq : (Finset.univ.filter fun b : Ref sig .tc => b.isScoped) = ∅ := by decide
theorem scopedSems_eq : (Finset.univ.filter fun sm : SemLoc sig => sm.isScoped .tc) = ∅ := by decide

/-- A property of every member of two lists is one of every member of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem C0_sub : (C0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub ..⟩
theorem C1_sub : (C1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub ..⟩
theorem C2_sub : (C2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub ..⟩
theorem C3_sub : (C3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub ..⟩
theorem C4_sub : (C4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., nary_bufs_sub .., binary_bufs_sub ..⟩
theorem C5_sub : (C5 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Every operation touches only the core's own buffers. -/
theorem ops_sub : (C0 ++ C1 ++ C2 ++ C3 ++ C4 ++ C5 : List (HloOp τ sig (Elt F))).Forall fun op => op.bufs ⊆ tcRefs τ sig :=
  forall_append (forall_append (forall_append (forall_append (forall_append C0_sub C1_sub) C2_sub) C3_sub) C4_sub) C5_sub

theorem C0_fresh : ∀ op ∈ (C0 : List (HloOp τ sig (Elt F))), op.fresh = ∅ := by
  intro _ h; (repeat (cases h with | head => rfl | tail _ h => ?_)); exact nomatch h
theorem C1_fresh : ∀ op ∈ (C1 : List (HloOp τ sig (Elt F))), op.fresh = ∅ := by
  intro _ h; (repeat (cases h with | head => rfl | tail _ h => ?_)); exact nomatch h
theorem C2_fresh : ∀ op ∈ (C2 : List (HloOp τ sig (Elt F))), op.fresh = ∅ := by
  intro _ h; (repeat (cases h with | head => rfl | tail _ h => ?_)); exact nomatch h
theorem C3_fresh : ∀ op ∈ (C3 : List (HloOp τ sig (Elt F))), op.fresh = ∅ := by
  intro _ h; (repeat (cases h with | head => rfl | tail _ h => ?_)); exact nomatch h
theorem C4_fresh : ∀ op ∈ (C4 : List (HloOp τ sig (Elt F))), op.fresh = ∅ := by
  intro _ h; (repeat (cases h with | head => rfl | tail _ h => ?_)); exact nomatch h
theorem C5_fresh : ∀ op ∈ (C5 : List (HloOp τ sig (Elt F))), op.fresh = ∅ := by
  intro _ h; (repeat (cases h with | head => rfl | tail _ h => ?_)); exact nomatch h

/-- Every operation determines its results. -/
theorem ops_fresh : ∀ op ∈ (C0 ++ C1 ++ C2 ++ C3 ++ C4 ++ C5 : List (HloOp τ sig (Elt F))), op.fresh = ∅ := by
  intro op h
  rcases List.mem_append.mp h with h | h
  · rcases List.mem_append.mp h with h | h
    · rcases List.mem_append.mp h with h | h
      · rcases List.mem_append.mp h with h | h
        · rcases List.mem_append.mp h with h | h
          · exact C0_fresh op h
          · exact C1_fresh op h
        · exact C2_fresh op h
      · exact C3_fresh op h
    · exact C4_fresh op h
  · exact C5_fresh op h

/-! ## The fold, stretch by stretch -/

/-- The contents after two lines in a row are the second line's fold over the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

variable (m : (ℓ : Loc nD τ sig) → Buf (Elt F) ℓ) (c : Dev nD)

/-- The buffers at launch. -/
abbrev Q0 : Valuation τ sig (Elt F) := launchContents m c
/-- The buffers after the first stretch, … -/
def Q1 : Valuation τ sig (Elt F) := after C0 (Q0 m c)
def Q2 : Valuation τ sig (Elt F) := after C1 (Q1 m c)
def Q3 : Valuation τ sig (Elt F) := after C2 (Q2 m c)
def Q4 : Valuation τ sig (Elt F) := after C3 (Q3 m c)
def Q5 : Valuation τ sig (Elt F) := after C4 (Q4 m c)
/-- … and after the last: the buffers the program ends with. -/
def Q6 : Valuation τ sig (Elt F) := after C5 (Q5 m c)

theorem after_all : after (C0 ++ C1 ++ C2 ++ C3 ++ C4 ++ C5) (launchContents m c) = Q6 m c := by
  rw [after_append, after_append, after_append, after_append, after_append]
  rfl

/-- On every device, from any memory with zero counters: every weakly fair execution of the program terminates
    with each buffer at the six stretches' folds, one after the other, of the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = Q6 m c (Proc.devRef .tc b) :=
  (θ_run defs _ _).mono (fun _ h c b => (h c b).trans (congrFun (after_all m c) _))
    (run_seq scopedRefs_eq scopedSems_eq defs main (fun _ => C0 ++ C1 ++ C2 ++ C3 ++ C4 ++ C5) main_eq (fun _ => ops_sub) m ρ
      (fun _ => ops_fresh))

end Cert.ReferenceIdeal.Hand

end
-- ==== Proof.LibRowProduct.lean ====
/-
  Row-by-column products of arrays of extended reals, read at an index, and the rows of a matrix taken as a
  matrix of their own. A product whose contraction axis is the sum of two extents splits into the product over
  the first extent plus the product over the second: only the associativity and commutativity of addition is
  used, so nothing here asks for finiteness.
-/
import Idealize.ShloMosaic.PureOps.Ideal
import Idealize.ShloMosaic.Lib.ValueIdx
import Mathlib.Algebra.BigOperators.Fin

noncomputable section

open scoped BigOperators

namespace Cert.RowProduct

open Idealize.ShloMosaic Idealize.ShloMosaic.ValueIdx

/-- An array of `a` rows and `b` columns of extended reals. -/
abbrev Mat (a b : Nat) : Type := (⟨2, ![a, b]⟩ : Shape).Idx → EReal

/-- The product of a matrix of `a` rows and `k` columns by one of `k` rows and `b` columns: the entry at row `r`,
    column `c` is the sum over `t` of the left factor at (r, t) times the right factor at (t, c). -/
def mm {a k b : Nat} (X : Mat a k) (W : Mat k b) : Mat a b :=
  fun i => ∑ t : Fin k, X (ix2 (i 0 : Fin a) t) * W (ix2 t (i 1 : Fin b))

theorem mm_apply {a k b : Nat} (X : Mat a k) (W : Mat k b) (r : Fin a) (c : Fin b) :
    mm X W (ix2 r c) = ∑ t : Fin k, X (ix2 r t) * W (ix2 t c) := rfl

/-- Rows `o`, …, `o + k - 1` of a matrix of `K` rows. -/
def rows {K b : Nat} (W : Mat K b) (o k : Nat) (h : o + k ≤ K) : Mat k b :=
  fun i => W (ix2 (⟨o + (i 0 : Fin k).val, by have h0 : (i 0 : Fin k).val < k := (i 0 : Fin k).isLt; omega⟩ : Fin K) (i 1 : Fin b))

theorem rows_apply {K b : Nat} (W : Mat K b) (o k : Nat) (h : o + k ≤ K) (t : Fin k) (c : Fin b) :
    rows W o k h (ix2 t c) = W (ix2 (⟨o + t.val, by have := t.isLt; omega⟩ : Fin K) c) := rfl

/-- A sum over `m + n` terms is the sum of the first `m` plus the sum of the last `n`, the terms named by their
    positions as natural numbers. -/
theorem sum_split {m n : Nat} (f : Fin (m + n) → EReal) :
    ∑ t : Fin (m + n), f t
      = ∑ t : Fin m, f ⟨t.val, by have := t.isLt; omega⟩ + ∑ t : Fin n, f ⟨m + t.val, by have := t.isLt; omega⟩ := by
  rw [Fin.sum_univ_add]
  rfl

end Cert.RowProduct

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.RefOps.lean ====
/-
  The reference program's dense-layer operations over arbitrary arrays of extended reals: each product of the program
  is the row-by-column product of its operands; a product whose left operand is several arrays joined side by side is
  the sum of the products of the pieces with the matching rows of the right operand; a bias row broadcast over the
  rows is read at the column; the maximum with the zero array is the entrywise maximum with zero; and one over one plus
  the exponential of the negation is the logistic function.
-/
import proofs.«141040_j31164282700071_1_alg».proof.ReferenceIdeal
import proofs.«141040_j31164282700071_1_alg».proof.Proof.LibRowProduct
import proofs.«141040_j31164282700071_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Ops

open Cert.ReferenceIdeal Cert.RowProduct Idealize.ShloMosaic Idealize.ShloMosaic.ValueIdx

/-- The host's product with the plain axis lists is the row-by-column product. -/
theorem dot_eq_mm {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : Mat M K) (r : Mat K N) :
    Host.dotGeneral (F := Ideal) (φ₁ := .f32) (φ₂ := .f32) d prec l r = mm l r := by
  funext i
  obtain ⟨p, n, rfl⟩ : ∃ p n, i = ix2 p n := ⟨i 0, i 1, eq_ix2 i⟩
  simp only [Host.dotGeneral]
  exact Cert.LibDenseEntry.dotGeneral_plain_apply d h1 h2 h3 h4 h5 h6 prec _ l r p n

/-- Rows of rows are rows: the offsets add. -/
theorem rows_rows {K b : Nat} (W : Mat K b) (o k : Nat) (h : o + k ≤ K) (o' k' : Nat) (h' : o' + k' ≤ k)
    (o'' : Nat) (e : o + o' = o'') :
    rows (rows W o k h) o' k' h' = rows W o'' k' (by omega) := by
  subst e
  funext i
  show W (ix2 ⟨o + (o' + (i 0).val), _⟩ (i 1)) = W (ix2 ⟨o + o' + (i 0).val, _⟩ (i 1))
  exact congrArg W (congrArg (fun q => ix2 q (i 1)) (Fin.ext (Nat.add_assoc _ _ _).symm))

/-- The product of two arrays joined side by side with a matrix is the product of the first with the matrix's first
    rows plus the product of the second with its last rows. -/
theorem mm_concat2 {M a b N : Nat} (A : Mat M a) (B : Mat M b)
    (h : Shape.Concatenates [(⟨2, ![M, a]⟩ : Shape), ⟨2, ![M, b]⟩] ⟨2, ![M, a + b]⟩ 1)
    (W : Mat (a + b) N) :
    mm (concatenate (⟨2, ![M, a + b]⟩ : Shape) 1 [⟨⟨2, ![M, a]⟩, A⟩, ⟨⟨2, ![M, b]⟩, B⟩] h) W
      = fun i => mm A (rows W 0 a (by omega)) i + mm B (rows W a b (by omega)) i := by
  funext i
  unfold mm
  rw [sum_split]
  refine congrArg₂ (· + ·) (Finset.sum_congr rfl fun t _ => ?_) (Finset.sum_congr rfl fun t _ => ?_)
  · refine congrArg₂ (· * ·) ?_ ?_
    · exact concatenate_pair_apply_left 1 A B h _ rfl (ix2 (i 0) t)
        (fun b => match b with | ⟨0, _⟩ => rfl | ⟨1, _⟩ => rfl)
    · exact congrArg W (congrArg (fun q => ix2 q (i 1)) (Fin.ext (Nat.zero_add _).symm))
  · refine congrArg₂ (· * ·) ?_ rfl
    exact concatenate_pair_apply_right 1 A B h _ rfl rfl (ix2 (i 0) t)
      (fun b => match b with | ⟨0, _⟩ => fun _ => rfl | ⟨1, _⟩ => fun hb => absurd rfl hb)
      (by show t.val + a = a + t.val; omega)

/-- The same with the matrix given as a block of rows of a taller one: the offsets add. -/
theorem mm_concat2_rows {M a b N K : Nat} (A : Mat M a) (B : Mat M b)
    (h : Shape.Concatenates [(⟨2, ![M, a]⟩ : Shape), ⟨2, ![M, b]⟩] ⟨2, ![M, a + b]⟩ 1)
    (W : Mat K N) (o : Nat) (ho : o + (a + b) ≤ K) (o' : Nat) (e : o + a = o') :
    mm (concatenate (⟨2, ![M, a + b]⟩ : Shape) 1 [⟨⟨2, ![M, a]⟩, A⟩, ⟨⟨2, ![M, b]⟩, B⟩] h) (rows W o (a + b) ho)
      = fun i => mm A (rows W o a (by omega)) i + mm B (rows W o' b (by omega)) i := by
  refine (mm_concat2 A B h (rows W o (a + b) ho)).trans ?_
  funext i
  rw [rows_rows W o (a + b) ho 0 a (by omega) o (Nat.add_zero o), rows_rows W o (a + b) ho a b (by omega) o' e]

/-- The product of three arrays joined side by side with a matrix is the sum of the products of the pieces with the
    matching rows of the matrix. -/
theorem mm_concat3 {M a b c N : Nat} (A : Mat M a) (B : Mat M b) (C : Mat M c)
    (h : Shape.Concatenates [(⟨2, ![M, a]⟩ : Shape), ⟨2, ![M, b]⟩, ⟨2, ![M, c]⟩] ⟨2, ![M, a + b + c]⟩ 1)
    (W : Mat (a + b + c) N) :
    mm (concatenate (⟨2, ![M, a + b + c]⟩ : Shape) 1
        [⟨⟨2, ![M, a]⟩, A⟩, ⟨⟨2, ![M, b]⟩, B⟩, ⟨⟨2, ![M, c]⟩, C⟩] h) W
      = fun i => mm A (rows W 0 a (by omega)) i + mm B (rows W a b (by omega)) i
          + mm C (rows W (a + b) c (by omega)) i := by
  funext i
  unfold mm
  rw [sum_split, sum_split]
  refine congrArg₂ (· + ·) (congrArg₂ (· + ·) (Finset.sum_congr rfl fun t _ => ?_)
    (Finset.sum_congr rfl fun t _ => ?_)) (Finset.sum_congr rfl fun t _ => ?_)
  · refine congrArg₂ (· * ·) ?_ ?_
    · exact concatenate_apply_piece (t := ⟨2, ![M, a + b + c]⟩) 1
        [⟨⟨2, ![M, a]⟩, A⟩, ⟨⟨2, ![M, b]⟩, B⟩, ⟨⟨2, ![M, c]⟩, C⟩] h _ 0 (by decide : 0 < 3) ⟨2, ![M, a]⟩ A rfl rfl 0 rfl (ix2 (i 0) t)
        (fun b => match b with | ⟨0, _⟩ => fun _ => rfl | ⟨1, _⟩ => fun hb => absurd rfl hb)
        (by show 0 + t.val = t.val; omega)
    · exact congrArg W (congrArg (fun q => ix2 q (i 1)) (Fin.ext (Nat.zero_add _).symm))
  · refine congrArg₂ (· * ·) ?_ rfl
    exact concatenate_apply_piece (t := ⟨2, ![M, a + b + c]⟩) 1
        [⟨⟨2, ![M, a]⟩, A⟩, ⟨⟨2, ![M, b]⟩, B⟩, ⟨⟨2, ![M, c]⟩, C⟩] h _ 1 (by decide : 1 < 3) ⟨2, ![M, b]⟩ B rfl rfl a rfl (ix2 (i 0) t)
      (fun b => match b with | ⟨0, _⟩ => fun _ => rfl | ⟨1, _⟩ => fun hb => absurd rfl hb)
      rfl
  · refine congrArg₂ (· * ·) ?_ rfl
    exact concatenate_apply_piece (t := ⟨2, ![M, a + b + c]⟩) 1
        [⟨⟨2, ![M, a]⟩, A⟩, ⟨⟨2, ![M, b]⟩, B⟩, ⟨⟨2, ![M, c]⟩, C⟩] h _ 2 (by decide : 2 < 3) ⟨2, ![M, c]⟩ C rfl rfl (a + b) (by show a + (b + 0) = a + b; omega) (ix2 (i 0) t)
      (fun b => match b with | ⟨0, _⟩ => fun _ => rfl | ⟨1, _⟩ => fun hb => absurd rfl hb)
      rfl

/-- The bit pattern 0x3F800000 is the number one. -/
theorem ofBits_one_f32 : Ideal.ofBits .f32 0x3F800000#32 = 1 := by
  simp [Ideal.ofBits, Ideal.ieee, -EReal.coe_mul]; norm_num

/-- One over one plus the exponential of the negation, in the host's operations, is the logistic function. -/
theorem logistic_spelled (y : Ideal .f32) :
    FloatOps.hostDivf (Ideal.ofBits .f32 0x3F800000#32)
        (FloatOps.addf (Ideal.ofBits .f32 0x3F800000#32) (FloatOps.hostUnary .exp (FloatOps.hostNegf y)))
      = Ideal.logistic y := by
  rw [ofBits_one_f32]
  rfl
/-! The program's operations cite the shape relations its statement lists; the lemmas below hold for any evidence of
them. -/
variable [Facts₀]
open Facts₀

/-! ## The program's four products -/

/-- The first layer's product, 50000 × 500 by 500 × 64. -/
theorem dot_500_64 (X : Mat 50000 500) (W : Mat 500 64) :
    Host.dotGeneral (F := Ideal) (φ₁ := .f32) (φ₂ := .f32) dot_S50000x500_S500x64_S50000x64_1_0_0_1_n_n none X W
      = mm X W :=
  dot_eq_mm dot_S50000x500_S500x64_S50000x64_1_0_0_1_n_n rfl rfl rfl rfl rfl rfl none X W

/-- The product 50000 × 64 by 64 × 64. -/
theorem dot_64_64 (X : Mat 50000 64) (W : Mat 64 64) :
    Host.dotGeneral (F := Ideal) (φ₁ := .f32) (φ₂ := .f32) dot_S50000x64_S64x64_S50000x64_1_0_0_1_n_n none X W
      = mm X W :=
  dot_eq_mm dot_S50000x64_S64x64_S50000x64_1_0_0_1_n_n rfl rfl rfl rfl rfl rfl none X W

/-- The product 50000 × 128 by 128 × 128. -/
theorem dot_128_128 (X : Mat 50000 128) (W : Mat 128 128) :
    Host.dotGeneral (F := Ideal) (φ₁ := .f32) (φ₂ := .f32) dot_S50000x128_S128x128_S50000x128_1_0_0_1_n_n none X W
      = mm X W :=
  dot_eq_mm dot_S50000x128_S128x128_S50000x128_1_0_0_1_n_n rfl rfl rfl rfl rfl rfl none X W

/-- The product 50000 × 448 by 448 × 50. -/
theorem dot_448_50 (X : Mat 50000 448) (W : Mat 448 50) :
    Host.dotGeneral (F := Ideal) (φ₁ := .f32) (φ₂ := .f32) dot_S50000x448_S448x50_S50000x50_1_0_0_1_n_n none X W
      = mm X W :=
  dot_eq_mm dot_S50000x448_S448x50_S50000x50_1_0_0_1_n_n rfl rfl rfl rfl rfl rfl none X W

/-! ## A bias row broadcast over the rows -/

/-- A row of 64 entries, made a 1 × 64 array and then repeated over 50000 rows, read at an index is the row's entry
    at the index's column. -/
theorem bias_64 (b : S64.Idx → EReal) :
    broadcastInDim S50000x64 ![0, 1] bcast_S1x64_S50000x64_0_1 (broadcastInDim S1x64 ![1] bcast_S64_S1x64_1 b)
      = fun i => b (ix1 (i 1 : Fin 64)) := by
  funext i
  refine (broadcastInDim_apply _ bcast_S1x64_S50000x64_0_1 _ i (ix2 (0 : Fin 1) (i 1 : Fin 64)) (fun a =>
    match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 b _ (ix1 (i 1 : Fin 64)) (fun a =>
    match a with
    | ⟨0, _⟩ => by show (i 1).val = if (64 : Nat) = 1 then 0 else (i 1).val; rw [if_neg (by decide)])

/-- The same for a row of 128 entries. -/
theorem bias_128 (b : S128.Idx → EReal) :
    broadcastInDim S50000x128 ![0, 1] bcast_S1x128_S50000x128_0_1 (broadcastInDim S1x128 ![1] bcast_S128_S1x128_1 b)
      = fun i => b (ix1 (i 1 : Fin 128)) := by
  funext i
  refine (broadcastInDim_apply _ bcast_S1x128_S50000x128_0_1 _ i (ix2 (0 : Fin 1) (i 1 : Fin 128)) (fun a =>
    match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b _ (ix1 (i 1 : Fin 128)) (fun a =>
    match a with
    | ⟨0, _⟩ => by show (i 1).val = if (128 : Nat) = 1 then 0 else (i 1).val; rw [if_neg (by decide)])

/-- The same for a row of 50 entries. -/
theorem bias_50 (b : S50.Idx → EReal) :
    broadcastInDim S50000x50 ![0, 1] bcast_S1x50_S50000x50_0_1 (broadcastInDim S1x50 ![1] bcast_S50_S1x50_1 b)
      = fun i => b (ix1 (i 1 : Fin 50)) := by
  funext i
  refine (broadcastInDim_apply _ bcast_S1x50_S50000x50_0_1 _ i (ix2 (0 : Fin 1) (i 1 : Fin 50)) (fun a =>
    match a with
    | ⟨0, _⟩ => by show 0 = if (1 : Nat) = 1 then 0 else (i 0).val; rw [if_pos rfl]
    | ⟨1, _⟩ => by show (i 1).val = if (50 : Nat) = 1 then 0 else (i 1).val; rw [if_neg (by decide)])).trans ?_
  exact broadcastInDim_apply _ bcast_S50_S1x50_1 b _ (ix1 (i 1 : Fin 50)) (fun a =>
    match a with
    | ⟨0, _⟩ => by show (i 1).val = if (50 : Nat) = 1 then 0 else (i 1).val; rw [if_neg (by decide)])

/-! ## The maximum with the zero array -/

/-- The entrywise maximum with the array that is the constant zero everywhere is the maximum with zero. -/
theorem relu_64 (Y : Mat 50000 64) :
    maximumf (F := Ideal) (φ := .f32) Y
        (broadcastInDim S50000x64 ![] bcast_S_S50000x64 (constant (F := Ideal) S_ .f32 0x00000000#32))
      = fun i => max (Y i) 0 := by
  funext i
  refine congrArg (max (Y i)) ?_
  refine (broadcastInDim_apply _ bcast_S_S50000x64 _ i (fun a => a.elim0) (fun a => a.elim0)).trans ?_
  exact Ideal.ofBits_zero_f32

/-! ## Products whose left operand is joined from pieces -/

/-- Two 64-column arrays joined side by side, times a 128-row matrix. -/
theorem dot_concat_64_64 (A B : Mat 50000 64) (W : Mat 128 128) :
    Host.dotGeneral (F := Ideal) (φ₁ := .f32) (φ₂ := .f32) dot_S50000x128_S128x128_S50000x128_1_0_0_1_n_n none
        (concatenate S50000x128 1 [⟨S50000x64, A⟩, ⟨S50000x64, B⟩] concatenates_S50000x64_S50000x64_S50000x128_d1) W
      = fun i => mm A (rows W 0 64 (by omega)) i + mm B (rows W 64 64 (by omega)) i := by
  refine (dot_128_128 _ W).trans ?_
  exact mm_concat2 (M := 50000) (a := 64) (b := 64) (N := 128) A B
    concatenates_S50000x64_S50000x64_S50000x128_d1 W

/-- A 64-column array, two joined 64-column arrays and two joined 128-column arrays, all joined side by side, times
    a 448-row matrix: the five pieces meet rows 0…63, 64…127, 128…191, 192…319 and 320…447 of the matrix. -/
theorem dot_concat_448 (X A B : Mat 50000 64) (C D : Mat 50000 128) (W : Mat 448 50) :
    Host.dotGeneral (F := Ideal) (φ₁ := .f32) (φ₂ := .f32) dot_S50000x448_S448x50_S50000x50_1_0_0_1_n_n none
        (concatenate S50000x448 1
          [⟨S50000x64, X⟩,
           ⟨S50000x128, concatenate S50000x128 1 [⟨S50000x64, A⟩, ⟨S50000x64, B⟩]
              concatenates_S50000x64_S50000x64_S50000x128_d1⟩,
           ⟨S50000x256, concatenate S50000x256 1 [⟨S50000x128, C⟩, ⟨S50000x128, D⟩]
              concatenates_S50000x128_S50000x128_S50000x256_d1⟩]
          concatenates_S50000x64_S50000x128_S50000x256_S50000x448_d1) W
      = fun i => ((((mm X (rows W 0 64 (by omega)) i + mm A (rows W 64 64 (by omega)) i)
          + mm B (rows W 128 64 (by omega)) i) + mm C (rows W 192 128 (by omega)) i)
          + mm D (rows W 320 128 (by omega)) i) := by
  refine (dot_448_50 _ W).trans ?_
  refine (mm_concat3 (M := 50000) (a := 64) (b := 128) (c := 256) (N := 50) X _ _
    concatenates_S50000x64_S50000x128_S50000x256_S50000x448_d1 W).trans ?_
  funext i
  have eAB := congrFun (mm_concat2_rows (M := 50000) (a := 64) (b := 64) (N := 50) A B
    concatenates_S50000x64_S50000x64_S50000x128_d1 W 64 (by omega) 128 rfl) i
  have eCD := congrFun (mm_concat2_rows (M := 50000) (a := 128) (b := 128) (N := 50) C D
    concatenates_S50000x128_S50000x128_S50000x256_d1 W 192 (by omega) 320 rfl) i
  refine (congrArg₂ (· + ·) (congrArg₂ (· + ·) rfl eAB) eCD).trans ?_
  simp only [add_assoc]

/-! ## The logistic function, spelled out -/

/-- One over (one plus the exponential of the negation), entry by entry, is the logistic function. -/
theorem logistic_50 (Y : Mat 50000 50) :
    Host.divf (F := Ideal) (φ := .f32)
        (broadcastInDim S50000x50 ![] bcast_S_S50000x50 (constant (F := Ideal) S_ .f32 0x3F800000#32))
        (addf (broadcastInDim S50000x50 ![] bcast_S_S50000x50 (constant (F := Ideal) S_ .f32 0x3F800000#32))
          (Host.exp (Host.negf Y)))
      = fun i => Ideal.logistic (Y i) := by
  funext i
  have hb : broadcastInDim S50000x50 ![] bcast_S_S50000x50 (constant (F := Ideal) S_ .f32 0x3F800000#32) i
      = Ideal.ofBits .f32 0x3F800000#32 :=
    broadcastInDim_apply _ bcast_S_S50000x50 _ i (fun a => a.elim0) (fun a => a.elim0)
  refine Eq.trans ?_ (logistic_spelled (Y i))
  exact congrArg₂ (fun u v => FloatOps.hostDivf (F := Ideal) (φ := .f32) u
    (FloatOps.addf v (FloatOps.hostUnary .exp (FloatOps.hostNegf (Y i))))) hb hb

end Cert.ReferenceIdeal.Ops

end
-- ==== Proof.RefFold.lean ====
/-
  What the reference program's six stretches leave in the buffers the later stretches read, followed from the launch
  contents: the source and destination node numbers of the edges, the first dense layer, each neighbourhood sum — the
  rows of a [50000, d] array gathered at the edges' source nodes and summed into their destination nodes, plus the bias
  row — and each product, down to the logistic function of the last one. A stretch changes only the buffers its
  operations write, so a buffer is followed from the stretch that writes it to any later one.
-/
import proofs.«141040_j31164282700071_1_alg».proof.Proof.RefRun
import proofs.«141040_j31164282700071_1_alg».proof.Proof.RefOps
import proofs.«141040_j31164282700071_1_alg».proof.Proof.LibRowProduct
import Idealize.ShloMosaic.PureOps.Ideal
import Idealize.ShloMosaic.Lib.ValueIdx

set_option maxRecDepth 16384

noncomputable section

namespace Cert.ReferenceIdeal.Hand

open Cert.ReferenceIdeal Cert.ReferenceIdeal.Gen Cert.ReferenceIdeal.Ops Cert.RowProduct
open Idealize.ShloMosaic Idealize.ShloMosaic.TcCoe Idealize.SL.Sem Idealize.ShloMosaic.StableHlo Idealize.ShloMosaic.ValueIdx

/-! ## What each stretch writes -/

abbrev C0_W : List (Ref sig .tc) :=
  [main_v0, main_v1, main_v2, main_v3, main_v4, main_v5, main_v6, main_v7, main_call0_cst, main_call0_v0, main_v8, main_v9]
abbrev C1_W : List (Ref sig .tc) :=
  [main_c, main_v10, main_v11, main_c_0, main_v12, main_v13, main_v14, main_v15, main_v16, main_cst, main_v17, main_v18, main_v19, main_v20, main_v21, main_v22, main_v23]
abbrev C2_W : List (Ref sig .tc) :=
  [main_c_1, main_v24, main_v25, main_c_2, main_v26, main_v27, main_v28, main_v29, main_v30, main_cst_3, main_v31, main_v32, main_v33, main_v34, main_v35, main_v36, main_v37, main_v38]
abbrev C3_W : List (Ref sig .tc) :=
  [main_c_4, main_v39, main_v40, main_c_5, main_v41, main_v42, main_v43, main_v44, main_v45, main_cst_6, main_v46, main_v47, main_v48, main_v49, main_v50, main_v51, main_v52]
abbrev C4_W : List (Ref sig .tc) :=
  [main_c_7, main_v53, main_v54, main_c_8, main_v55, main_v56, main_v57, main_v58, main_v59, main_cst_9, main_v60, main_v61, main_v62, main_v63, main_v64, main_v65, main_v66, main_v67, main_v68]
abbrev C5_W : List (Ref sig .tc) :=
  [main_v69, main_v70, main_v71, main_v72, main_v73, main_cst_10, main_v74, main_v75, main_cst_11, main_v76, main_v77]

/-- Every operation of a literal stretch writes a buffer of the listed ones. -/
macro "ref_writes_listed" : tactic =>
  `(tactic| (simp only [List.Forall]
             repeat' apply And.intro
             all_goals (simp only [StableHlo.nullary_writes, StableHlo.unary_writes, StableHlo.binary_writes,
               StableHlo.ternary_writes, StableHlo.quaternary_writes, StableHlo.reshape_writes,
               StableHlo.binaryIndexed_writes, StableHlo.unaryIndexed_writes, StableHlo.nary_writes,
               Finset.singleton_subset_iff, List.mem_toFinset]
                        exact List.mem_map_of_mem (by decide))))

theorem C0_writes : (C0 : List (HloOp τ sig (Elt Ideal))).Forall fun op =>
    op.writes ⊆ (C0_W.map (Proc.devRef (τ := τ) .tc)).toFinset := by ref_writes_listed
theorem C1_writes : (C1 : List (HloOp τ sig (Elt Ideal))).Forall fun op =>
    op.writes ⊆ (C1_W.map (Proc.devRef (τ := τ) .tc)).toFinset := by ref_writes_listed
theorem C2_writes : (C2 : List (HloOp τ sig (Elt Ideal))).Forall fun op =>
    op.writes ⊆ (C2_W.map (Proc.devRef (τ := τ) .tc)).toFinset := by ref_writes_listed
theorem C3_writes : (C3 : List (HloOp τ sig (Elt Ideal))).Forall fun op =>
    op.writes ⊆ (C3_W.map (Proc.devRef (τ := τ) .tc)).toFinset := by ref_writes_listed
theorem C4_writes : (C4 : List (HloOp τ sig (Elt Ideal))).Forall fun op =>
    op.writes ⊆ (C4_W.map (Proc.devRef (τ := τ) .tc)).toFinset := by ref_writes_listed
theorem C5_writes : (C5 : List (HloOp τ sig (Elt Ideal))).Forall fun op =>
    op.writes ⊆ (C5_W.map (Proc.devRef (τ := τ) .tc)).toFinset := by ref_writes_listed

/-! ## One boundary to the next -/

variable (m : (ℓ : Loc nD τ sig) → Buf (Elt Ideal) ℓ) (c : Dev nD)

theorem Q1_keep (r : Ref sig .tc) (h : r ∉ C0_W) :
    Q1 m c (Proc.devRef .tc r) = Q0 m c (Proc.devRef .tc r) :=
  after_of_writes_sub C0 _ C0_writes h
theorem Q2_keep (r : Ref sig .tc) (h : r ∉ C1_W) :
    Q2 m c (Proc.devRef .tc r) = Q1 m c (Proc.devRef .tc r) :=
  after_of_writes_sub C1 _ C1_writes h
theorem Q3_keep (r : Ref sig .tc) (h : r ∉ C2_W) :
    Q3 m c (Proc.devRef .tc r) = Q2 m c (Proc.devRef .tc r) :=
  after_of_writes_sub C2 _ C2_writes h
theorem Q4_keep (r : Ref sig .tc) (h : r ∉ C3_W) :
    Q4 m c (Proc.devRef .tc r) = Q3 m c (Proc.devRef .tc r) :=
  after_of_writes_sub C3 _ C3_writes h
theorem Q5_keep (r : Ref sig .tc) (h : r ∉ C4_W) :
    Q5 m c (Proc.devRef .tc r) = Q4 m c (Proc.devRef .tc r) :=
  after_of_writes_sub C4 _ C4_writes h
theorem Q6_keep (r : Ref sig .tc) (h : r ∉ C5_W) :
    Q6 m c (Proc.devRef .tc r) = Q5 m c (Proc.devRef .tc r) :=
  after_of_writes_sub C5 _ C5_writes h

/-- A buffer no stretch so far writes still holds its launch contents. -/
theorem Q1_init (r : Ref sig .tc) (h0 : r ∉ C0_W) : Q1 m c (Proc.devRef .tc r) = m ((c.tc : Thread nD τ).loc r) :=
  Q1_keep m c r h0
theorem Q2_init (r : Ref sig .tc) (h0 : r ∉ C0_W) (h1 : r ∉ C1_W) :
    Q2 m c (Proc.devRef .tc r) = m ((c.tc : Thread nD τ).loc r) :=
  (Q2_keep m c r h1).trans (Q1_init m c r h0)
theorem Q3_init (r : Ref sig .tc) (h0 : r ∉ C0_W) (h1 : r ∉ C1_W) (h2 : r ∉ C2_W) :
    Q3 m c (Proc.devRef .tc r) = m ((c.tc : Thread nD τ).loc r) :=
  (Q3_keep m c r h2).trans (Q2_init m c r h0 h1)
theorem Q4_init (r : Ref sig .tc) (h0 : r ∉ C0_W) (h1 : r ∉ C1_W) (h2 : r ∉ C2_W) (h3 : r ∉ C3_W) :
    Q4 m c (Proc.devRef .tc r) = m ((c.tc : Thread nD τ).loc r) :=
  (Q4_keep m c r h3).trans (Q3_init m c r h0 h1 h2)
theorem Q5_init (r : Ref sig .tc) (h0 : r ∉ C0_W) (h1 : r ∉ C1_W) (h2 : r ∉ C2_W) (h3 : r ∉ C3_W) (h4 : r ∉ C4_W) :
    Q5 m c (Proc.devRef .tc r) = m ((c.tc : Thread nD τ).loc r) :=
  (Q5_keep m c r h4).trans (Q4_init m c r h0 h1 h2 h3)
theorem Q6_init (r : Ref sig .tc) (h0 : r ∉ C0_W) (h1 : r ∉ C1_W) (h2 : r ∉ C2_W) (h3 : r ∉ C3_W) (h4 : r ∉ C4_W) (h5 : r ∉ C5_W) :
    Q6 m c (Proc.devRef .tc r) = m ((c.tc : Thread nD τ).loc r) :=
  (Q6_keep m c r h5).trans (Q5_init m c r h0 h1 h2 h3 h4)

/-- The program's arguments end as they were. -/
theorem Q6_arg0 : Q6 m c (Proc.devRef .tc main_arg0) = m ((c.tc : Thread nD τ).loc main_arg0) :=
  Q6_init m c main_arg0 (by decide) (by decide) (by decide) (by decide) (by decide) (by decide)
theorem Q6_arg1 : Q6 m c (Proc.devRef .tc main_arg1) = m ((c.tc : Thread nD τ).loc main_arg1) :=
  Q6_init m c main_arg1 (by decide) (by decide) (by decide) (by decide) (by decide) (by decide)
theorem Q6_arg2 : Q6 m c (Proc.devRef .tc main_arg2) = m ((c.tc : Thread nD τ).loc main_arg2) :=
  Q6_init m c main_arg2 (by decide) (by decide) (by decide) (by decide) (by decide) (by decide)
theorem Q6_arg3 : Q6 m c (Proc.devRef .tc main_arg3) = m ((c.tc : Thread nD τ).loc main_arg3) :=
  Q6_init m c main_arg3 (by decide) (by decide) (by decide) (by decide) (by decide) (by decide)
theorem Q6_arg4 : Q6 m c (Proc.devRef .tc main_arg4) = m ((c.tc : Thread nD τ).loc main_arg4) :=
  Q6_init m c main_arg4 (by decide) (by decide) (by decide) (by decide) (by decide) (by decide)
theorem Q6_arg5 : Q6 m c (Proc.devRef .tc main_arg5) = m ((c.tc : Thread nD τ).loc main_arg5) :=
  Q6_init m c main_arg5 (by decide) (by decide) (by decide) (by decide) (by decide) (by decide)
theorem Q6_arg6 : Q6 m c (Proc.devRef .tc main_arg6) = m ((c.tc : Thread nD τ).loc main_arg6) :=
  Q6_init m c main_arg6 (by decide) (by decide) (by decide) (by decide) (by decide) (by decide)
theorem Q6_arg7 : Q6 m c (Proc.devRef .tc main_arg7) = m ((c.tc : Thread nD τ).loc main_arg7) :=
  Q6_init m c main_arg7 (by decide) (by decide) (by decide) (by decide) (by decide) (by decide)
theorem Q6_arg8 : Q6 m c (Proc.devRef .tc main_arg8) = m ((c.tc : Thread nD τ).loc main_arg8) :=
  Q6_init m c main_arg8 (by decide) (by decide) (by decide) (by decide) (by decide) (by decide)
theorem Q6_arg9 : Q6 m c (Proc.devRef .tc main_arg9) = m ((c.tc : Thread nD τ).loc main_arg9) :=
  Q6_init m c main_arg9 (by decide) (by decide) (by decide) (by decide) (by decide) (by decide)

/-! ## The pieces the stretches compute -/

/-- The edges' source nodes: row 0 of the edge array. -/
def srcIdx (a1 : (⟨S2x800000, .i32⟩ : BufTy).Contents (Elt Ideal)) : (⟨S800000, .i32⟩ : BufTy).Contents (Elt Ideal) :=
  shapeCast S800000 (extractStridedSlice S1x800000 ![0, 0] a1 slices_S2x800000_S1x800000_0_0) shapeCasts_S1x800000_S800000

/-- The edges' destination nodes: row 1 of the edge array. -/
def dstIdx (a1 : (⟨S2x800000, .i32⟩ : BufTy).Contents (Elt Ideal)) : (⟨S800000, .i32⟩ : BufTy).Contents (Elt Ideal) :=
  shapeCast S800000 (extractStridedSlice S1x800000 ![1, 0] a1 slices_S2x800000_S1x800000_1_0) shapeCasts_S1x800000_S800000

/-- The neighbourhood sum over 64 columns: the rows of `h` at the source nodes (a negative number counted from
    the end) summed into the destination nodes' rows of a zero array, plus the bias row. -/
def agg64 (src dst : (⟨S800000, .i32⟩ : BufTy).Contents (Elt Ideal)) (b : (⟨S64, .f32⟩ : BufTy).Contents (Elt Ideal))
    (h : (⟨S50000x64, .f32⟩ : BufTy).Contents (Elt Ideal)) : (⟨S50000x64, .f32⟩ : BufTy).Contents (Elt Ideal) :=
  addf (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x64 ![0, 1] bcast_S1x64_S50000x64_0_1 (broadcastInDim S1x64 ![1] bcast_S64_S1x64_1 b))

/-- The neighbourhood sum over 128 columns. -/
def agg128 (src dst : (⟨S800000, .i32⟩ : BufTy).Contents (Elt Ideal)) (b : (⟨S128, .f32⟩ : BufTy).Contents (Elt Ideal))
    (h : (⟨S50000x128, .f32⟩ : BufTy).Contents (Elt Ideal)) : (⟨S50000x128, .f32⟩ : BufTy).Contents (Elt Ideal) :=
  addf (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S1x128_S50000x128_0_1 (broadcastInDim S1x128 ![1] bcast_S128_S1x128_1 b))

/-! ## Reading a stretch's results -/

/-- An operation over a literal family of three references leaves at its result its function of the three operands'
    contents, each at its own reference. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same with the result reference left out of the rewriting index, for rewriting in one pass. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (nary (τ := τ') ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- Unfolds the fold over a literal stretch at a literal reference in one pass: each operation's result at its own
    buffer is its function's value, at any other buffer what was there; an operation over three references reads each
    operand at its own reference. -/
macro "reads3_simp" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ### The first stretch -/

set_option maxHeartbeats 2000000 in
/-- The source nodes. -/
theorem Q1_v1 : Q1 m c (Proc.devRef .tc main_v1)
    = (srcIdx (Q0 m c (Proc.devRef .tc main_arg1)) : (⟨S800000, .i32⟩ : BufTy).Contents (Elt Ideal)) := by
  show after C0 (Q0 m c) (Proc.devRef .tc main_v1)
    = (srcIdx (Q0 m c (Proc.devRef .tc main_arg1)) : (⟨S800000, .i32⟩ : BufTy).Contents (Elt Ideal))
  generalize Q0 m c = V
  after_results_simp
  all_goals rfl

set_option maxHeartbeats 2000000 in
/-- The destination nodes. -/
theorem Q1_v3 : Q1 m c (Proc.devRef .tc main_v3)
    = (dstIdx (Q0 m c (Proc.devRef .tc main_arg1)) : (⟨S800000, .i32⟩ : BufTy).Contents (Elt Ideal)) := by
  show after C0 (Q0 m c) (Proc.devRef .tc main_v3)
    = (dstIdx (Q0 m c (Proc.devRef .tc main_arg1)) : (⟨S800000, .i32⟩ : BufTy).Contents (Elt Ideal))
  generalize Q0 m c = V
  after_results_simp
  all_goals rfl

set_option maxHeartbeats 2000000 in
/-- The first dense layer, in the program's operations. -/
theorem Q1_v8_read : Q1 m c (Proc.devRef .tc main_v8)
    = (maximumf (F := Ideal) (φ := .f32) (addf (Host.dotGeneral (F := Ideal) (φ₁ := .f32) (φ₂ := .f32) dot_S50000x500_S500x64_S50000x64_1_0_0_1_n_n none (Q0 m c (Proc.devRef .tc main_arg0)) (Q0 m c (Proc.devRef .tc main_arg2))) (broadcastInDim S50000x64 ![0, 1] bcast_S1x64_S50000x64_0_1 (broadcastInDim S1x64 ![1] bcast_S64_S1x64_1 (Q0 m c (Proc.devRef .tc main_arg3))))) (broadcastInDim S50000x64 ![] bcast_S_S50000x64 (constant (F := Ideal) S_ .f32 0x00000000#32)) : (⟨S50000x64, .f32⟩ : BufTy).Contents (Elt Ideal)) := by
  show after C0 (Q0 m c) (Proc.devRef .tc main_v8)
    = (maximumf (F := Ideal) (φ := .f32) (addf (Host.dotGeneral (F := Ideal) (φ₁ := .f32) (φ₂ := .f32) dot_S50000x500_S500x64_S50000x64_1_0_0_1_n_n none (Q0 m c (Proc.devRef .tc main_arg0)) (Q0 m c (Proc.devRef .tc main_arg2))) (broadcastInDim S50000x64 ![0, 1] bcast_S1x64_S50000x64_0_1 (broadcastInDim S1x64 ![1] bcast_S64_S1x64_1 (Q0 m c (Proc.devRef .tc main_arg3))))) (broadcastInDim S50000x64 ![] bcast_S_S50000x64 (constant (F := Ideal) S_ .f32 0x00000000#32)) : (⟨S50000x64, .f32⟩ : BufTy).Contents (Elt Ideal))
  generalize Q0 m c = V
  after_results_simp
  all_goals rfl

set_option maxHeartbeats 2000000 in
/-- The first layer's product with the second weights. -/
theorem Q1_v9_read : Q1 m c (Proc.devRef .tc main_v9)
    = (Host.dotGeneral (F := Ideal) (φ₁ := .f32) (φ₂ := .f32) dot_S50000x64_S64x64_S50000x64_1_0_0_1_n_n none (Q1 m c (Proc.devRef .tc main_v8)) (Q0 m c (Proc.devRef .tc main_arg4)) : (⟨S50000x64, .f32⟩ : BufTy).Contents (Elt Ideal)) := by
  show after C0 (Q0 m c) (Proc.devRef .tc main_v9)
    = (Host.dotGeneral (F := Ideal) (φ₁ := .f32) (φ₂ := .f32) dot_S50000x64_S64x64_S50000x64_1_0_0_1_n_n none (after C0 (Q0 m c) (Proc.devRef .tc main_v8)) (Q0 m c (Proc.devRef .tc main_arg4)) : (⟨S50000x64, .f32⟩ : BufTy).Contents (Elt Ideal))
  generalize Q0 m c = V
  after_results_simp
  all_goals rfl

/-! ### The second stretch -/

set_option maxHeartbeats 2000000 in
/-- The first neighbourhood sum. -/
theorem Q2_v22_read : Q2 m c (Proc.devRef .tc main_v22)
    = (agg64 (Q1 m c (Proc.devRef .tc main_v1)) (Q1 m c (Proc.devRef .tc main_v3)) (Q1 m c (Proc.devRef .tc main_arg5)) (Q1 m c (Proc.devRef .tc main_v9)) : (⟨S50000x64, .f32⟩ : BufTy).Contents (Elt Ideal)) := by
  show after C1 (Q1 m c) (Proc.devRef .tc main_v22)
    = (agg64 (Q1 m c (Proc.devRef .tc main_v1)) (Q1 m c (Proc.devRef .tc main_v3)) (Q1 m c (Proc.devRef .tc main_arg5)) (Q1 m c (Proc.devRef .tc main_v9)) : (⟨S50000x64, .f32⟩ : BufTy).Contents (Elt Ideal))
  generalize Q1 m c = V
  after_results_simp
  all_goals rfl

set_option maxHeartbeats 2000000 in
/-- Its product with the second weights. -/
theorem Q2_v23_read : Q2 m c (Proc.devRef .tc main_v23)
    = (Host.dotGeneral (F := Ideal) (φ₁ := .f32) (φ₂ := .f32) dot_S50000x64_S64x64_S50000x64_1_0_0_1_n_n none (Q2 m c (Proc.devRef .tc main_v22)) (Q1 m c (Proc.devRef .tc main_arg4)) : (⟨S50000x64, .f32⟩ : BufTy).Contents (Elt Ideal)) := by
  show after C1 (Q1 m c) (Proc.devRef .tc main_v23)
    = (Host.dotGeneral (F := Ideal) (φ₁ := .f32) (φ₂ := .f32) dot_S50000x64_S64x64_S50000x64_1_0_0_1_n_n none (after C1 (Q1 m c) (Proc.devRef .tc main_v22)) (Q1 m c (Proc.devRef .tc main_arg4)) : (⟨S50000x64, .f32⟩ : BufTy).Contents (Elt Ideal))
  generalize Q1 m c = V
  after_results_simp
  all_goals rfl

/-! ### The third stretch -/

set_option maxHeartbeats 2000000 in
/-- The second neighbourhood sum. -/
theorem Q3_v36_read : Q3 m c (Proc.devRef .tc main_v36)
    = (agg64 (Q2 m c (Proc.devRef .tc main_v1)) (Q2 m c (Proc.devRef .tc main_v3)) (Q2 m c (Proc.devRef .tc main_arg5)) (Q2 m c (Proc.devRef .tc main_v23)) : (⟨S50000x64, .f32⟩ : BufTy).Contents (Elt Ideal)) := by
  show after C2 (Q2 m c) (Proc.devRef .tc main_v36)
    = (agg64 (Q2 m c (Proc.devRef .tc main_v1)) (Q2 m c (Proc.devRef .tc main_v3)) (Q2 m c (Proc.devRef .tc main_arg5)) (Q2 m c (Proc.devRef .tc main_v23)) : (⟨S50000x64, .f32⟩ : BufTy).Contents (Elt Ideal))
  generalize Q2 m c = V
  after_results_simp
  all_goals rfl

set_option maxHeartbeats 2000000 in
/-- The two sums side by side. -/
theorem Q3_v37_read : Q3 m c (Proc.devRef .tc main_v37)
    = (concatenate S50000x128 1 [⟨S50000x64, (Q2 m c (Proc.devRef .tc main_v22))⟩, ⟨S50000x64, (Q3 m c (Proc.devRef .tc main_v36))⟩] concatenates_S50000x64_S50000x64_S50000x128_d1 : (⟨S50000x128, .f32⟩ : BufTy).Contents (Elt Ideal)) := by
  show after C2 (Q2 m c) (Proc.devRef .tc main_v37)
    = (concatenate S50000x128 1 [⟨S50000x64, (Q2 m c (Proc.devRef .tc main_v22))⟩, ⟨S50000x64, (after C2 (Q2 m c) (Proc.devRef .tc main_v36))⟩] concatenates_S50000x64_S50000x64_S50000x128_d1 : (⟨S50000x128, .f32⟩ : BufTy).Contents (Elt Ideal))
  generalize Q2 m c = V
  after_results_simp
  all_goals rfl

set_option maxHeartbeats 2000000 in
/-- Their product with the third weights. -/
theorem Q3_v38_read : Q3 m c (Proc.devRef .tc main_v38)
    = (Host.dotGeneral (F := Ideal) (φ₁ := .f32) (φ₂ := .f32) dot_S50000x128_S128x128_S50000x128_1_0_0_1_n_n none (Q3 m c (Proc.devRef .tc main_v37)) (Q2 m c (Proc.devRef .tc main_arg6)) : (⟨S50000x128, .f32⟩ : BufTy).Contents (Elt Ideal)) := by
  show after C2 (Q2 m c) (Proc.devRef .tc main_v38)
    = (Host.dotGeneral (F := Ideal) (φ₁ := .f32) (φ₂ := .f32) dot_S50000x128_S128x128_S50000x128_1_0_0_1_n_n none (after C2 (Q2 m c) (Proc.devRef .tc main_v37)) (Q2 m c (Proc.devRef .tc main_arg6)) : (⟨S50000x128, .f32⟩ : BufTy).Contents (Elt Ideal))
  generalize Q2 m c = V
  after_results_simp
  all_goals rfl

/-! ### The fourth stretch -/

set_option maxHeartbeats 2000000 in
/-- The third neighbourhood sum. -/
theorem Q4_v51_read : Q4 m c (Proc.devRef .tc main_v51)
    = (agg128 (Q3 m c (Proc.devRef .tc main_v1)) (Q3 m c (Proc.devRef .tc main_v3)) (Q3 m c (Proc.devRef .tc main_arg7)) (Q3 m c (Proc.devRef .tc main_v38)) : (⟨S50000x128, .f32⟩ : BufTy).Contents (Elt Ideal)) := by
  show after C3 (Q3 m c) (Proc.devRef .tc main_v51)
    = (agg128 (Q3 m c (Proc.devRef .tc main_v1)) (Q3 m c (Proc.devRef .tc main_v3)) (Q3 m c (Proc.devRef .tc main_arg7)) (Q3 m c (Proc.devRef .tc main_v38)) : (⟨S50000x128, .f32⟩ : BufTy).Contents (Elt Ideal))
  generalize Q3 m c = V
  after_results_simp
  all_goals rfl

set_option maxHeartbeats 2000000 in
/-- Its product with the third weights. -/
theorem Q4_v52_read : Q4 m c (Proc.devRef .tc main_v52)
    = (Host.dotGeneral (F := Ideal) (φ₁ := .f32) (φ₂ := .f32) dot_S50000x128_S128x128_S50000x128_1_0_0_1_n_n none (Q4 m c (Proc.devRef .tc main_v51)) (Q3 m c (Proc.devRef .tc main_arg6)) : (⟨S50000x128, .f32⟩ : BufTy).Contents (Elt Ideal)) := by
  show after C3 (Q3 m c) (Proc.devRef .tc main_v52)
    = (Host.dotGeneral (F := Ideal) (φ₁ := .f32) (φ₂ := .f32) dot_S50000x128_S128x128_S50000x128_1_0_0_1_n_n none (after C3 (Q3 m c) (Proc.devRef .tc main_v51)) (Q3 m c (Proc.devRef .tc main_arg6)) : (⟨S50000x128, .f32⟩ : BufTy).Contents (Elt Ideal))
  generalize Q3 m c = V
  after_results_simp
  all_goals rfl

/-! ### The fifth stretch -/

set_option maxHeartbeats 2000000 in
/-- The fourth neighbourhood sum. -/
theorem Q5_v65_read : Q5 m c (Proc.devRef .tc main_v65)
    = (agg128 (Q4 m c (Proc.devRef .tc main_v1)) (Q4 m c (Proc.devRef .tc main_v3)) (Q4 m c (Proc.devRef .tc main_arg7)) (Q4 m c (Proc.devRef .tc main_v52)) : (⟨S50000x128, .f32⟩ : BufTy).Contents (Elt Ideal)) := by
  show after C4 (Q4 m c) (Proc.devRef .tc main_v65)
    = (agg128 (Q4 m c (Proc.devRef .tc main_v1)) (Q4 m c (Proc.devRef .tc main_v3)) (Q4 m c (Proc.devRef .tc main_arg7)) (Q4 m c (Proc.devRef .tc main_v52)) : (⟨S50000x128, .f32⟩ : BufTy).Contents (Elt Ideal))
  generalize Q4 m c = V
  reads3_simp
  all_goals rfl

set_option maxHeartbeats 2000000 in
/-- The last two sums side by side. -/
theorem Q5_v66_read : Q5 m c (Proc.devRef .tc main_v66)
    = (concatenate S50000x256 1 [⟨S50000x128, (Q4 m c (Proc.devRef .tc main_v51))⟩, ⟨S50000x128, (Q5 m c (Proc.devRef .tc main_v65))⟩] concatenates_S50000x128_S50000x128_S50000x256_d1 : (⟨S50000x256, .f32⟩ : BufTy).Contents (Elt Ideal)) := by
  show after C4 (Q4 m c) (Proc.devRef .tc main_v66)
    = (concatenate S50000x256 1 [⟨S50000x128, (Q4 m c (Proc.devRef .tc main_v51))⟩, ⟨S50000x128, (after C4 (Q4 m c) (Proc.devRef .tc main_v65))⟩] concatenates_S50000x128_S50000x128_S50000x256_d1 : (⟨S50000x256, .f32⟩ : BufTy).Contents (Elt Ideal))
  generalize Q4 m c = V
  reads3_simp
  all_goals rfl

set_option maxHeartbeats 2000000 in
/-- All the features side by side. -/
theorem Q5_v67_read : Q5 m c (Proc.devRef .tc main_v67)
    = (concatenate S50000x448 1 [⟨S50000x64, (Q4 m c (Proc.devRef .tc main_v8))⟩, ⟨S50000x128, (Q4 m c (Proc.devRef .tc main_v37))⟩, ⟨S50000x256, (Q5 m c (Proc.devRef .tc main_v66))⟩] concatenates_S50000x64_S50000x128_S50000x256_S50000x448_d1 : (⟨S50000x448, .f32⟩ : BufTy).Contents (Elt Ideal)) := by
  show after C4 (Q4 m c) (Proc.devRef .tc main_v67)
    = (concatenate S50000x448 1 [⟨S50000x64, (Q4 m c (Proc.devRef .tc main_v8))⟩, ⟨S50000x128, (Q4 m c (Proc.devRef .tc main_v37))⟩, ⟨S50000x256, (after C4 (Q4 m c) (Proc.devRef .tc main_v66))⟩] concatenates_S50000x64_S50000x128_S50000x256_S50000x448_d1 : (⟨S50000x448, .f32⟩ : BufTy).Contents (Elt Ideal))
  generalize Q4 m c = V
  reads3_simp
  all_goals rfl

set_option maxHeartbeats 2000000 in
/-- Their product with the last weights. -/
theorem Q5_v68_read : Q5 m c (Proc.devRef .tc main_v68)
    = (Host.dotGeneral (F := Ideal) (φ₁ := .f32) (φ₂ := .f32) dot_S50000x448_S448x50_S50000x50_1_0_0_1_n_n none (Q5 m c (Proc.devRef .tc main_v67)) (Q4 m c (Proc.devRef .tc main_arg8)) : (⟨S50000x50, .f32⟩ : BufTy).Contents (Elt Ideal)) := by
  show after C4 (Q4 m c) (Proc.devRef .tc main_v68)
    = (Host.dotGeneral (F := Ideal) (φ₁ := .f32) (φ₂ := .f32) dot_S50000x448_S448x50_S50000x50_1_0_0_1_n_n none (after C4 (Q4 m c) (Proc.devRef .tc main_v67)) (Q4 m c (Proc.devRef .tc main_arg8)) : (⟨S50000x50, .f32⟩ : BufTy).Contents (Elt Ideal))
  generalize Q4 m c = V
  reads3_simp
  all_goals rfl

/-! ### The last stretch -/

set_option maxHeartbeats 2000000 in
/-- The last bias and one over one plus the exponential of the negation. -/
theorem Q6_v77_read : Q6 m c (Proc.devRef .tc main_v77)
    = (Host.divf (F := Ideal) (φ := .f32) (broadcastInDim S50000x50 ![] bcast_S_S50000x50 (constant (F := Ideal) S_ .f32 0x3F800000#32)) (addf (broadcastInDim S50000x50 ![] bcast_S_S50000x50 (constant (F := Ideal) S_ .f32 0x3F800000#32)) (Host.exp (Host.negf (addf (Q5 m c (Proc.devRef .tc main_v68)) (broadcastInDim S50000x50 ![0, 1] bcast_S1x50_S50000x50_0_1 (broadcastInDim S1x50 ![1] bcast_S50_S1x50_1 (Q5 m c (Proc.devRef .tc main_arg9)))))))) : (⟨S50000x50, .f32⟩ : BufTy).Contents (Elt Ideal)) := by
  show after C5 (Q5 m c) (Proc.devRef .tc main_v77)
    = (Host.divf (F := Ideal) (φ := .f32) (broadcastInDim S50000x50 ![] bcast_S_S50000x50 (constant (F := Ideal) S_ .f32 0x3F800000#32)) (addf (broadcastInDim S50000x50 ![] bcast_S_S50000x50 (constant (F := Ideal) S_ .f32 0x3F800000#32)) (Host.exp (Host.negf (addf (Q5 m c (Proc.devRef .tc main_v68)) (broadcastInDim S50000x50 ![0, 1] bcast_S1x50_S50000x50_0_1 (broadcastInDim S1x50 ![1] bcast_S50_S1x50_1 (Q5 m c (Proc.devRef .tc main_arg9)))))))) : (⟨S50000x50, .f32⟩ : BufTy).Contents (Elt Ideal))
  generalize Q5 m c = V
  after_results_simp
  all_goals rfl

/-! ## The node numbers and the untouched arguments at every boundary -/

theorem Q2_v1 : Q2 m c (Proc.devRef .tc main_v1) = srcIdx (m ((c.tc : Thread nD τ).loc main_arg1) : (⟨S2x800000, .i32⟩ : BufTy).Contents (Elt Ideal)) :=
  (Q2_keep m c main_v1 (by decide)).trans (Q1_v1 m c)
theorem Q2_v3 : Q2 m c (Proc.devRef .tc main_v3) = dstIdx (m ((c.tc : Thread nD τ).loc main_arg1) : (⟨S2x800000, .i32⟩ : BufTy).Contents (Elt Ideal)) :=
  (Q2_keep m c main_v3 (by decide)).trans (Q1_v3 m c)
theorem Q3_v1 : Q3 m c (Proc.devRef .tc main_v1) = srcIdx (m ((c.tc : Thread nD τ).loc main_arg1) : (⟨S2x800000, .i32⟩ : BufTy).Contents (Elt Ideal)) :=
  (Q3_keep m c main_v1 (by decide)).trans (Q2_v1 m c)
theorem Q3_v3 : Q3 m c (Proc.devRef .tc main_v3) = dstIdx (m ((c.tc : Thread nD τ).loc main_arg1) : (⟨S2x800000, .i32⟩ : BufTy).Contents (Elt Ideal)) :=
  (Q3_keep m c main_v3 (by decide)).trans (Q2_v3 m c)
theorem Q4_v1 : Q4 m c (Proc.devRef .tc main_v1) = srcIdx (m ((c.tc : Thread nD τ).loc main_arg1) : (⟨S2x800000, .i32⟩ : BufTy).Contents (Elt Ideal)) :=
  (Q4_keep m c main_v1 (by decide)).trans (Q3_v1 m c)
theorem Q4_v3 : Q4 m c (Proc.devRef .tc main_v3) = dstIdx (m ((c.tc : Thread nD τ).loc main_arg1) : (⟨S2x800000, .i32⟩ : BufTy).Contents (Elt Ideal)) :=
  (Q4_keep m c main_v3 (by decide)).trans (Q3_v3 m c)

/-- The first layer's result is not written again. -/
theorem Q4_v8 : Q4 m c (Proc.devRef .tc main_v8) = Q1 m c (Proc.devRef .tc main_v8) :=
  (Q4_keep m c main_v8 (by decide)).trans ((Q3_keep m c main_v8 (by decide)).trans (Q2_keep m c main_v8 (by decide)))

/-- The two 64-column sums side by side, one stretch later. -/
theorem Q4_v37 : Q4 m c (Proc.devRef .tc main_v37)
    = (concatenate S50000x128 1 [⟨S50000x64, (Q2 m c (Proc.devRef .tc main_v22))⟩, ⟨S50000x64, (Q3 m c (Proc.devRef .tc main_v36))⟩] concatenates_S50000x64_S50000x64_S50000x128_d1 : (⟨S50000x128, .f32⟩ : BufTy).Contents (Elt Ideal)) :=
  (Q4_keep m c main_v37 (by decide)).trans (Q3_v37_read m c)

/-! ## The program's arrays, one from the other -/

/-- The first dense layer: max(X · W + bias row, 0). -/
theorem stX : Q1 m c (Proc.devRef .tc main_v8)
    = fun i => (max ((mm (m ((c.tc : Thread nD τ).loc main_arg0) : Mat 50000 500) (m ((c.tc : Thread nD τ).loc main_arg2) : Mat 500 64) i + (m ((c.tc : Thread nD τ).loc main_arg3) : S64.Idx → EReal) (ix1 (i 1 : Fin 64)) : EReal)) 0 : EReal) := by
  refine (Q1_v8_read m c).trans ((relu_64 _).trans (funext fun i => ?_))
  refine congrArg (fun z : EReal => max z 0) ?_
  refine (addf_apply _ _ i).trans ?_
  exact congrArg₂ (fun x y : EReal => x + y) (congrFun (dot_500_64 _ _) i) (congrFun (bias_64 _) i)

/-- Its product with the second weights. -/
theorem stH1 : Q1 m c (Proc.devRef .tc main_v9) = mm (Q1 m c (Proc.devRef .tc main_v8) : Mat 50000 64) (m ((c.tc : Thread nD τ).loc main_arg4) : Mat 64 64) :=
  (Q1_v9_read m c).trans (dot_64_64 _ _)

/-- The first neighbourhood sum, of that product. -/
theorem stX11 : Q2 m c (Proc.devRef .tc main_v22) = agg64 (srcIdx (m ((c.tc : Thread nD τ).loc main_arg1) : (⟨S2x800000, .i32⟩ : BufTy).Contents (Elt Ideal))) (dstIdx (m ((c.tc : Thread nD τ).loc main_arg1) : (⟨S2x800000, .i32⟩ : BufTy).Contents (Elt Ideal))) (m ((c.tc : Thread nD τ).loc main_arg5) : (⟨S64, .f32⟩ : BufTy).Contents (Elt Ideal)) (Q1 m c (Proc.devRef .tc main_v9)) := by
  refine (Q2_v22_read m c).trans ?_
  rw [Q1_v1 m c, Q1_v3 m c, Q1_init m c main_arg5 (by decide)]

/-- The sum's product with the second weights. -/
theorem stH2 : Q2 m c (Proc.devRef .tc main_v23) = mm (Q2 m c (Proc.devRef .tc main_v22) : Mat 50000 64) (m ((c.tc : Thread nD τ).loc main_arg4) : Mat 64 64) := by
  refine (Q2_v23_read m c).trans ?_
  rw [Q1_init m c main_arg4 (by decide)]
  exact dot_64_64 _ _

/-- The second neighbourhood sum, of that product. -/
theorem stX12 : Q3 m c (Proc.devRef .tc main_v36) = agg64 (srcIdx (m ((c.tc : Thread nD τ).loc main_arg1) : (⟨S2x800000, .i32⟩ : BufTy).Contents (Elt Ideal))) (dstIdx (m ((c.tc : Thread nD τ).loc main_arg1) : (⟨S2x800000, .i32⟩ : BufTy).Contents (Elt Ideal))) (m ((c.tc : Thread nD τ).loc main_arg5) : (⟨S64, .f32⟩ : BufTy).Contents (Elt Ideal)) (Q2 m c (Proc.devRef .tc main_v23)) := by
  refine (Q3_v36_read m c).trans ?_
  rw [Q2_v1 m c, Q2_v3 m c, Q2_init m c main_arg5 (by decide) (by decide)]

/-- The two sums side by side times the third weights: the first sum meets the weights' first 64 rows, the second
    their last 64. -/
theorem stH3 : Q3 m c (Proc.devRef .tc main_v38)
    = fun i => mm (Q2 m c (Proc.devRef .tc main_v22) : Mat 50000 64) (rows (m ((c.tc : Thread nD τ).loc main_arg6) : Mat 128 128) 0 64 (by omega)) i
        + mm (Q3 m c (Proc.devRef .tc main_v36) : Mat 50000 64) (rows (m ((c.tc : Thread nD τ).loc main_arg6) : Mat 128 128) 64 64 (by omega)) i := by
  refine (Q3_v38_read m c).trans ?_
  rw [Q3_v37_read m c, Q2_init m c main_arg6 (by decide) (by decide)]
  exact dot_concat_64_64 _ _ _

/-- The third neighbourhood sum, over 128 columns. -/
theorem stX21 : Q4 m c (Proc.devRef .tc main_v51) = agg128 (srcIdx (m ((c.tc : Thread nD τ).loc main_arg1) : (⟨S2x800000, .i32⟩ : BufTy).Contents (Elt Ideal))) (dstIdx (m ((c.tc : Thread nD τ).loc main_arg1) : (⟨S2x800000, .i32⟩ : BufTy).Contents (Elt Ideal))) (m ((c.tc : Thread nD τ).loc main_arg7) : (⟨S128, .f32⟩ : BufTy).Contents (Elt Ideal)) (Q3 m c (Proc.devRef .tc main_v38)) := by
  refine (Q4_v51_read m c).trans ?_
  rw [Q3_v1 m c, Q3_v3 m c, Q3_init m c main_arg7 (by decide) (by decide) (by decide)]

/-- Its product with the third weights. -/
theorem stH4 : Q4 m c (Proc.devRef .tc main_v52) = mm (Q4 m c (Proc.devRef .tc main_v51) : Mat 50000 128) (m ((c.tc : Thread nD τ).loc main_arg6) : Mat 128 128) := by
  refine (Q4_v52_read m c).trans ?_
  rw [Q3_init m c main_arg6 (by decide) (by decide) (by decide)]
  exact dot_128_128 _ _

/-- The fourth neighbourhood sum, of that product. -/
theorem stX22 : Q5 m c (Proc.devRef .tc main_v65) = agg128 (srcIdx (m ((c.tc : Thread nD τ).loc main_arg1) : (⟨S2x800000, .i32⟩ : BufTy).Contents (Elt Ideal))) (dstIdx (m ((c.tc : Thread nD τ).loc main_arg1) : (⟨S2x800000, .i32⟩ : BufTy).Contents (Elt Ideal))) (m ((c.tc : Thread nD τ).loc main_arg7) : (⟨S128, .f32⟩ : BufTy).Contents (Elt Ideal)) (Q4 m c (Proc.devRef .tc main_v52)) := by
  refine (Q5_v65_read m c).trans ?_
  rw [Q4_v1 m c, Q4_v3 m c, Q4_init m c main_arg7 (by decide) (by decide) (by decide) (by decide)]

/-- All the features side by side times the last weights: the five pieces meet rows 0…63, 64…127, 128…191, 192…319
    and 320…447 of the weights. -/
theorem Q5_v68_eq : Q5 m c (Proc.devRef .tc main_v68)
    = fun i => ((((mm (Q1 m c (Proc.devRef .tc main_v8) : Mat 50000 64) (rows (m ((c.tc : Thread nD τ).loc main_arg8) : Mat 448 50) 0 64 (by omega)) i
        + mm (Q2 m c (Proc.devRef .tc main_v22) : Mat 50000 64) (rows (m ((c.tc : Thread nD τ).loc main_arg8) : Mat 448 50) 64 64 (by omega)) i)
        + mm (Q3 m c (Proc.devRef .tc main_v36) : Mat 50000 64) (rows (m ((c.tc : Thread nD τ).loc main_arg8) : Mat 448 50) 128 64 (by omega)) i)
        + mm (Q4 m c (Proc.devRef .tc main_v51) : Mat 50000 128) (rows (m ((c.tc : Thread nD τ).loc main_arg8) : Mat 448 50) 192 128 (by omega)) i)
        + mm (Q5 m c (Proc.devRef .tc main_v65) : Mat 50000 128) (rows (m ((c.tc : Thread nD τ).loc main_arg8) : Mat 448 50) 320 128 (by omega)) i) := by
  refine (Q5_v68_read m c).trans ?_
  rw [Q5_v67_read m c, Q5_v66_read m c, Q4_v37 m c, Q4_v8 m c, Q4_init m c main_arg8 (by decide) (by decide) (by decide) (by decide)]
  exact dot_concat_448 _ _ _ _ _ _

/-- The program's result: the logistic function of that product plus the last bias row. -/
theorem stOut : Q6 m c (Proc.devRef .tc main_v77)
    = fun i => Ideal.logistic (((((mm (Q1 m c (Proc.devRef .tc main_v8) : Mat 50000 64) (rows (m ((c.tc : Thread nD τ).loc main_arg8) : Mat 448 50) 0 64 (by omega)) i
        + mm (Q2 m c (Proc.devRef .tc main_v22) : Mat 50000 64) (rows (m ((c.tc : Thread nD τ).loc main_arg8) : Mat 448 50) 64 64 (by omega)) i)
        + mm (Q3 m c (Proc.devRef .tc main_v36) : Mat 50000 64) (rows (m ((c.tc : Thread nD τ).loc main_arg8) : Mat 448 50) 128 64 (by omega)) i)
        + mm (Q4 m c (Proc.devRef .tc main_v51) : Mat 50000 128) (rows (m ((c.tc : Thread nD τ).loc main_arg8) : Mat 448 50) 192 128 (by omega)) i)
        + mm (Q5 m c (Proc.devRef .tc main_v65) : Mat 50000 128) (rows (m ((c.tc : Thread nD τ).loc main_arg8) : Mat 448 50) 320 128 (by omega)) i)
        + (m ((c.tc : Thread nD τ).loc main_arg9) : S50.Idx → EReal) (ix1 (i 1 : Fin 50))) := by
  refine (Q6_v77_read m c).trans ((logistic_50 _).trans (funext fun i => congrArg Ideal.logistic ?_))
  refine (addf_apply _ _ i).trans ?_
  refine congrArg₂ (fun x y : EReal => x + y) (congrFun (Q5_v68_eq m c) i) ?_
  rw [Q5_init m c main_arg9 (by decide) (by decide) (by decide) (by decide) (by decide)]
  exact congrFun (bias_50 _) i

end Cert.ReferenceIdeal.Hand

end
-- ==== Proof.Region0.lean ====
/-
  The first dense layer. Each grid point t takes rows 2000·t … 2000·t + 1999 of the feature matrix, the whole
  weight matrix and the bias row, and leaves in the output block max(rows · W + bias, 0). The blocks tile the
  [50000, 64] result, so the array ends holding max(X · W + bias, 0) entry by entry.
-/
import proofs.«141040_j31164282700071_1_alg».proof.Proof.Gen.KernelIdeal.Frame
import proofs.«141040_j31164282700071_1_alg».proof.Proof.LibRowProduct
import proofs.«141040_j31164282700071_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.RowProduct Cert.LibDenseEntry

variable (V : (c : Dev nD) → (b : Ref sig .tc) → Buf (Elt Ideal) ((c : Thread nD τ).loc b))

theorem hz : (![0, 0] : Fin 2 → Nat) = fun _ => 0 := funext fun a => by fin_cases a <;> rfl

/-- The layer as one function of the whole arrays: max(X · W + bias row, 0). -/
def G0 (X : Mat 50000 500) (W : Mat 500 64) (b : Mat 1 64) : Mat 50000 64 :=
  fun i => max (mm X W i + b (ix2 (0 : Fin 1) (i 1 : Fin 64))) 0

/-- The block a point computes, entry (p, q): the p-th loaded row times column q of the weights, plus the
    bias at q, cut off below at zero. -/
theorem pay0_apply (x0 : Vec Ideal S2000x500 .f32) (x1 : Vec Ideal S500x64 .f32) (x2 : Vec Ideal S1x64 .f32)
    (p : Fin 2000) (q : Fin 64) :
    k0_pay1 (F := Ideal) x0 x1 x2 (ix2 p q)
      = max ((∑ t : Fin 500, x0 (ix2 p t) * x1 (ix2 t q)) + x2 (ix2 (0 : Fin 1) q)) 0 := by
  unfold k0_pay1
  show max ((FloatOps.matmul (F := Ideal) dot_S2000x500_S500x64_S2000x64_1_0_0_1_n_n none
        (truncf (F := Ideal) .bf16 x0 bitsLt_bf16_f32 : FVec Ideal S2000x500 .bf16)
        (truncf (F := Ideal) .bf16 x1 bitsLt_bf16_f32 : FVec Ideal S500x64 .bf16)
        (constant (F := Ideal) S2000x64 .f32 0x00000000#32) (ix2 p q) : EReal)
      + (broadcastTo S2000x64 (shapeCast S1x64 x2 shapeCasts_S1x64_S1x64) broadcasts_S1x64_S2000x64 (ix2 p q) : EReal))
      (Ideal.ofBits .f32 0x00000000#32) = _
  rw [Ideal.ofBits_zero_f32]
  refine congrArg₂ max (congrArg₂ (· + ·) ?_ ?_) rfl
  · exact matmul_plain_zero_apply _ rfl rfl rfl rfl rfl rfl none _ _ p q
  · refine (broadcastTo_1b_ab_apply _ _ p q).trans ?_
    rw [shapeCast_self]

/-- One point's block against the whole-array function: when the loaded rows are rows s·2000 … of X, the
    loaded weights are W and the loaded bias row is b, the block's entry y is the function's entry at the
    array index that y has. -/
theorem point0 (X : Mat 50000 500) (W : Mat 500 64) (b : Mat 1 64)
    (x0 : Vec Ideal S2000x500 .f32) (x1 : Vec Ideal S500x64 .f32) (x2 : Vec Ideal S1x64 .f32) (s : Nat)
    (h0 : ∀ (p : Fin 2000) (k : Fin 500) (r : Fin 50000), r.val = s * 2000 + p.val → x0 (ix2 p k) = X (ix2 r k))
    (h1 : x1 = W) (h2 : x2 = b)
    (y : S2000x64.Idx) (i : S50000x64.Idx) (hi0 : (i 0).val = s * 2000 + (y 0).val) (hi1 : (i 1).val = (y 1).val) :
    k0_pay1 (F := Ideal) x0 x1 x2 y = G0 X W b i := by
  obtain ⟨p, q, rfl⟩ : ∃ (p : Fin 2000) (q : Fin 64), y = ix2 p q := ⟨y 0, y 1, eq_ix2 y⟩
  obtain ⟨r, c, rfl⟩ : ∃ (r : Fin 50000) (c : Fin 64), i = ix2 r c := ⟨i 0, i 1, eq_ix2 i⟩
  have hc : c = q := Fin.ext hi1
  subst hc h1 h2
  rw [pay0_apply]
  unfold G0
  rw [mm_apply]
  exact congrArg₂ max (congrArg₂ (· + ·) (Finset.sum_congr rfl fun k _ => congrArg₂ (· * ·) (h0 p k r hi0) rfl) rfl) rfl

/-- Where each window's block sits at point t: the row windows at block row t, the weights and the bias whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer's whole-array function of the arrays the region finds. -/
theorem flushed0 (c : Dev nD) (t : Fin cfg0.N) :
    (dat0 V c).flushed 3 t
      = ((cfg0.win 3).blk t).view.read (Elt Ideal) (G0 (V c main_arg0) (V c main_arg2) (V c main_v4)) := by
  show (cfg0.win 3).cut (grid0.coords t) ((dat0 V c).after 3 t) = _
  rw [after0_3]
  unfold out0_3
  rw [View.canon_unit_zero hz]
  simp only [View.ld_unit_zero (S := S2000x500) hz, View.ld_unit_zero (S := S500x64) hz, View.ld_unit_zero (S := S1x64) hz]
  obtain ⟨e0, e1, e2, e3, e4, e5, e6, e7⟩ := idx_facts0 t
  funext j
  show k0_pay1 (F := Ideal) (iblk0 V c 0 t) (iblk0 V c 1 t) (iblk0 V c 2 t) j
    = G0 (V c main_arg0) (V c main_arg2) (V c main_v4) (((cfg0.win 3).blk t).view.emb j)
  refine point0 _ _ _ _ _ _ t.val ?_ ?_ ?_ j _ ?_ ?_
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 2000 + 1 * p.val = r.val; rw [e0, hr]; omega
    | ⟨1, _⟩ => show win0_0.index t (1 : Fin 2) * 500 + 1 * k.val = k.val; rw [e1]; omega
  · funext y
    show V c main_arg2 (((cfg0.win 1).blk t).view.emb y) = V c main_arg2 y
    refine congrArg _ (funext fun a => Fin.ext ?_)
    match a with
    | ⟨0, _⟩ => show win0_1.index t (0 : Fin 2) * 500 + 1 * (y 0).val = (y 0).val; rw [e2]; omega
    | ⟨1, _⟩ => show win0_1.index t (1 : Fin 2) * 64 + 1 * (y 1).val = (y 1).val; rw [e3]; omega
  · funext y
    show V c main_v4 (((cfg0.win 2).blk t).view.emb y) = V c main_v4 y
    refine congrArg _ (funext fun a => Fin.ext ?_)
    match a with
    | ⟨0, _⟩ => show win0_2.index t (0 : Fin 2) * 1 + 1 * (y 0).val = (y 0).val; rw [e4]; omega
    | ⟨1, _⟩ => show win0_2.index t (1 : Fin 2) * 64 + 1 * (y 1).val = (y 1).val; rw [e5]; omega
  · show win0_3.index t (0 : Fin 2) * 2000 + 1 * (j 0).val = t.val * 2000 + (j 0).val; rw [e6]; omega
  · show win0_3.index t (1 : Fin 2) * 64 + 1 * (j 1).val = (j 1).val; rw [e7]; omega

/-- An index of the result lies in point t's block iff each coordinate lies in the block's range on its axis. -/
theorem mem_blk0 (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v5).slice (win0_3.rect t)).set ↔ _
  rw [View.set_slice_whole, Rect.mem_set_unit]
  exact Iff.rfl

/-- Every row of the result is in the block of the point its row number divided by 2000 names. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  have ht : (i 0).val / 2000 < cfg0.N := by rw [hN]; omega
  refine ⟨⟨(i 0).val / 2000, ht⟩, flush0_3 _, ?_⟩
  rw [mem_blk0]
  obtain ⟨-, -, -, -, -, -, e6, e7⟩ := idx_facts0 ⟨(i 0).val / 2000, ht⟩
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 64 ≤ (i 1).val
      ∧ (i 1).val < win0_3.index ⟨(i 0).val / 2000, ht⟩ (1 : Fin 2) * 64 + 64
    rw [e7]; omega

/-- The result array after the region: the layer's function of the arrays the region found. -/
theorem final0 (c : Dev nD) :
    (dat0 V c).arrAt 3 cfg0.N = G0 (V c main_arg0) (V c main_arg2) (V c main_v4) :=
  (dat0 V c).arrAt_eq_of_cover 3 _ (fun t _ => flushed0 V c t) cover0

end Cert.KernelIdeal.Val

end
-- ==== Proof.Region1.lean ====
/-
  The product after the first dense layer. Each grid point t takes rows 2000·t … 2000·t + 1999 of the [50000, 64]
  input and the whole [64, 64] weight matrix, and leaves in the output block those rows times the weights. The
  blocks tile the [50000, 64] result, so the array ends holding X · W entry by entry.
-/
import proofs.«141040_j31164282700071_1_alg».proof.Proof.Gen.KernelIdeal.Frame
import proofs.«141040_j31164282700071_1_alg».proof.Proof.LibRowProduct
import proofs.«141040_j31164282700071_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.RowProduct Cert.LibDenseEntry

variable (V : (c : Dev nD) → (b : Ref sig .tc) → Buf (Elt Ideal) ((c : Thread nD τ).loc b))

theorem hz : (![0, 0] : Fin 2 → Nat) = fun _ => 0 := funext fun a => by fin_cases a <;> rfl

/-- The block a point computes, entry (p, q): the p-th loaded row times column q of the weights. The identity
    reshape and the narrowing of the operands change nothing over the extended reals, and the accumulator the
    product adds to is zero everywhere. -/
theorem pay1_apply (x0 : Vec Ideal S2000x64 .f32) (x1 : Vec Ideal S64x64 .f32) (p : Fin 2000) (q : Fin 64) :
    k1_pay1 (F := Ideal) x0 x1 (ix2 p q) = ∑ t : Fin 64, x0 (ix2 p t) * x1 (ix2 t q) := by
  unfold k1_pay1
  show (FloatOps.matmul (F := Ideal) dot_S2000x64_S64x64_S2000x64_1_0_0_1_n_n none
        (truncf (F := Ideal) .bf16 (shapeCast S2000x64 x0 shapeCasts_S2000x64_S2000x64) bitsLt_bf16_f32 : FVec Ideal S2000x64 .bf16)
        (truncf (F := Ideal) .bf16 x1 bitsLt_bf16_f32 : FVec Ideal S64x64 .bf16)
        (constant (F := Ideal) S2000x64 .f32 0x00000000#32) (ix2 p q) : EReal) = _
  rw [shapeCast_self]
  exact matmul_plain_zero_apply _ rfl rfl rfl rfl rfl rfl none _ _ p q

/-- One point's block against the whole-array product: when the loaded rows are rows s·2000 … of X and the
    loaded weights are W, the block's entry y is the product's entry at the array index that y has. -/
theorem point1 (X : Mat 50000 64) (W : Mat 64 64)
    (x0 : Vec Ideal S2000x64 .f32) (x1 : Vec Ideal S64x64 .f32) (s : Nat)
    (h0 : ∀ (p : Fin 2000) (k : Fin 64) (r : Fin 50000), r.val = s * 2000 + p.val → x0 (ix2 p k) = X (ix2 r k))
    (h1 : x1 = W)
    (y : S2000x64.Idx) (i : S50000x64.Idx) (hi0 : (i 0).val = s * 2000 + (y 0).val) (hi1 : (i 1).val = (y 1).val) :
    k1_pay1 (F := Ideal) x0 x1 y = mm X W i := by
  obtain ⟨p, q, rfl⟩ : ∃ (p : Fin 2000) (q : Fin 64), y = ix2 p q := ⟨y 0, y 1, eq_ix2 y⟩
  obtain ⟨r, c, rfl⟩ : ∃ (r : Fin 50000) (c : Fin 64), i = ix2 r c := ⟨i 0, i 1, eq_ix2 i⟩
  have hc : c = q := Fin.ext hi1
  subst hc h1
  rw [pay1_apply, mm_apply]
  exact Finset.sum_congr rfl fun k _ => congrArg₂ (· * ·) (h0 p k r hi0) rfl

/-- Where each window's block sits at point t: the row windows at block row t, the weights whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the arrays the region finds. -/
theorem flushed1 (c : Dev nD) (t : Fin cfg1.N) :
    (dat1 V c).flushed 2 t
      = ((cfg1.win 2).blk t).view.read (Elt Ideal) (mm (V c main_v5 : Mat 50000 64) (V c main_arg4 : Mat 64 64) : Mat 50000 64) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  obtain ⟨e0, e1, e2, e3, e4, e5⟩ := idx_facts1 t
  funext j
  show k1_pay1 (F := Ideal) (iblk1 V c 0 t) (iblk1 V c 1 t) j
    = (mm (V c main_v5 : Mat 50000 64) (V c main_arg4 : Mat 64 64) : Mat 50000 64) (((cfg1.win 2).blk t).view.emb j)
  refine point1 _ _ _ _ t.val ?_ ?_ j _ ?_ ?_
  · intro p k r hr
    show V c main_v5 (((cfg1.win 0).blk t).view.emb (ix2 p k)) = V c main_v5 (ix2 r k)
    refine congrArg _ (funext fun a => Fin.ext ?_)
    match a with
    | ⟨0, _⟩ => show win1_0.index t (0 : Fin 2) * 2000 + 1 * p.val = r.val; rw [e0, hr]; omega
    | ⟨1, _⟩ => show win1_0.index t (1 : Fin 2) * 64 + 1 * k.val = k.val; rw [e1]; omega
  · funext y
    show V c main_arg4 (((cfg1.win 1).blk t).view.emb y) = V c main_arg4 y
    refine congrArg _ (funext fun a => Fin.ext ?_)
    match a with
    | ⟨0, _⟩ => show win1_1.index t (0 : Fin 2) * 64 + 1 * (y 0).val = (y 0).val; rw [e2]; omega
    | ⟨1, _⟩ => show win1_1.index t (1 : Fin 2) * 64 + 1 * (y 1).val = (y 1).val; rw [e3]; omega
  · show win1_2.index t (0 : Fin 2) * 2000 + 1 * (j 0).val = t.val * 2000 + (j 0).val; rw [e4]; omega
  · show win1_2.index t (1 : Fin 2) * 64 + 1 * (j 1).val = (j 1).val; rw [e5]; omega

/-- An index of the result lies in point t's block iff each coordinate lies in the block's range on its axis. -/
theorem mem_blk1 (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v6).slice (win1_2.rect t)).set ↔ _
  rw [View.set_slice_whole, Rect.mem_set_unit]
  exact Iff.rfl

/-- Every row of the result is in the block of the point its row number divided by 2000 names. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  have ht : (i 0).val / 2000 < cfg1.N := by rw [hN]; omega
  refine ⟨⟨(i 0).val / 2000, ht⟩, flush1_2 _, ?_⟩
  rw [mem_blk1]
  obtain ⟨-, -, -, -, e4, e5⟩ := idx_facts1 ⟨(i 0).val / 2000, ht⟩
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 64 ≤ (i 1).val
      ∧ (i 1).val < win1_2.index ⟨(i 0).val / 2000, ht⟩ (1 : Fin 2) * 64 + 64
    rw [e5]; omega

/-- The result array after the region: the product of the arrays the region found. -/
theorem final1 (c : Dev nD) :
    (dat1 V c).arrAt 2 cfg1.N = (mm (V c main_v5 : Mat 50000 64) (V c main_arg4 : Mat 64 64) : Mat 50000 64) :=
  (dat1 V c).arrAt_eq_of_cover 2 _ (fun t _ => flushed1 V c t) cover1

end Cert.KernelIdeal.Val

end
-- ==== Proof.Region2.lean ====
/-
  The product applied to the first aggregated features. Each grid point t takes rows 2000·t … 2000·t + 1999 of the
  [50000, 64] input and the whole [64, 64] weight matrix, and leaves in the output block those rows times the
  weights. The blocks tile the [50000, 64] result, so the array ends holding X · W entry by entry.
-/
import proofs.«141040_j31164282700071_1_alg».proof.Proof.Gen.KernelIdeal.Frame
import proofs.«141040_j31164282700071_1_alg».proof.Proof.LibRowProduct
import proofs.«141040_j31164282700071_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.RowProduct Cert.LibDenseEntry

variable (V : (c : Dev nD) → (b : Ref sig .tc) → Buf (Elt Ideal) ((c : Thread nD τ).loc b))

theorem hz : (![0, 0] : Fin 2 → Nat) = fun _ => 0 := funext fun a => by fin_cases a <;> rfl

/-- The block a point computes, entry (p, q): the p-th loaded row times column q of the weights. The identity
    reshape and the narrowing of the operands change nothing over the extended reals, and the accumulator the
    product adds to is zero everywhere. -/
theorem pay2_apply (x0 : Vec Ideal S2000x64 .f32) (x1 : Vec Ideal S64x64 .f32) (p : Fin 2000) (q : Fin 64) :
    k2_pay1 (F := Ideal) x0 x1 (ix2 p q) = ∑ t : Fin 64, x0 (ix2 p t) * x1 (ix2 t q) := by
  unfold k2_pay1
  show (FloatOps.matmul (F := Ideal) dot_S2000x64_S64x64_S2000x64_1_0_0_1_n_n none
        (truncf (F := Ideal) .bf16 (shapeCast S2000x64 x0 shapeCasts_S2000x64_S2000x64) bitsLt_bf16_f32 : FVec Ideal S2000x64 .bf16)
        (truncf (F := Ideal) .bf16 x1 bitsLt_bf16_f32 : FVec Ideal S64x64 .bf16)
        (constant (F := Ideal) S2000x64 .f32 0x00000000#32) (ix2 p q) : EReal) = _
  rw [shapeCast_self]
  exact matmul_plain_zero_apply _ rfl rfl rfl rfl rfl rfl none _ _ p q

/-- One point's block against the whole-array product: when the loaded rows are rows s·2000 … of X and the
    loaded weights are W, the block's entry y is the product's entry at the array index that y has. -/
theorem point2 (X : Mat 50000 64) (W : Mat 64 64)
    (x0 : Vec Ideal S2000x64 .f32) (x1 : Vec Ideal S64x64 .f32) (s : Nat)
    (h0 : ∀ (p : Fin 2000) (k : Fin 64) (r : Fin 50000), r.val = s * 2000 + p.val → x0 (ix2 p k) = X (ix2 r k))
    (h1 : x1 = W)
    (y : S2000x64.Idx) (i : S50000x64.Idx) (hi0 : (i 0).val = s * 2000 + (y 0).val) (hi1 : (i 1).val = (y 1).val) :
    k2_pay1 (F := Ideal) x0 x1 y = mm X W i := by
  obtain ⟨p, q, rfl⟩ : ∃ (p : Fin 2000) (q : Fin 64), y = ix2 p q := ⟨y 0, y 1, eq_ix2 y⟩
  obtain ⟨r, c, rfl⟩ : ∃ (r : Fin 50000) (c : Fin 64), i = ix2 r c := ⟨i 0, i 1, eq_ix2 i⟩
  have hc : c = q := Fin.ext hi1
  subst hc h1
  rw [pay2_apply, mm_apply]
  exact Finset.sum_congr rfl fun k _ => congrArg₂ (· * ·) (h0 p k r hi0) rfl

/-- Where each window's block sits at point t: the row windows at block row t, the weights whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the region finds. -/
theorem flushed2 (c : Dev nD) (t : Fin cfg2.N) :
    (dat2 V c).flushed 2 t
      = ((cfg2.win 2).blk t).view.read (Elt Ideal) (mm (V c main_v19 : Mat 50000 64) (V c main_arg4 : Mat 64 64) : Mat 50000 64) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e0, e1, e2, e3, e4, e5⟩ := idx_facts2 t
  funext j
  show k2_pay1 (F := Ideal) (iblk2 V c 0 t) (iblk2 V c 1 t) j
    = (mm (V c main_v19 : Mat 50000 64) (V c main_arg4 : Mat 64 64) : Mat 50000 64) (((cfg2.win 2).blk t).view.emb j)
  refine point2 _ _ _ _ t.val ?_ ?_ j _ ?_ ?_
  · intro p k r hr
    show V c main_v19 (((cfg2.win 0).blk t).view.emb (ix2 p k)) = V c main_v19 (ix2 r k)
    refine congrArg _ (funext fun a => Fin.ext ?_)
    match a with
    | ⟨0, _⟩ => show win2_0.index t (0 : Fin 2) * 2000 + 1 * p.val = r.val; rw [e0, hr]; omega
    | ⟨1, _⟩ => show win2_0.index t (1 : Fin 2) * 64 + 1 * k.val = k.val; rw [e1]; omega
  · funext y
    show V c main_arg4 (((cfg2.win 1).blk t).view.emb y) = V c main_arg4 y
    refine congrArg _ (funext fun a => Fin.ext ?_)
    match a with
    | ⟨0, _⟩ => show win2_1.index t (0 : Fin 2) * 64 + 1 * (y 0).val = (y 0).val; rw [e2]; omega
    | ⟨1, _⟩ => show win2_1.index t (1 : Fin 2) * 64 + 1 * (y 1).val = (y 1).val; rw [e3]; omega
  · show win2_2.index t (0 : Fin 2) * 2000 + 1 * (j 0).val = t.val * 2000 + (j 0).val; rw [e4]; omega
  · show win2_2.index t (1 : Fin 2) * 64 + 1 * (j 1).val = (j 1).val; rw [e5]; omega

/-- An index of the result lies in point t's block iff each coordinate lies in the block's range on its axis. -/
theorem mem_blk2 (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v20).slice (win2_2.rect t)).set ↔ _
  rw [View.set_slice_whole, Rect.mem_set_unit]
  exact Iff.rfl

/-- Every row of the result is in the block of the point its row number divided by 2000 names. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  have ht : (i 0).val / 2000 < cfg2.N := by rw [hN]; omega
  refine ⟨⟨(i 0).val / 2000, ht⟩, flush2_2 _, ?_⟩
  rw [mem_blk2]
  obtain ⟨-, -, -, -, e4, e5⟩ := idx_facts2 ⟨(i 0).val / 2000, ht⟩
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e5]; omega

/-- The result array after the region: the product of the arrays the region found. -/
theorem final2 (c : Dev nD) :
    (dat2 V c).arrAt 2 cfg2.N = (mm (V c main_v19 : Mat 50000 64) (V c main_arg4 : Mat 64 64) : Mat 50000 64) :=
  (dat2 V c).arrAt_eq_of_cover 2 _ (fun t _ => flushed2 V c t) cover2

end Cert.KernelIdeal.Val

end
-- ==== Proof.Region3.lean ====
/-
  A dense layer over two row operands. Each grid point t takes rows 2000·t … 2000·t + 1999 of the two [50000, 64]
  operands and the two whole [64, 128] weight matrices, and leaves in the output block the sum of the two
  products. The blocks tile the [50000, 128] result, so the array ends holding X₁ · W₁ + X₂ · W₂ entry by entry.
-/
import proofs.«141040_j31164282700071_1_alg».proof.Proof.Gen.KernelIdeal.Frame
import proofs.«141040_j31164282700071_1_alg».proof.Proof.LibRowProduct
import proofs.«141040_j31164282700071_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.RowProduct Cert.LibDenseEntry

variable (V : (c : Dev nD) → (b : Ref sig .tc) → Buf (Elt Ideal) ((c : Thread nD τ).loc b))

theorem hz : (![0, 0] : Fin 2 → Nat) = fun _ => 0 := funext fun a => by fin_cases a <;> rfl

/-- The layer as one function of the whole arrays: X₁ · W₁ + X₂ · W₂. -/
def G3 (X1 X2 : Mat 50000 64) (W1 W2 : Mat 64 128) : Mat 50000 128 :=
  fun i => mm X1 W1 i + mm X2 W2 i

/-- The block a point computes, entry (p, q): the p-th row of the first loaded operand times column q of the
    first weights, plus the p-th row of the second loaded operand times column q of the second weights. -/
theorem pay3_apply (x0 : Vec Ideal S2000x64 .f32) (x2 : Vec Ideal S64x128 .f32) (x1 : Vec Ideal S2000x64 .f32)
    (x3 : Vec Ideal S64x128 .f32) (p : Fin 2000) (q : Fin 128) :
    k3_pay1 (F := Ideal) x0 x2 x1 x3 (ix2 p q)
      = (∑ t : Fin 64, x0 (ix2 p t) * x2 (ix2 t q)) + (∑ t : Fin 64, x1 (ix2 p t) * x3 (ix2 t q)) := by
  unfold k3_pay1
  show (FloatOps.matmul (F := Ideal) dot_S2000x64_S64x128_S2000x128_1_0_0_1_n_n none
        (truncf (F := Ideal) .bf16 (shapeCast S2000x64 x0 shapeCasts_S2000x64_S2000x64) bitsLt_bf16_f32 : FVec Ideal S2000x64 .bf16)
        (truncf (F := Ideal) .bf16 (shapeCast S64x128 x2 shapeCasts_S64x128_S64x128) bitsLt_bf16_f32 : FVec Ideal S64x128 .bf16)
        (constant (F := Ideal) S2000x128 .f32 0x00000000#32) (ix2 p q) : EReal)
      + (FloatOps.matmul (F := Ideal) dot_S2000x64_S64x128_S2000x128_1_0_0_1_n_n none
        (truncf (F := Ideal) .bf16 (shapeCast S2000x64 x1 shapeCasts_S2000x64_S2000x64) bitsLt_bf16_f32 : FVec Ideal S2000x64 .bf16)
        (truncf (F := Ideal) .bf16 (shapeCast S64x128 x3 shapeCasts_S64x128_S64x128) bitsLt_bf16_f32 : FVec Ideal S64x128 .bf16)
        (constant (F := Ideal) S2000x128 .f32 0x00000000#32) (ix2 p q) : EReal) = _
  rw [shapeCast_self, shapeCast_self, shapeCast_self, shapeCast_self]
  refine congrArg₂ (· + ·) ?_ ?_
  · exact matmul_plain_zero_apply _ rfl rfl rfl rfl rfl rfl none _ _ p q
  · exact matmul_plain_zero_apply _ rfl rfl rfl rfl rfl rfl none _ _ p q

/-- One point's block against the whole-array function: when the two loaded row operands are rows s·2000 … of
    X₁ and X₂ and the loaded weights are W₁ and W₂, the block's entry y is the function's entry at the array
    index that y has. -/
theorem point3 (X1 X2 : Mat 50000 64) (W1 W2 : Mat 64 128)
    (x0 : Vec Ideal S2000x64 .f32) (x2 : Vec Ideal S64x128 .f32) (x1 : Vec Ideal S2000x64 .f32)
    (x3 : Vec Ideal S64x128 .f32) (s : Nat)
    (h0 : ∀ (p : Fin 2000) (k : Fin 64) (r : Fin 50000), r.val = s * 2000 + p.val → x0 (ix2 p k) = X1 (ix2 r k))
    (h1 : ∀ (p : Fin 2000) (k : Fin 64) (r : Fin 50000), r.val = s * 2000 + p.val → x1 (ix2 p k) = X2 (ix2 r k))
    (h2 : x2 = W1) (h3 : x3 = W2)
    (y : S2000x128.Idx) (i : S50000x128.Idx) (hi0 : (i 0).val = s * 2000 + (y 0).val) (hi1 : (i 1).val = (y 1).val) :
    k3_pay1 (F := Ideal) x0 x2 x1 x3 y = G3 X1 X2 W1 W2 i := by
  obtain ⟨p, q, rfl⟩ : ∃ (p : Fin 2000) (q : Fin 128), y = ix2 p q := ⟨y 0, y 1, eq_ix2 y⟩
  obtain ⟨r, c, rfl⟩ : ∃ (r : Fin 50000) (c : Fin 128), i = ix2 r c := ⟨i 0, i 1, eq_ix2 i⟩
  have hc : c = q := Fin.ext hi1
  subst hc h2 h3
  rw [pay3_apply]
  unfold G3
  rw [mm_apply, mm_apply]
  exact congrArg₂ (· + ·)
    (Finset.sum_congr rfl fun k _ => congrArg₂ (· * ·) (h0 p k r hi0) rfl)
    (Finset.sum_congr rfl fun k _ => congrArg₂ (· * ·) (h1 p k r hi0) rfl)

/-- Where each window's block sits at point t: the row windows and the output at block row t, the weights whole. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the layer's whole-array function of the arrays the region finds. -/
theorem flushed3 (c : Dev nD) (t : Fin cfg3.N) :
    (dat3 V c).flushed 4 t
      = ((cfg3.win 4).blk t).view.read (Elt Ideal)
          (G3 (V c main_v19) (V c main_v33) (V c main_v34) (V c main_v35)) := by
  show (cfg3.win 4).cut (grid3.coords t) ((dat3 V c).after 4 t) = _
  rw [after3_4]
  unfold out3_4
  rw [View.canon_unit_zero hz]
  simp only [View.ld_unit_zero (S := S2000x64) hz, View.ld_unit_zero (S := S64x128) hz]
  obtain ⟨e0, e1, e2, e3, e4, e5, e6, e7, e8, e9⟩ := idx_facts3 t
  funext j
  show k3_pay1 (F := Ideal) (iblk3 V c 0 t) (iblk3 V c 2 t) (iblk3 V c 1 t) (iblk3 V c 3 t) j
    = G3 (V c main_v19) (V c main_v33) (V c main_v34) (V c main_v35) (((cfg3.win 4).blk t).view.emb j)
  refine point3 _ _ _ _ _ _ _ _ t.val ?_ ?_ ?_ ?_ j _ ?_ ?_
  · intro p k r hr
    show V c main_v19 (((cfg3.win 0).blk t).view.emb (ix2 p k)) = V c main_v19 (ix2 r k)
    refine congrArg _ (funext fun a => Fin.ext ?_)
    match a with
    | ⟨0, _⟩ => show win3_0.index t (0 : Fin 2) * 2000 + 1 * p.val = r.val; rw [e0, hr]; omega
    | ⟨1, _⟩ => show win3_0.index t (1 : Fin 2) * 64 + 1 * k.val = k.val; rw [e1]; omega
  · intro p k r hr
    show V c main_v33 (((cfg3.win 1).blk t).view.emb (ix2 p k)) = V c main_v33 (ix2 r k)
    refine congrArg _ (funext fun a => Fin.ext ?_)
    match a with
    | ⟨0, _⟩ => show win3_1.index t (0 : Fin 2) * 2000 + 1 * p.val = r.val; rw [e2, hr]; omega
    | ⟨1, _⟩ => show win3_1.index t (1 : Fin 2) * 64 + 1 * k.val = k.val; rw [e3]; omega
  · funext y
    show V c main_v34 (((cfg3.win 2).blk t).view.emb y) = V c main_v34 y
    refine congrArg _ (funext fun a => Fin.ext ?_)
    match a with
    | ⟨0, _⟩ => show win3_2.index t (0 : Fin 2) * 64 + 1 * (y 0).val = (y 0).val; rw [e4]; omega
    | ⟨1, _⟩ => show win3_2.index t (1 : Fin 2) * 128 + 1 * (y 1).val = (y 1).val; rw [e5]; omega
  · funext y
    show V c main_v35 (((cfg3.win 3).blk t).view.emb y) = V c main_v35 y
    refine congrArg _ (funext fun a => Fin.ext ?_)
    match a with
    | ⟨0, _⟩ => show win3_3.index t (0 : Fin 2) * 64 + 1 * (y 0).val = (y 0).val; rw [e6]; omega
    | ⟨1, _⟩ => show win3_3.index t (1 : Fin 2) * 128 + 1 * (y 1).val = (y 1).val; rw [e7]; omega
  · show win3_4.index t (0 : Fin 2) * 2000 + 1 * (j 0).val = t.val * 2000 + (j 0).val; rw [e8]; omega
  · show win3_4.index t (1 : Fin 2) * 128 + 1 * (j 1).val = (j 1).val; rw [e9]; omega

/-- An index of the result lies in point t's block iff each coordinate lies in the block's range on its axis. -/
theorem mem_blk3 (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v36).slice (win3_4.rect t)).set ↔ _
  rw [View.set_slice_whole, Rect.mem_set_unit]
  exact Iff.rfl

/-- Every row of the result is in the block of the point its row number divided by 2000 names. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  have ht : (i 0).val / 2000 < cfg3.N := by rw [hN]; omega
  refine ⟨⟨(i 0).val / 2000, ht⟩, flush3_4 _, ?_⟩
  rw [mem_blk3]
  obtain ⟨-, -, -, -, -, -, -, -, e8, e9⟩ := idx_facts3 ⟨(i 0).val / 2000, ht⟩
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    rw [e9]; omega

/-- The result array after the region: the sum of the two products, entry by entry. -/
theorem final3 (c : Dev nD) :
    (dat3 V c).arrAt 4 cfg3.N
      = fun i => mm (V c main_v19) (V c main_v34) i + mm (V c main_v33) (V c main_v35) i :=
  (dat3 V c).arrAt_eq_of_cover 4 (G3 (V c main_v19) (V c main_v33) (V c main_v34) (V c main_v35))
    (fun t _ => flushed3 V c t) cover3

end Cert.KernelIdeal.Val

end
-- ==== Proof.Region4.lean ====
/-
  The product applied to the [50000, 128] aggregated features. Each grid point t takes rows 2000·t … 2000·t + 1999
  of the input and the whole [128, 128] weight matrix, and leaves in the output block those rows times the weights.
  The blocks tile the [50000, 128] result, so the array ends holding X · W entry by entry.
-/
import proofs.«141040_j31164282700071_1_alg».proof.Proof.Gen.KernelIdeal.Frame
import proofs.«141040_j31164282700071_1_alg».proof.Proof.LibRowProduct
import proofs.«141040_j31164282700071_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.RowProduct Cert.LibDenseEntry

variable (V : (c : Dev nD) → (b : Ref sig .tc) → Buf (Elt Ideal) ((c : Thread nD τ).loc b))

theorem hz : (![0, 0] : Fin 2 → Nat) = fun _ => 0 := funext fun a => by fin_cases a <;> rfl

/-- The block a point computes, entry (p, q): the p-th loaded row times column q of the weights. The identity
    reshape and the narrowing of the operands change nothing over the extended reals, and the accumulator the
    product adds to is zero everywhere. -/
theorem pay4_apply (x0 : Vec Ideal S2000x128 .f32) (x1 : Vec Ideal S128x128 .f32) (p : Fin 2000) (q : Fin 128) :
    k4_pay1 (F := Ideal) x0 x1 (ix2 p q) = ∑ t : Fin 128, x0 (ix2 p t) * x1 (ix2 t q) := by
  unfold k4_pay1
  show (FloatOps.matmul (F := Ideal) dot_S2000x128_S128x128_S2000x128_1_0_0_1_n_n none
        (truncf (F := Ideal) .bf16 (shapeCast S2000x128 x0 shapeCasts_S2000x128_S2000x128) bitsLt_bf16_f32 : FVec Ideal S2000x128 .bf16)
        (truncf (F := Ideal) .bf16 x1 bitsLt_bf16_f32 : FVec Ideal S128x128 .bf16)
        (constant (F := Ideal) S2000x128 .f32 0x00000000#32) (ix2 p q) : EReal) = _
  rw [shapeCast_self]
  exact matmul_plain_zero_apply _ rfl rfl rfl rfl rfl rfl none _ _ p q

/-- One point's block against the whole-array product: when the loaded rows are rows s·2000 … of X and the
    loaded weights are W, the block's entry y is the product's entry at the array index that y has. -/
theorem point4 (X : Mat 50000 128) (W : Mat 128 128)
    (x0 : Vec Ideal S2000x128 .f32) (x1 : Vec Ideal S128x128 .f32) (s : Nat)
    (h0 : ∀ (p : Fin 2000) (k : Fin 128) (r : Fin 50000), r.val = s * 2000 + p.val → x0 (ix2 p k) = X (ix2 r k))
    (h1 : x1 = W)
    (y : S2000x128.Idx) (i : S50000x128.Idx) (hi0 : (i 0).val = s * 2000 + (y 0).val) (hi1 : (i 1).val = (y 1).val) :
    k4_pay1 (F := Ideal) x0 x1 y = mm X W i := by
  obtain ⟨p, q, rfl⟩ : ∃ (p : Fin 2000) (q : Fin 128), y = ix2 p q := ⟨y 0, y 1, eq_ix2 y⟩
  obtain ⟨r, c, rfl⟩ : ∃ (r : Fin 50000) (c : Fin 128), i = ix2 r c := ⟨i 0, i 1, eq_ix2 i⟩
  have hc : c = q := Fin.ext hi1
  subst hc h1
  rw [pay4_apply, mm_apply]
  exact Finset.sum_congr rfl fun k _ => congrArg₂ (· * ·) (h0 p k r hi0) rfl

/-- Where each window's block sits at point t: the row windows at block row t, the weights whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the arrays the region finds. -/
theorem flushed4 (c : Dev nD) (t : Fin cfg4.N) :
    (dat4 V c).flushed 2 t
      = ((cfg4.win 2).blk t).view.read (Elt Ideal) (mm (V c main_v49 : Mat 50000 128) (V c main_arg6 : Mat 128 128) : Mat 50000 128) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨e0, e1, e2, e3, e4, e5⟩ := idx_facts4 t
  funext j
  show k4_pay1 (F := Ideal) (iblk4 V c 0 t) (iblk4 V c 1 t) j
    = (mm (V c main_v49 : Mat 50000 128) (V c main_arg6 : Mat 128 128) : Mat 50000 128) (((cfg4.win 2).blk t).view.emb j)
  refine point4 _ _ _ _ t.val ?_ ?_ j _ ?_ ?_
  · intro p k r hr
    show V c main_v49 (((cfg4.win 0).blk t).view.emb (ix2 p k)) = V c main_v49 (ix2 r k)
    refine congrArg _ (funext fun a => Fin.ext ?_)
    match a with
    | ⟨0, _⟩ => show win4_0.index t (0 : Fin 2) * 2000 + 1 * p.val = r.val; rw [e0, hr]; omega
    | ⟨1, _⟩ => show win4_0.index t (1 : Fin 2) * 128 + 1 * k.val = k.val; rw [e1]; omega
  · funext y
    show V c main_arg6 (((cfg4.win 1).blk t).view.emb y) = V c main_arg6 y
    refine congrArg _ (funext fun a => Fin.ext ?_)
    match a with
    | ⟨0, _⟩ => show win4_1.index t (0 : Fin 2) * 128 + 1 * (y 0).val = (y 0).val; rw [e2]; omega
    | ⟨1, _⟩ => show win4_1.index t (1 : Fin 2) * 128 + 1 * (y 1).val = (y 1).val; rw [e3]; omega
  · show win4_2.index t (0 : Fin 2) * 2000 + 1 * (j 0).val = t.val * 2000 + (j 0).val; rw [e4]; omega
  · show win4_2.index t (1 : Fin 2) * 128 + 1 * (j 1).val = (j 1).val; rw [e5]; omega

/-- An index of the result lies in point t's block iff each coordinate lies in the block's range on its axis. -/
theorem mem_blk4 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v50).slice (win4_2.rect t)).set ↔ _
  rw [View.set_slice_whole, Rect.mem_set_unit]
  exact Iff.rfl

/-- Every row of the result is in the block of the point its row number divided by 2000 names. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  have ht : (i 0).val / 2000 < cfg4.N := by rw [hN]; omega
  refine ⟨⟨(i 0).val / 2000, ht⟩, flush4_2 _, ?_⟩
  rw [mem_blk4]
  obtain ⟨-, -, -, -, e4, e5⟩ := idx_facts4 ⟨(i 0).val / 2000, ht⟩
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, ht⟩ (1 : Fin 2) * 128 ≤ (i 1).val
      ∧ (i 1).val < win4_2.index ⟨(i 0).val / 2000, ht⟩ (1 : Fin 2) * 128 + 128
    rw [e5]; omega

/-- The result array after the region: the product of the arrays the region found. -/
theorem final4 (c : Dev nD) :
    (dat4 V c).arrAt 2 cfg4.N = (mm (V c main_v49 : Mat 50000 128) (V c main_arg6 : Mat 128 128) : Mat 50000 128) :=
  (dat4 V c).arrAt_eq_of_cover 2 _ (fun t _ => flushed4 V c t) cover4

end Cert.KernelIdeal.Val

end
-- ==== Proof.Region5.lean ====
/-
  The last dense layer, over five row operands. Each grid point t takes rows 2000·t … 2000·t + 1999 of the three
  [50000, 64] and the two [50000, 128] operands, the five whole weight slices and the bias row, and leaves in the
  output block the logistic function of the sum of the five products plus the bias. The blocks tile the
  [50000, 50] result, so the array ends holding that function of the whole arrays entry by entry.
-/
import proofs.«141040_j31164282700071_1_alg».proof.Proof.Gen.KernelIdeal.Frame
import proofs.«141040_j31164282700071_1_alg».proof.Proof.LibRowProduct
import proofs.«141040_j31164282700071_1_alg».proof.Proof.LibDenseEntry
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.RowProduct Cert.LibDenseEntry

variable (V : (c : Dev nD) → (b : Ref sig .tc) → Buf (Elt Ideal) ((c : Thread nD τ).loc b))

theorem hz : (![0, 0] : Fin 2 → Nat) = fun _ => 0 := funext fun a => by fin_cases a <;> rfl

/-- The layer as one function of the whole arrays: the logistic function of the sum of the five products
    plus the bias row. -/
def G5 (X0 X1 X2 : Mat 50000 64) (X3 X4 : Mat 50000 128) (W0 W1 W2 : Mat 64 50) (W3 W4 : Mat 128 50)
    (b : Mat 1 50) : Mat 50000 50 :=
  fun i => Ideal.logistic (((((mm X0 W0 i + mm X1 W1 i) + mm X2 W2 i) + mm X3 W3 i) + mm X4 W4 i)
    + b (ix2 (0 : Fin 1) (i 1 : Fin 50)))

/-- The first four products, summed from the left, at entry (p, q). -/
theorem pay5_2_apply (x0 : Vec Ideal S2000x64 .f32) (x5 : Vec Ideal S64x50 .f32) (x1 : Vec Ideal S2000x64 .f32)
    (x6 : Vec Ideal S64x50 .f32) (x2 : Vec Ideal S2000x64 .f32) (x7 : Vec Ideal S64x50 .f32)
    (x3 : Vec Ideal S2000x128 .f32) (x8 : Vec Ideal S128x50 .f32) (p : Fin 2000) (q : Fin 50) :
    k5_pay2 (F := Ideal) x0 x5 x1 x6 x2 x7 x3 x8 (ix2 p q)
      = (((∑ t : Fin 64, x0 (ix2 p t) * x5 (ix2 t q)) + (∑ t : Fin 64, x1 (ix2 p t) * x6 (ix2 t q)))
          + (∑ t : Fin 64, x2 (ix2 p t) * x7 (ix2 t q))) + (∑ t : Fin 128, x3 (ix2 p t) * x8 (ix2 t q)) := by
  unfold k5_pay2
  show (((FloatOps.matmul (F := Ideal) dot_S2000x64_S64x50_S2000x50_1_0_0_1_n_n none
        (truncf (F := Ideal) .bf16 (shapeCast S2000x64 x0 shapeCasts_S2000x64_S2000x64) bitsLt_bf16_f32 : FVec Ideal S2000x64 .bf16)
        (truncf (F := Ideal) .bf16 (shapeCast S64x50 x5 shapeCasts_S64x50_S64x50) bitsLt_bf16_f32 : FVec Ideal S64x50 .bf16)
        (constant (F := Ideal) S2000x50 .f32 0x00000000#32) (ix2 p q) : EReal)
      + (FloatOps.matmul (F := Ideal) dot_S2000x64_S64x50_S2000x50_1_0_0_1_n_n none
        (truncf (F := Ideal) .bf16 (shapeCast S2000x64 x1 shapeCasts_S2000x64_S2000x64) bitsLt_bf16_f32 : FVec Ideal S2000x64 .bf16)
        (truncf (F := Ideal) .bf16 (shapeCast S64x50 x6 shapeCasts_S64x50_S64x50) bitsLt_bf16_f32 : FVec Ideal S64x50 .bf16)
        (constant (F := Ideal) S2000x50 .f32 0x00000000#32) (ix2 p q) : EReal))
      + (FloatOps.matmul (F := Ideal) dot_S2000x64_S64x50_S2000x50_1_0_0_1_n_n none
        (truncf (F := Ideal) .bf16 (shapeCast S2000x64 x2 shapeCasts_S2000x64_S2000x64) bitsLt_bf16_f32 : FVec Ideal S2000x64 .bf16)
        (truncf (F := Ideal) .bf16 (shapeCast S64x50 x7 shapeCasts_S64x50_S64x50) bitsLt_bf16_f32 : FVec Ideal S64x50 .bf16)
        (constant (F := Ideal) S2000x50 .f32 0x00000000#32) (ix2 p q) : EReal))
      + (FloatOps.matmul (F := Ideal) dot_S2000x128_S128x50_S2000x50_1_0_0_1_n_n none
        (truncf (F := Ideal) .bf16 (shapeCast S2000x128 x3 shapeCasts_S2000x128_S2000x128) bitsLt_bf16_f32 : FVec Ideal S2000x128 .bf16)
        (truncf (F := Ideal) .bf16 (shapeCast S128x50 x8 shapeCasts_S128x50_S128x50) bitsLt_bf16_f32 : FVec Ideal S128x50 .bf16)
        (constant (F := Ideal) S2000x50 .f32 0x00000000#32) (ix2 p q) : EReal) = _
  simp only [shapeCast_self]
  refine congrArg₂ (· + ·) (congrArg₂ (· + ·) (congrArg₂ (· + ·) ?_ ?_) ?_) ?_
  · exact matmul_plain_zero_apply _ rfl rfl rfl rfl rfl rfl none _ _ p q
  · exact matmul_plain_zero_apply _ rfl rfl rfl rfl rfl rfl none _ _ p q
  · exact matmul_plain_zero_apply _ rfl rfl rfl rfl rfl rfl none _ _ p q
  · exact matmul_plain_zero_apply _ rfl rfl rfl rfl rfl rfl none _ _ p q

/-- The block a point computes, entry (p, q): the logistic function of the five row-by-column products, summed
    from the left, plus the bias at q. -/
theorem pay5_apply (x0 x1 x2 : Vec Ideal S2000x64 .f32) (x3 x4 : Vec Ideal S2000x128 .f32)
    (x5 x6 x7 : Vec Ideal S64x50 .f32) (x8 x9 : Vec Ideal S128x50 .f32) (x10 : Vec Ideal S1x50 .f32)
    (p : Fin 2000) (q : Fin 50) :
    k5_pay1 (F := Ideal) (k5_pay2 (F := Ideal) x0 x5 x1 x6 x2 x7 x3 x8) (k5_pay3 (F := Ideal) x4) x9 x10 (ix2 p q)
      = Ideal.logistic ((((((∑ t : Fin 64, x0 (ix2 p t) * x5 (ix2 t q)) + (∑ t : Fin 64, x1 (ix2 p t) * x6 (ix2 t q)))
          + (∑ t : Fin 64, x2 (ix2 p t) * x7 (ix2 t q))) + (∑ t : Fin 128, x3 (ix2 p t) * x8 (ix2 t q)))
          + (∑ t : Fin 128, x4 (ix2 p t) * x9 (ix2 t q))) + x10 (ix2 (0 : Fin 1) q)) := by
  unfold k5_pay1
  show Ideal.logistic (((k5_pay2 (F := Ideal) x0 x5 x1 x6 x2 x7 x3 x8 (ix2 p q) : EReal)
      + (FloatOps.matmul (F := Ideal) dot_S2000x128_S128x50_S2000x50_1_0_0_1_n_n none
        (k5_pay3 (F := Ideal) x4)
        (truncf (F := Ideal) .bf16 (shapeCast S128x50 x9 shapeCasts_S128x50_S128x50) bitsLt_bf16_f32 : FVec Ideal S128x50 .bf16)
        (constant (F := Ideal) S2000x50 .f32 0x00000000#32) (ix2 p q) : EReal))
      + (broadcastTo S2000x50 (shapeCast S1x50 x10 shapeCasts_S1x50_S1x50) broadcasts_S1x50_S2000x50 (ix2 p q) : EReal)) = _
  refine congrArg Ideal.logistic (congrArg₂ (· + ·) (congrArg₂ (· + ·) ?_ ?_) ?_)
  · exact pay5_2_apply x0 x5 x1 x6 x2 x7 x3 x8 p q
  · refine (matmul_plain_zero_apply _ rfl rfl rfl rfl rfl rfl none _ _ p q).trans ?_
    unfold k5_pay3
    rw [shapeCast_self, shapeCast_self]
    rfl
  · refine (broadcastTo_1b_ab_apply _ _ p q).trans ?_
    rw [shapeCast_self]

/-- One point's block against the whole-array function: when the five loaded row operands are rows s·2000 … of
    X₀, …, X₄, the loaded weights are W₀, …, W₄ and the loaded bias row is b, the block's entry y is the
    function's entry at the array index that y has. -/
theorem point5 (X0 X1 X2 : Mat 50000 64) (X3 X4 : Mat 50000 128) (W0 W1 W2 : Mat 64 50) (W3 W4 : Mat 128 50)
    (b : Mat 1 50)
    (x0 x1 x2 : Vec Ideal S2000x64 .f32) (x3 x4 : Vec Ideal S2000x128 .f32)
    (x5 x6 x7 : Vec Ideal S64x50 .f32) (x8 x9 : Vec Ideal S128x50 .f32) (x10 : Vec Ideal S1x50 .f32) (s : Nat)
    (h0 : ∀ (p : Fin 2000) (k : Fin 64) (r : Fin 50000), r.val = s * 2000 + p.val → x0 (ix2 p k) = X0 (ix2 r k))
    (h1 : ∀ (p : Fin 2000) (k : Fin 64) (r : Fin 50000), r.val = s * 2000 + p.val → x1 (ix2 p k) = X1 (ix2 r k))
    (h2 : ∀ (p : Fin 2000) (k : Fin 64) (r : Fin 50000), r.val = s * 2000 + p.val → x2 (ix2 p k) = X2 (ix2 r k))
    (h3 : ∀ (p : Fin 2000) (k : Fin 128) (r : Fin 50000), r.val = s * 2000 + p.val → x3 (ix2 p k) = X3 (ix2 r k))
    (h4 : ∀ (p : Fin 2000) (k : Fin 128) (r : Fin 50000), r.val = s * 2000 + p.val → x4 (ix2 p k) = X4 (ix2 r k))
    (h5 : x5 = W0) (h6 : x6 = W1) (h7 : x7 = W2) (h8 : x8 = W3) (h9 : x9 = W4) (h10 : x10 = b)
    (y : S2000x50.Idx) (i : S50000x50.Idx) (hi0 : (i 0).val = s * 2000 + (y 0).val) (hi1 : (i 1).val = (y 1).val) :
    k5_pay1 (F := Ideal) (k5_pay2 (F := Ideal) x0 x5 x1 x6 x2 x7 x3 x8) (k5_pay3 (F := Ideal) x4) x9 x10 y
      = G5 X0 X1 X2 X3 X4 W0 W1 W2 W3 W4 b i := by
  obtain ⟨p, q, rfl⟩ : ∃ (p : Fin 2000) (q : Fin 50), y = ix2 p q := ⟨y 0, y 1, eq_ix2 y⟩
  obtain ⟨r, c, rfl⟩ : ∃ (r : Fin 50000) (c : Fin 50), i = ix2 r c := ⟨i 0, i 1, eq_ix2 i⟩
  have hc : c = q := Fin.ext hi1
  subst hc h5 h6 h7 h8 h9 h10
  rw [pay5_apply]
  unfold G5
  rw [mm_apply, mm_apply, mm_apply, mm_apply, mm_apply]
  exact congrArg Ideal.logistic (congrArg₂ (· + ·) (congrArg₂ (· + ·) (congrArg₂ (· + ·) (congrArg₂ (· + ·) (congrArg₂ (· + ·)
    (Finset.sum_congr rfl fun k _ => congrArg₂ (· * ·) (h0 p k r hi0) rfl)
    (Finset.sum_congr rfl fun k _ => congrArg₂ (· * ·) (h1 p k r hi0) rfl))
    (Finset.sum_congr rfl fun k _ => congrArg₂ (· * ·) (h2 p k r hi0) rfl))
    (Finset.sum_congr rfl fun k _ => congrArg₂ (· * ·) (h3 p k r hi0) rfl))
    (Finset.sum_congr rfl fun k _ => congrArg₂ (· * ·) (h4 p k r hi0) rfl)) rfl)

/-- Where each window's block sits at point t: the five row windows and the output at block row t, the weights
    and the bias whole. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0
    ∧ win5_11.index t (0 : Fin 2) = t.val ∧ win5_11.index t (1 : Fin 2) = 0 :=
  (by decide +kernel : ∀ t : Fin grid5.N, _)

/-- Window 0's block at point t is rows t·2000 … of its array. -/
theorem rowblk5_0 (c : Dev nD) (t : Fin cfg5.N) (p : Fin 2000) (k : Fin 64) (r : Fin 50000)
    (hr : r.val = t.val * 2000 + p.val) :
    (iblk5 V c 0 t : Vec Ideal S2000x64 .f32) (ix2 p k) = (V c main_v5 : Mat 50000 64) (ix2 r k) := by
  obtain ⟨e0, e1, -, -, -, -, -, -, -, -, -, -, -, -, -, -, -, -, -, -, -, -, -, -⟩ := idx_facts5 t
  show V c main_v5 (((cfg5.win 0).blk t).view.emb (ix2 p k)) = V c main_v5 (ix2 r k)
  refine congrArg _ (funext fun a => Fin.ext ?_)
  match a with
  | ⟨0, _⟩ => show win5_0.index t (0 : Fin 2) * 2000 + 1 * p.val = r.val; rw [e0, hr]; omega
  | ⟨1, _⟩ => show win5_0.index t (1 : Fin 2) * 64 + 1 * k.val = k.val; rw [e1]; omega

/-- Window 1's block at point t is rows t·2000 … of its array. -/
theorem rowblk5_1 (c : Dev nD) (t : Fin cfg5.N) (p : Fin 2000) (k : Fin 64) (r : Fin 50000)
    (hr : r.val = t.val * 2000 + p.val) :
    (iblk5 V c 1 t : Vec Ideal S2000x64 .f32) (ix2 p k) = (V c main_v19 : Mat 50000 64) (ix2 r k) := by
  obtain ⟨-, -, e2, e3, -, -, -, -, -, -, -, -, -, -, -, -, -, -, -, -, -, -, -, -⟩ := idx_facts5 t
  show V c main_v19 (((cfg5.win 1).blk t).view.emb (ix2 p k)) = V c main_v19 (ix2 r k)
  refine congrArg _ (funext fun a => Fin.ext ?_)
  match a with
  | ⟨0, _⟩ => show win5_1.index t (0 : Fin 2) * 2000 + 1 * p.val = r.val; rw [e2, hr]; omega
  | ⟨1, _⟩ => show win5_1.index t (1 : Fin 2) * 64 + 1 * k.val = k.val; rw [e3]; omega

/-- Window 2's block at point t is rows t·2000 … of its array. -/
theorem rowblk5_2 (c : Dev nD) (t : Fin cfg5.N) (p : Fin 2000) (k : Fin 64) (r : Fin 50000)
    (hr : r.val = t.val * 2000 + p.val) :
    (iblk5 V c 2 t : Vec Ideal S2000x64 .f32) (ix2 p k) = (V c main_v33 : Mat 50000 64) (ix2 r k) := by
  obtain ⟨-, -, -, -, e4, e5, -, -, -, -, -, -, -, -, -, -, -, -, -, -, -, -, -, -⟩ := idx_facts5 t
  show V c main_v33 (((cfg5.win 2).blk t).view.emb (ix2 p k)) = V c main_v33 (ix2 r k)
  refine congrArg _ (funext fun a => Fin.ext ?_)
  match a with
  | ⟨0, _⟩ => show win5_2.index t (0 : Fin 2) * 2000 + 1 * p.val = r.val; rw [e4, hr]; omega
  | ⟨1, _⟩ => show win5_2.index t (1 : Fin 2) * 64 + 1 * k.val = k.val; rw [e5]; omega

/-- Window 3's block at point t is rows t·2000 … of its array. -/
theorem rowblk5_3 (c : Dev nD) (t : Fin cfg5.N) (p : Fin 2000) (k : Fin 128) (r : Fin 50000)
    (hr : r.val = t.val * 2000 + p.val) :
    (iblk5 V c 3 t : Vec Ideal S2000x128 .f32) (ix2 p k) = (V c main_v49 : Mat 50000 128) (ix2 r k) := by
  obtain ⟨-, -, -, -, -, -, e6, e7, -, -, -, -, -, -, -, -, -, -, -, -, -, -, -, -⟩ := idx_facts5 t
  show V c main_v49 (((cfg5.win 3).blk t).view.emb (ix2 p k)) = V c main_v49 (ix2 r k)
  refine congrArg _ (funext fun a => Fin.ext ?_)
  match a with
  | ⟨0, _⟩ => show win5_3.index t (0 : Fin 2) * 2000 + 1 * p.val = r.val; rw [e6, hr]; omega
  | ⟨1, _⟩ => show win5_3.index t (1 : Fin 2) * 128 + 1 * k.val = k.val; rw [e7]; omega

/-- Window 4's block at point t is rows t·2000 … of its array. -/
theorem rowblk5_4 (c : Dev nD) (t : Fin cfg5.N) (p : Fin 2000) (k : Fin 128) (r : Fin 50000)
    (hr : r.val = t.val * 2000 + p.val) :
    (iblk5 V c 4 t : Vec Ideal S2000x128 .f32) (ix2 p k) = (V c main_v63 : Mat 50000 128) (ix2 r k) := by
  obtain ⟨-, -, -, -, -, -, -, -, e8, e9, -, -, -, -, -, -, -, -, -, -, -, -, -, -⟩ := idx_facts5 t
  show V c main_v63 (((cfg5.win 4).blk t).view.emb (ix2 p k)) = V c main_v63 (ix2 r k)
  refine congrArg _ (funext fun a => Fin.ext ?_)
  match a with
  | ⟨0, _⟩ => show win5_4.index t (0 : Fin 2) * 2000 + 1 * p.val = r.val; rw [e8, hr]; omega
  | ⟨1, _⟩ => show win5_4.index t (1 : Fin 2) * 128 + 1 * k.val = k.val; rw [e9]; omega

/-- Window 5's block at every point is its whole array. -/
theorem wblk5_5 (c : Dev nD) (t : Fin cfg5.N) :
    (iblk5 V c 5 t : Vec Ideal S64x50 .f32) = (V c main_v64 : Mat 64 50) := by
  obtain ⟨-, -, -, -, -, -, -, -, -, -, e10, e11, -, -, -, -, -, -, -, -, -, -, -, -⟩ := idx_facts5 t
  funext y
  show V c main_v64 (((cfg5.win 5).blk t).view.emb y) = V c main_v64 y
  refine congrArg _ (funext fun a => Fin.ext ?_)
  match a with
  | ⟨0, _⟩ => show win5_5.index t (0 : Fin 2) * 64 + 1 * (y 0).val = (y 0).val; rw [e10]; omega
  | ⟨1, _⟩ => show win5_5.index t (1 : Fin 2) * 50 + 1 * (y 1).val = (y 1).val; rw [e11]; omega

/-- Window 6's block at every point is its whole array. -/
theorem wblk5_6 (c : Dev nD) (t : Fin cfg5.N) :
    (iblk5 V c 6 t : Vec Ideal S64x50 .f32) = (V c main_v65 : Mat 64 50) := by
  obtain ⟨-, -, -, -, -, -, -, -, -, -, -, -, e12, e13, -, -, -, -, -, -, -, -, -, -⟩ := idx_facts5 t
  funext y
  show V c main_v65 (((cfg5.win 6).blk t).view.emb y) = V c main_v65 y
  refine congrArg _ (funext fun a => Fin.ext ?_)
  match a with
  | ⟨0, _⟩ => show win5_6.index t (0 : Fin 2) * 64 + 1 * (y 0).val = (y 0).val; rw [e12]; omega
  | ⟨1, _⟩ => show win5_6.index t (1 : Fin 2) * 50 + 1 * (y 1).val = (y 1).val; rw [e13]; omega

/-- Window 7's block at every point is its whole array. -/
theorem wblk5_7 (c : Dev nD) (t : Fin cfg5.N) :
    (iblk5 V c 7 t : Vec Ideal S64x50 .f32) = (V c main_v66 : Mat 64 50) := by
  obtain ⟨-, -, -, -, -, -, -, -, -, -, -, -, -, -, e14, e15, -, -, -, -, -, -, -, -⟩ := idx_facts5 t
  funext y
  show V c main_v66 (((cfg5.win 7).blk t).view.emb y) = V c main_v66 y
  refine congrArg _ (funext fun a => Fin.ext ?_)
  match a with
  | ⟨0, _⟩ => show win5_7.index t (0 : Fin 2) * 64 + 1 * (y 0).val = (y 0).val; rw [e14]; omega
  | ⟨1, _⟩ => show win5_7.index t (1 : Fin 2) * 50 + 1 * (y 1).val = (y 1).val; rw [e15]; omega

/-- Window 8's block at every point is its whole array. -/
theorem wblk5_8 (c : Dev nD) (t : Fin cfg5.N) :
    (iblk5 V c 8 t : Vec Ideal S128x50 .f32) = (V c main_v67 : Mat 128 50) := by
  obtain ⟨-, -, -, -, -, -, -, -, -, -, -, -, -, -, -, -, e16, e17, -, -, -, -, -, -⟩ := idx_facts5 t
  funext y
  show V c main_v67 (((cfg5.win 8).blk t).view.emb y) = V c main_v67 y
  refine congrArg _ (funext fun a => Fin.ext ?_)
  match a with
  | ⟨0, _⟩ => show win5_8.index t (0 : Fin 2) * 128 + 1 * (y 0).val = (y 0).val; rw [e16]; omega
  | ⟨1, _⟩ => show win5_8.index t (1 : Fin 2) * 50 + 1 * (y 1).val = (y 1).val; rw [e17]; omega

/-- Window 9's block at every point is its whole array. -/
theorem wblk5_9 (c : Dev nD) (t : Fin cfg5.N) :
    (iblk5 V c 9 t : Vec Ideal S128x50 .f32) = (V c main_v68 : Mat 128 50) := by
  obtain ⟨-, -, -, -, -, -, -, -, -, -, -, -, -, -, -, -, -, -, e18, e19, -, -, -, -⟩ := idx_facts5 t
  funext y
  show V c main_v68 (((cfg5.win 9).blk t).view.emb y) = V c main_v68 y
  refine congrArg _ (funext fun a => Fin.ext ?_)
  match a with
  | ⟨0, _⟩ => show win5_9.index t (0 : Fin 2) * 128 + 1 * (y 0).val = (y 0).val; rw [e18]; omega
  | ⟨1, _⟩ => show win5_9.index t (1 : Fin 2) * 50 + 1 * (y 1).val = (y 1).val; rw [e19]; omega

/-- Window 10's block at every point is its whole array. -/
theorem wblk5_10 (c : Dev nD) (t : Fin cfg5.N) :
    (iblk5 V c 10 t : Vec Ideal S1x50 .f32) = (V c main_v69 : Mat 1 50) := by
  obtain ⟨-, -, -, -, -, -, -, -, -, -, -, -, -, -, -, -, -, -, -, -, e20, e21, -, -⟩ := idx_facts5 t
  funext y
  show V c main_v69 (((cfg5.win 10).blk t).view.emb y) = V c main_v69 y
  refine congrArg _ (funext fun a => Fin.ext ?_)
  match a with
  | ⟨0, _⟩ => show win5_10.index t (0 : Fin 2) * 1 + 1 * (y 0).val = (y 0).val; rw [e20]; omega
  | ⟨1, _⟩ => show win5_10.index t (1 : Fin 2) * 50 + 1 * (y 1).val = (y 1).val; rw [e21]; omega

/-- What point t writes back is block t of the layer's whole-array function of the arrays the region finds. -/
theorem flushed5 (c : Dev nD) (t : Fin cfg5.N) :
    (dat5 V c).flushed 11 t
      = ((cfg5.win 11).blk t).view.read (Elt Ideal)
          (G5 (V c main_v5) (V c main_v19) (V c main_v33) (V c main_v49) (V c main_v63) (V c main_v64) (V c main_v65) (V c main_v66) (V c main_v67) (V c main_v68) (V c main_v69)) := by
  show (cfg5.win 11).cut (grid5.coords t) ((dat5 V c).after 11 t) = _
  rw [after5_11]
  unfold out5_11
  rw [View.canon_unit_zero hz]
  simp only [View.ld_unit_zero (S := S2000x64) hz, View.ld_unit_zero (S := S64x50) hz,
    View.ld_unit_zero (S := S2000x128) hz, View.ld_unit_zero (S := S128x50) hz, View.ld_unit_zero (S := S1x50) hz]
  obtain ⟨-, -, -, -, -, -, -, -, -, -, -, -, -, -, -, -, -, -, -, -, -, -, e22, e23⟩ := idx_facts5 t
  funext j
  show k5_pay1 (F := Ideal) (k5_pay2 (F := Ideal) (iblk5 V c 0 t) (iblk5 V c 5 t) (iblk5 V c 1 t) (iblk5 V c 6 t)
        (iblk5 V c 2 t) (iblk5 V c 7 t) (iblk5 V c 3 t) (iblk5 V c 8 t))
      (k5_pay3 (F := Ideal) (iblk5 V c 4 t)) (iblk5 V c 9 t) (iblk5 V c 10 t) j
    = G5 (V c main_v5) (V c main_v19) (V c main_v33) (V c main_v49) (V c main_v63) (V c main_v64) (V c main_v65) (V c main_v66) (V c main_v67) (V c main_v68) (V c main_v69) (((cfg5.win 11).blk t).view.emb j)
  refine point5 _ _ _ _ _ _ _ _ _ _ _ _ _ _ _ _ _ _ _ _ _ _ t.val ?_ ?_ ?_ ?_ ?_ ?_ ?_ ?_ ?_ ?_ ?_ j _ ?_ ?_
  · exact fun p k r hr => rowblk5_0 V c t p k r hr
  · exact fun p k r hr => rowblk5_1 V c t p k r hr
  · exact fun p k r hr => rowblk5_2 V c t p k r hr
  · exact fun p k r hr => rowblk5_3 V c t p k r hr
  · exact fun p k r hr => rowblk5_4 V c t p k r hr
  · exact wblk5_5 V c t
  · exact wblk5_6 V c t
  · exact wblk5_7 V c t
  · exact wblk5_8 V c t
  · exact wblk5_9 V c t
  · exact wblk5_10 V c t
  · show win5_11.index t (0 : Fin 2) * 2000 + 1 * (j 0).val = t.val * 2000 + (j 0).val; rw [e22]; omega
  · show win5_11.index t (1 : Fin 2) * 50 + 1 * (j 1).val = (j 1).val; rw [e23]; omega

/-- An index of the result lies in point t's block iff each coordinate lies in the block's range on its axis. -/
theorem mem_blk5 (t : Fin cfg5.N) (i : S50000x50.Idx) :
    i ∈ ((cfg5.win 11).blk t).view.set ↔ ∀ a : Fin 2, win5_11.index t a * S2000x50.size a ≤ (i a).val
      ∧ (i a).val < win5_11.index t a * S2000x50.size a + S2000x50.size a := by
  show i ∈ ((View.whole main_v70).slice (win5_11.rect t)).set ↔ _
  rw [View.set_slice_whole, Rect.mem_set_unit]
  exact Iff.rfl

/-- Every row of the result is in the block of the point its row number divided by 2000 names. -/
theorem cover5 (i : S50000x50.Idx) :
    ∃ t : Fin cfg5.N, (cfg5.win 11).flush t = true ∧ i ∈ ((cfg5.win 11).blk t).view.set := by
  have hi0 : (i 0).val < 50000 := (i 0).isLt
  have hi1 : (i 1).val < 50 := (i 1).isLt
  have hN : cfg5.N = 25 := N_5
  have ht : (i 0).val / 2000 < cfg5.N := by rw [hN]; omega
  refine ⟨⟨(i 0).val / 2000, ht⟩, flush5_11 _, ?_⟩
  rw [mem_blk5]
  obtain ⟨-, -, -, -, -, -, -, -, -, -, -, -, -, -, -, -, -, -, -, -, -, -, e22, e23⟩ := idx_facts5 ⟨(i 0).val / 2000, ht⟩
  intro a
  match a with
  | ⟨0, _⟩ =>
    show win5_11.index ⟨(i 0).val / 2000, ht⟩ (0 : Fin 2) * 2000 ≤ (i 0).val
      ∧ (i 0).val < win5_11.index ⟨(i 0).val / 2000, ht⟩ (0 : Fin 2) * 2000 + 2000
    rw [e22]; show (i 0).val / 2000 * 2000 ≤ (i 0).val ∧ (i 0).val < (i 0).val / 2000 * 2000 + 2000; omega
  | ⟨1, _⟩ =>
    show win5_11.index ⟨(i 0).val / 2000, ht⟩ (1 : Fin 2) * 50 ≤ (i 1).val
      ∧ (i 1).val < win5_11.index ⟨(i 0).val / 2000, ht⟩ (1 : Fin 2) * 50 + 50
    rw [e23]; omega

/-- The result array after the region: the logistic function of the five products' sum plus the bias row,
    entry by entry. -/
theorem final5 (c : Dev nD) :
    (dat5 V c).arrAt 11 cfg5.N
      = fun i => Ideal.logistic (((((mm (V c main_v5) (V c main_v64) i + mm (V c main_v19) (V c main_v65) i)
          + mm (V c main_v33) (V c main_v66) i) + mm (V c main_v49) (V c main_v67) i)
          + mm (V c main_v63) (V c main_v68) i) + V c main_v69 (ix2 (0 : Fin 1) (i 1 : Fin 50))) :=
  (dat5 V c).arrAt_eq_of_cover 11
    (G5 (V c main_v5) (V c main_v19) (V c main_v33) (V c main_v49) (V c main_v63) (V c main_v64) (V c main_v65) (V c main_v66) (V c main_v67) (V c main_v68) (V c main_v69))
    (fun t _ => flushed5 V c t) cover5

end Cert.KernelIdeal.Val

end
-- ==== Proof.FoldKeep.lean ====
/-
  Which buffers each stretch of host operations and each region leave as they were. A host stretch changes only the
  buffers its operations write; a region changes only its output array (its input arrays are read through their
  windows and end as they were, every other buffer is not touched). So a buffer can be followed from the boundary
  where it is written to any later boundary.
-/
import proofs.«141040_j31164282700071_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen

variable {F : FTy → Type} [FloatOps F]
variable (m : (ℓ : Loc nD τ sig) → Buf (Elt F) ℓ) (ρ : Dev nD → PrngReg)

/-! ## What the host stretches write -/

abbrev hostOps0_W : List (Ref sig .tc) := [main_v0, main_v1, main_v2, main_v3, main_v4]
abbrev hostOps2_W : List (Ref sig .tc) :=
  [main_c, main_v7, main_v8, main_c_0, main_v9, main_v10, main_v11, main_v12, main_v13, main_cst, main_v14, main_v15,
   main_v16, main_v17, main_v18, main_v19]
abbrev hostOps3_W : List (Ref sig .tc) :=
  [main_c_1, main_v21, main_v22, main_c_2, main_v23, main_v24, main_v25, main_v26, main_v27, main_cst_3, main_v28,
   main_v29, main_v30, main_v31, main_v32, main_v33, main_v34, main_v35]
abbrev hostOps4_W : List (Ref sig .tc) :=
  [main_c_4, main_v37, main_v38, main_c_5, main_v39, main_v40, main_v41, main_v42, main_v43, main_cst_6, main_v44,
   main_v45, main_v46, main_v47, main_v48, main_v49]
abbrev hostOps5_W : List (Ref sig .tc) :=
  [main_c_7, main_v51, main_v52, main_c_8, main_v53, main_v54, main_v55, main_v56, main_v57, main_cst_9, main_v58,
   main_v59, main_v60, main_v61, main_v62, main_v63, main_v64, main_v65, main_v66, main_v67, main_v68, main_v69]

/-- Every operation of a literal stretch writes a buffer of the listed ones. -/
macro "writes_listed" : tactic =>
  `(tactic| (simp only [List.Forall]
             repeat' apply And.intro
             all_goals (simp only [StableHlo.nullary_writes, StableHlo.unary_writes, StableHlo.binary_writes,
               StableHlo.ternary_writes, StableHlo.quaternary_writes, StableHlo.reshape_writes,
               StableHlo.binaryIndexed_writes, StableHlo.unaryIndexed_writes, StableHlo.nary_writes,
               Finset.singleton_subset_iff, List.mem_toFinset]
                        exact List.mem_map_of_mem (by decide))))

theorem hostOps0_writes : (hostOps0 : List (HloOp τ sig (Elt F))).Forall fun op =>
    op.writes ⊆ (hostOps0_W.map (Proc.devRef (τ := τ) .tc)).toFinset := by writes_listed
theorem hostOps2_writes : (hostOps2 : List (HloOp τ sig (Elt F))).Forall fun op =>
    op.writes ⊆ (hostOps2_W.map (Proc.devRef (τ := τ) .tc)).toFinset := by writes_listed
theorem hostOps3_writes : (hostOps3 : List (HloOp τ sig (Elt F))).Forall fun op =>
    op.writes ⊆ (hostOps3_W.map (Proc.devRef (τ := τ) .tc)).toFinset := by writes_listed
theorem hostOps4_writes : (hostOps4 : List (HloOp τ sig (Elt F))).Forall fun op =>
    op.writes ⊆ (hostOps4_W.map (Proc.devRef (τ := τ) .tc)).toFinset := by writes_listed
theorem hostOps5_writes : (hostOps5 : List (HloOp τ sig (Elt F))).Forall fun op =>
    op.writes ⊆ (hostOps5_W.map (Proc.devRef (τ := τ) .tc)).toFinset := by writes_listed

/-! ## One boundary to the next -/

variable (c : Dev nD)

theorem W1_keep (r : Ref sig .tc) (h : r ∉ hostOps0_W) :
    W1 m ρ c (Proc.devRef .tc r) = W0 m ρ c (Proc.devRef .tc r) :=
  StableHlo.after_of_writes_sub hostOps0 _ hostOps0_writes h
theorem W4_keep (r : Ref sig .tc) (h : r ∉ hostOps2_W) :
    W4 m ρ c (Proc.devRef .tc r) = W3 m ρ c (Proc.devRef .tc r) :=
  StableHlo.after_of_writes_sub hostOps2 _ hostOps2_writes h
theorem W6_keep (r : Ref sig .tc) (h : r ∉ hostOps3_W) :
    W6 m ρ c (Proc.devRef .tc r) = W5 m ρ c (Proc.devRef .tc r) :=
  StableHlo.after_of_writes_sub hostOps3 _ hostOps3_writes h
theorem W8_keep (r : Ref sig .tc) (h : r ∉ hostOps4_W) :
    W8 m ρ c (Proc.devRef .tc r) = W7 m ρ c (Proc.devRef .tc r) :=
  StableHlo.after_of_writes_sub hostOps4 _ hostOps4_writes h
theorem W10_keep (r : Ref sig .tc) (h : r ∉ hostOps5_W) :
    W10 m ρ c (Proc.devRef .tc r) = W9 m ρ c (Proc.devRef .tc r) :=
  StableHlo.after_of_writes_sub hostOps5 _ hostOps5_writes h

/-- Region 0 changes only its output array. -/
theorem W2_keep (r : Ref sig .tc) (h : r ≠ main_v5) :
    W2 m ρ c (Proc.devRef .tc r) = W1 m ρ c (Proc.devRef .tc r) := by
  by_cases hw : ∃ w, Pipeline.arrRef spec0 w = r
  · obtain ⟨w, rfl⟩ := hw
    refine (W2_arr m ρ c w).trans (((dat0 (V1 m ρ) c).arrAt_in w ?_ _).trans (A_eq0 (V1 m ρ) c w))
    fin_cases w
    · rfl
    · rfl
    · rfl
    · exact absurd rfl h
  · exact W2_of_ne m ρ c r fun w e => hw ⟨w, e⟩
/-- Region 1 changes only its output array. -/
theorem W3_keep (r : Ref sig .tc) (h : r ≠ main_v6) :
    W3 m ρ c (Proc.devRef .tc r) = W2 m ρ c (Proc.devRef .tc r) := by
  by_cases hw : ∃ w, Pipeline.arrRef spec1 w = r
  · obtain ⟨w, rfl⟩ := hw
    refine (W3_arr m ρ c w).trans (((dat1 (V2 m ρ) c).arrAt_in w ?_ _).trans (A_eq1 (V2 m ρ) c w))
    fin_cases w
    · rfl
    · rfl
    · exact absurd rfl h
  · exact W3_of_ne m ρ c r fun w e => hw ⟨w, e⟩
/-- Region 2 changes only its output array. -/
theorem W5_keep (r : Ref sig .tc) (h : r ≠ main_v20) :
    W5 m ρ c (Proc.devRef .tc r) = W4 m ρ c (Proc.devRef .tc r) := by
  by_cases hw : ∃ w, Pipeline.arrRef spec2 w = r
  · obtain ⟨w, rfl⟩ := hw
    refine (W5_arr m ρ c w).trans (((dat2 (V4 m ρ) c).arrAt_in w ?_ _).trans (A_eq2 (V4 m ρ) c w))
    fin_cases w
    · rfl
    · rfl
    · exact absurd rfl h
  · exact W5_of_ne m ρ c r fun w e => hw ⟨w, e⟩
/-- Region 3 changes only its output array. -/
theorem W7_keep (r : Ref sig .tc) (h : r ≠ main_v36) :
    W7 m ρ c (Proc.devRef .tc r) = W6 m ρ c (Proc.devRef .tc r) := by
  by_cases hw : ∃ w, Pipeline.arrRef spec3 w = r
  · obtain ⟨w, rfl⟩ := hw
    refine (W7_arr m ρ c w).trans (((dat3 (V6 m ρ) c).arrAt_in w ?_ _).trans (A_eq3 (V6 m ρ) c w))
    fin_cases w
    · rfl
    · rfl
    · rfl
    · rfl
    · exact absurd rfl h
  · exact W7_of_ne m ρ c r fun w e => hw ⟨w, e⟩
/-- Region 4 changes only its output array. -/
theorem W9_keep (r : Ref sig .tc) (h : r ≠ main_v50) :
    W9 m ρ c (Proc.devRef .tc r) = W8 m ρ c (Proc.devRef .tc r) := by
  by_cases hw : ∃ w, Pipeline.arrRef spec4 w = r
  · obtain ⟨w, rfl⟩ := hw
    refine (W9_arr m ρ c w).trans (((dat4 (V8 m ρ) c).arrAt_in w ?_ _).trans (A_eq4 (V8 m ρ) c w))
    fin_cases w
    · rfl
    · rfl
    · exact absurd rfl h
  · exact W9_of_ne m ρ c r fun w e => hw ⟨w, e⟩

end Cert.KernelIdeal.Fold

end
-- ==== Proof.FoldRead.lean ====
/-
  What each stretch of host operations leaves in the buffers the regions and the later stretches read: the source
  and destination node numbers of the edges (the two rows of the edge array), the bias rows as one-row matrices, the
  row blocks of the weight matrices, and the neighbourhood sums — the rows of a [50000, d] array gathered at the
  edges' source nodes and summed into their destination nodes, plus the bias row.
-/
import proofs.«141040_j31164282700071_1_alg».proof.Proof.Gen.KernelIdeal.Frame
import Idealize.ShloMosaic.PureOps.Ideal

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Idealize.ShloMosaic.StableHlo

/-- The edges' source nodes: row 0 of the edge array. -/
def srcIdx (a1 : (⟨S2x800000, .i32⟩ : BufTy).Contents (Elt Ideal)) : (⟨S800000, .i32⟩ : BufTy).Contents (Elt Ideal) :=
  shapeCast S800000 (extractStridedSlice S1x800000 ![0, 0] a1 slices_S2x800000_S1x800000_0_0) shapeCasts_S1x800000_S800000

/-- The edges' destination nodes: row 1 of the edge array. -/
def dstIdx (a1 : (⟨S2x800000, .i32⟩ : BufTy).Contents (Elt Ideal)) : (⟨S800000, .i32⟩ : BufTy).Contents (Elt Ideal) :=
  shapeCast S800000 (extractStridedSlice S1x800000 ![1, 0] a1 slices_S2x800000_S1x800000_1_0) shapeCasts_S1x800000_S800000

/-- The neighbourhood sum over 64 columns: the rows of `h` at the source nodes (a negative number counted from
    the end) summed into the destination nodes' rows of a zero array, plus the bias row. -/
def agg64 (src dst : (⟨S800000, .i32⟩ : BufTy).Contents (Elt Ideal)) (b : (⟨S64, .f32⟩ : BufTy).Contents (Elt Ideal))
    (h : (⟨S50000x64, .f32⟩ : BufTy).Contents (Elt Ideal)) : (⟨S50000x64, .f32⟩ : BufTy).Contents (Elt Ideal) :=
  addf (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x64 ![0, 1] bcast_S1x64_S50000x64_0_1 (broadcastInDim S1x64 ![1] bcast_S64_S1x64_1 b))

/-- The neighbourhood sum over 128 columns. -/
def agg128 (src dst : (⟨S800000, .i32⟩ : BufTy).Contents (Elt Ideal)) (b : (⟨S128, .f32⟩ : BufTy).Contents (Elt Ideal))
    (h : (⟨S50000x128, .f32⟩ : BufTy).Contents (Elt Ideal)) : (⟨S50000x128, .f32⟩ : BufTy).Contents (Elt Ideal) :=
  addf (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S1x128_S50000x128_0_1 (broadcastInDim S1x128 ![1] bcast_S128_S1x128_1 b))

variable (m : (ℓ : Loc nD τ sig) → Buf (Elt Ideal) ℓ) (ρ : Dev nD → PrngReg) (c : Dev nD)

/-! ## The first stretch -/

theorem W1_v1 : W1 m ρ c (Proc.devRef .tc main_v1) = srcIdx (m ((c : Thread nD τ).loc main_arg1)) := by
  show StableHlo.after hostOps0 (W0 m ρ c) (Proc.devRef .tc main_v1) = srcIdx (W0 m ρ c (Proc.devRef .tc main_arg1))
  generalize W0 m ρ c = V
  after_results
  all_goals rfl
theorem W1_v3 : W1 m ρ c (Proc.devRef .tc main_v3) = dstIdx (m ((c : Thread nD τ).loc main_arg1)) := by
  show StableHlo.after hostOps0 (W0 m ρ c) (Proc.devRef .tc main_v3) = dstIdx (W0 m ρ c (Proc.devRef .tc main_arg1))
  generalize W0 m ρ c = V
  after_results
  all_goals rfl
theorem W1_v4 : W1 m ρ c (Proc.devRef .tc main_v4)
    = shapeCast S1x64 (m ((c : Thread nD τ).loc main_arg3)) shapeCasts_S64_S1x64 := by
  show StableHlo.after hostOps0 (W0 m ρ c) (Proc.devRef .tc main_v4)
    = shapeCast S1x64 (W0 m ρ c (Proc.devRef .tc main_arg3)) shapeCasts_S64_S1x64
  generalize W0 m ρ c = V
  after_results
  all_goals rfl

/-! ## The stretches between the regions -/

set_option maxHeartbeats 2000000 in
theorem W4_v19 : W4 m ρ c (Proc.devRef .tc main_v19)
    = agg64 (W3 m ρ c (Proc.devRef .tc main_v1)) (W3 m ρ c (Proc.devRef .tc main_v3))
        (W3 m ρ c (Proc.devRef .tc main_arg5)) (W3 m ρ c (Proc.devRef .tc main_v6)) := by
  show StableHlo.after hostOps2 (W3 m ρ c) (Proc.devRef .tc main_v19) = _
  generalize W3 m ρ c = V
  after_results_simp
  all_goals rfl

set_option maxHeartbeats 2000000 in
theorem W6_v33 : W6 m ρ c (Proc.devRef .tc main_v33)
    = agg64 (W5 m ρ c (Proc.devRef .tc main_v1)) (W5 m ρ c (Proc.devRef .tc main_v3))
        (W5 m ρ c (Proc.devRef .tc main_arg5)) (W5 m ρ c (Proc.devRef .tc main_v20)) := by
  show StableHlo.after hostOps3 (W5 m ρ c) (Proc.devRef .tc main_v33) = _
  generalize W5 m ρ c = V
  after_results_simp
  all_goals rfl
theorem W6_v34 : W6 m ρ c (Proc.devRef .tc main_v34)
    = extractStridedSlice S64x128 ![0, 0] (W5 m ρ c (Proc.devRef .tc main_arg6)) slices_S128x128_S64x128_0_0 := by
  show StableHlo.after hostOps3 (W5 m ρ c) (Proc.devRef .tc main_v34) = _
  generalize W5 m ρ c = V
  after_results
  all_goals rfl
theorem W6_v35 : W6 m ρ c (Proc.devRef .tc main_v35)
    = extractStridedSlice S64x128 ![64, 0] (W5 m ρ c (Proc.devRef .tc main_arg6)) slices_S128x128_S64x128_64_0 := by
  show StableHlo.after hostOps3 (W5 m ρ c) (Proc.devRef .tc main_v35) = _
  generalize W5 m ρ c = V
  after_results
  all_goals rfl

set_option maxHeartbeats 2000000 in
theorem W8_v49 : W8 m ρ c (Proc.devRef .tc main_v49)
    = agg128 (W7 m ρ c (Proc.devRef .tc main_v1)) (W7 m ρ c (Proc.devRef .tc main_v3))
        (W7 m ρ c (Proc.devRef .tc main_arg7)) (W7 m ρ c (Proc.devRef .tc main_v36)) := by
  show StableHlo.after hostOps4 (W7 m ρ c) (Proc.devRef .tc main_v49) = _
  generalize W7 m ρ c = V
  after_results_simp
  all_goals rfl

set_option maxHeartbeats 2000000 in
theorem W10_v63 : W10 m ρ c (Proc.devRef .tc main_v63)
    = agg128 (W9 m ρ c (Proc.devRef .tc main_v1)) (W9 m ρ c (Proc.devRef .tc main_v3))
        (W9 m ρ c (Proc.devRef .tc main_arg7)) (W9 m ρ c (Proc.devRef .tc main_v50)) := by
  show StableHlo.after hostOps5 (W9 m ρ c) (Proc.devRef .tc main_v63) = _
  generalize W9 m ρ c = V
  after_results_simp
  all_goals rfl
theorem W10_v64 : W10 m ρ c (Proc.devRef .tc main_v64)
    = extractStridedSlice S64x50 ![0, 0] (W9 m ρ c (Proc.devRef .tc main_arg8)) slices_S448x50_S64x50_0_0 := by
  show StableHlo.after hostOps5 (W9 m ρ c) (Proc.devRef .tc main_v64) = _
  generalize W9 m ρ c = V
  after_results
  all_goals rfl
theorem W10_v65 : W10 m ρ c (Proc.devRef .tc main_v65)
    = extractStridedSlice S64x50 ![64, 0] (W9 m ρ c (Proc.devRef .tc main_arg8)) slices_S448x50_S64x50_64_0 := by
  show StableHlo.after hostOps5 (W9 m ρ c) (Proc.devRef .tc main_v65) = _
  generalize W9 m ρ c = V
  after_results
  all_goals rfl
theorem W10_v66 : W10 m ρ c (Proc.devRef .tc main_v66)
    = extractStridedSlice S64x50 ![128, 0] (W9 m ρ c (Proc.devRef .tc main_arg8)) slices_S448x50_S64x50_128_0 := by
  show StableHlo.after hostOps5 (W9 m ρ c) (Proc.devRef .tc main_v66) = _
  generalize W9 m ρ c = V
  after_results
  all_goals rfl
theorem W10_v67 : W10 m ρ c (Proc.devRef .tc main_v67)
    = extractStridedSlice S128x50 ![192, 0] (W9 m ρ c (Proc.devRef .tc main_arg8)) slices_S448x50_S128x50_192_0 := by
  show StableHlo.after hostOps5 (W9 m ρ c) (Proc.devRef .tc main_v67) = _
  generalize W9 m ρ c = V
  after_results
  all_goals rfl
theorem W10_v68 : W10 m ρ c (Proc.devRef .tc main_v68)
    = extractStridedSlice S128x50 ![320, 0] (W9 m ρ c (Proc.devRef .tc main_arg8)) slices_S448x50_S128x50_320_0 := by
  show StableHlo.after hostOps5 (W9 m ρ c) (Proc.devRef .tc main_v68) = _
  generalize W9 m ρ c = V
  after_results
  all_goals rfl
theorem W10_v69 : W10 m ρ c (Proc.devRef .tc main_v69)
    = shapeCast S1x50 (W9 m ρ c (Proc.devRef .tc main_arg9)) shapeCasts_S50_S1x50 := by
  show StableHlo.after hostOps5 (W9 m ρ c) (Proc.devRef .tc main_v69) = _
  generalize W9 m ρ c = V
  after_results
  all_goals rfl

end Cert.KernelIdeal.Fold

end
-- ==== Proof.KernelStages.lean ====
/-
  The kernel program's buffers, stage by stage, as functions of the argument arrays: the first dense layer, then
  four times a product followed by the neighbourhood sum, then the last layer. The products over the two halves
  (five parts) of a weight matrix are written with the matrix's row blocks; the row blocks are what the host
  slices leave, and the one-row bias matrices are the bias vectors read at their one row.
-/
import proofs.«141040_j31164282700071_1_alg».proof.Proof.Region0
import proofs.«141040_j31164282700071_1_alg».proof.Proof.Region1
import proofs.«141040_j31164282700071_1_alg».proof.Proof.Region2
import proofs.«141040_j31164282700071_1_alg».proof.Proof.Region3
import proofs.«141040_j31164282700071_1_alg».proof.Proof.Region4
import proofs.«141040_j31164282700071_1_alg».proof.Proof.Region5
import proofs.«141040_j31164282700071_1_alg».proof.Proof.FoldKeep
import proofs.«141040_j31164282700071_1_alg».proof.Proof.FoldRead

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Val Cert.RowProduct

variable (m : (ℓ : Loc nD τ sig) → Buf (Elt Ideal) ℓ) (ρ : Dev nD → PrngReg) (c : Dev nD)

/-! ## A buffer followed across several boundaries -/

theorem up_0_1 (r : Ref sig .tc) (h1 : r ∉ hostOps0_W) :
    W1 m ρ c (Proc.devRef .tc r) = W0 m ρ c (Proc.devRef .tc r) :=
  W1_keep m ρ c r h1
theorem up_0_2 (r : Ref sig .tc) (h1 : r ∉ hostOps0_W) (h2 : r ≠ main_v5) :
    W2 m ρ c (Proc.devRef .tc r) = W0 m ρ c (Proc.devRef .tc r) :=
  (W2_keep m ρ c r h2).trans (W1_keep m ρ c r h1)
theorem up_0_3 (r : Ref sig .tc) (h1 : r ∉ hostOps0_W) (h2 : r ≠ main_v5) (h3 : r ≠ main_v6) :
    W3 m ρ c (Proc.devRef .tc r) = W0 m ρ c (Proc.devRef .tc r) :=
  (W3_keep m ρ c r h3).trans ((W2_keep m ρ c r h2).trans (W1_keep m ρ c r h1))
theorem up_0_4 (r : Ref sig .tc) (h1 : r ∉ hostOps0_W) (h2 : r ≠ main_v5) (h3 : r ≠ main_v6) (h4 : r ∉ hostOps2_W) :
    W4 m ρ c (Proc.devRef .tc r) = W0 m ρ c (Proc.devRef .tc r) :=
  (W4_keep m ρ c r h4).trans ((W3_keep m ρ c r h3).trans ((W2_keep m ρ c r h2).trans (W1_keep m ρ c r h1)))
theorem up_0_5 (r : Ref sig .tc) (h1 : r ∉ hostOps0_W) (h2 : r ≠ main_v5) (h3 : r ≠ main_v6) (h4 : r ∉ hostOps2_W) (h5 : r ≠ main_v20) :
    W5 m ρ c (Proc.devRef .tc r) = W0 m ρ c (Proc.devRef .tc r) :=
  (W5_keep m ρ c r h5).trans ((W4_keep m ρ c r h4).trans ((W3_keep m ρ c r h3).trans ((W2_keep m ρ c r h2).trans (W1_keep m ρ c r h1))))
theorem up_0_7 (r : Ref sig .tc) (h1 : r ∉ hostOps0_W) (h2 : r ≠ main_v5) (h3 : r ≠ main_v6) (h4 : r ∉ hostOps2_W) (h5 : r ≠ main_v20) (h6 : r ∉ hostOps3_W) (h7 : r ≠ main_v36) :
    W7 m ρ c (Proc.devRef .tc r) = W0 m ρ c (Proc.devRef .tc r) :=
  (W7_keep m ρ c r h7).trans ((W6_keep m ρ c r h6).trans ((W5_keep m ρ c r h5).trans ((W4_keep m ρ c r h4).trans ((W3_keep m ρ c r h3).trans ((W2_keep m ρ c r h2).trans (W1_keep m ρ c r h1))))))
theorem up_0_8 (r : Ref sig .tc) (h1 : r ∉ hostOps0_W) (h2 : r ≠ main_v5) (h3 : r ≠ main_v6) (h4 : r ∉ hostOps2_W) (h5 : r ≠ main_v20) (h6 : r ∉ hostOps3_W) (h7 : r ≠ main_v36) (h8 : r ∉ hostOps4_W) :
    W8 m ρ c (Proc.devRef .tc r) = W0 m ρ c (Proc.devRef .tc r) :=
  (W8_keep m ρ c r h8).trans ((W7_keep m ρ c r h7).trans ((W6_keep m ρ c r h6).trans ((W5_keep m ρ c r h5).trans ((W4_keep m ρ c r h4).trans ((W3_keep m ρ c r h3).trans ((W2_keep m ρ c r h2).trans (W1_keep m ρ c r h1)))))))
theorem up_0_9 (r : Ref sig .tc) (h1 : r ∉ hostOps0_W) (h2 : r ≠ main_v5) (h3 : r ≠ main_v6) (h4 : r ∉ hostOps2_W) (h5 : r ≠ main_v20) (h6 : r ∉ hostOps3_W) (h7 : r ≠ main_v36) (h8 : r ∉ hostOps4_W) (h9 : r ≠ main_v50) :
    W9 m ρ c (Proc.devRef .tc r) = W0 m ρ c (Proc.devRef .tc r) :=
  (W9_keep m ρ c r h9).trans ((W8_keep m ρ c r h8).trans ((W7_keep m ρ c r h7).trans ((W6_keep m ρ c r h6).trans ((W5_keep m ρ c r h5).trans ((W4_keep m ρ c r h4).trans ((W3_keep m ρ c r h3).trans ((W2_keep m ρ c r h2).trans (W1_keep m ρ c r h1))))))))
theorem up_1_3 (r : Ref sig .tc) (h2 : r ≠ main_v5) (h3 : r ≠ main_v6) :
    W3 m ρ c (Proc.devRef .tc r) = W1 m ρ c (Proc.devRef .tc r) :=
  (W3_keep m ρ c r h3).trans (W2_keep m ρ c r h2)
theorem up_1_5 (r : Ref sig .tc) (h2 : r ≠ main_v5) (h3 : r ≠ main_v6) (h4 : r ∉ hostOps2_W) (h5 : r ≠ main_v20) :
    W5 m ρ c (Proc.devRef .tc r) = W1 m ρ c (Proc.devRef .tc r) :=
  (W5_keep m ρ c r h5).trans ((W4_keep m ρ c r h4).trans ((W3_keep m ρ c r h3).trans (W2_keep m ρ c r h2)))
theorem up_1_7 (r : Ref sig .tc) (h2 : r ≠ main_v5) (h3 : r ≠ main_v6) (h4 : r ∉ hostOps2_W) (h5 : r ≠ main_v20) (h6 : r ∉ hostOps3_W) (h7 : r ≠ main_v36) :
    W7 m ρ c (Proc.devRef .tc r) = W1 m ρ c (Proc.devRef .tc r) :=
  (W7_keep m ρ c r h7).trans ((W6_keep m ρ c r h6).trans ((W5_keep m ρ c r h5).trans ((W4_keep m ρ c r h4).trans ((W3_keep m ρ c r h3).trans (W2_keep m ρ c r h2)))))
theorem up_1_9 (r : Ref sig .tc) (h2 : r ≠ main_v5) (h3 : r ≠ main_v6) (h4 : r ∉ hostOps2_W) (h5 : r ≠ main_v20) (h6 : r ∉ hostOps3_W) (h7 : r ≠ main_v36) (h8 : r ∉ hostOps4_W) (h9 : r ≠ main_v50) :
    W9 m ρ c (Proc.devRef .tc r) = W1 m ρ c (Proc.devRef .tc r) :=
  (W9_keep m ρ c r h9).trans ((W8_keep m ρ c r h8).trans ((W7_keep m ρ c r h7).trans ((W6_keep m ρ c r h6).trans ((W5_keep m ρ c r h5).trans ((W4_keep m ρ c r h4).trans ((W3_keep m ρ c r h3).trans (W2_keep m ρ c r h2)))))))
theorem up_2_10 (r : Ref sig .tc) (h3 : r ≠ main_v6) (h4 : r ∉ hostOps2_W) (h5 : r ≠ main_v20) (h6 : r ∉ hostOps3_W) (h7 : r ≠ main_v36) (h8 : r ∉ hostOps4_W) (h9 : r ≠ main_v50) (h10 : r ∉ hostOps5_W) :
    W10 m ρ c (Proc.devRef .tc r) = W2 m ρ c (Proc.devRef .tc r) :=
  (W10_keep m ρ c r h10).trans ((W9_keep m ρ c r h9).trans ((W8_keep m ρ c r h8).trans ((W7_keep m ρ c r h7).trans ((W6_keep m ρ c r h6).trans ((W5_keep m ρ c r h5).trans ((W4_keep m ρ c r h4).trans (W3_keep m ρ c r h3)))))))
theorem up_4_6 (r : Ref sig .tc) (h5 : r ≠ main_v20) (h6 : r ∉ hostOps3_W) :
    W6 m ρ c (Proc.devRef .tc r) = W4 m ρ c (Proc.devRef .tc r) :=
  (W6_keep m ρ c r h6).trans (W5_keep m ρ c r h5)
theorem up_4_10 (r : Ref sig .tc) (h5 : r ≠ main_v20) (h6 : r ∉ hostOps3_W) (h7 : r ≠ main_v36) (h8 : r ∉ hostOps4_W) (h9 : r ≠ main_v50) (h10 : r ∉ hostOps5_W) :
    W10 m ρ c (Proc.devRef .tc r) = W4 m ρ c (Proc.devRef .tc r) :=
  (W10_keep m ρ c r h10).trans ((W9_keep m ρ c r h9).trans ((W8_keep m ρ c r h8).trans ((W7_keep m ρ c r h7).trans ((W6_keep m ρ c r h6).trans (W5_keep m ρ c r h5)))))
theorem up_6_10 (r : Ref sig .tc) (h7 : r ≠ main_v36) (h8 : r ∉ hostOps4_W) (h9 : r ≠ main_v50) (h10 : r ∉ hostOps5_W) :
    W10 m ρ c (Proc.devRef .tc r) = W6 m ρ c (Proc.devRef .tc r) :=
  (W10_keep m ρ c r h10).trans ((W9_keep m ρ c r h9).trans ((W8_keep m ρ c r h8).trans (W7_keep m ρ c r h7)))
theorem up_8_10 (r : Ref sig .tc) (h9 : r ≠ main_v50) (h10 : r ∉ hostOps5_W) :
    W10 m ρ c (Proc.devRef .tc r) = W8 m ρ c (Proc.devRef .tc r) :=
  (W10_keep m ρ c r h10).trans (W9_keep m ρ c r h9)

/-! ## Host slices and casts as rows and entries -/

/-- Rows `o` … of a matrix cut out by a host slice are the matrix's row block. -/
theorem slice_rows {K b k : Nat} (o : Nat) (W : Mat K b) (h : (⟨2, ![K, b]⟩ : Shape).Slices ![o, 0] ⟨2, ![k, b]⟩)
    (hk : o + k ≤ K) : extractStridedSlice ⟨2, ![k, b]⟩ ![o, 0] W h = rows W o k hk := by
  funext j
  obtain ⟨t, q, rfl⟩ : ∃ (t : Fin k) (q : Fin b), j = ix2 t q := ⟨j 0, j 1, eq_ix2 j⟩
  rw [slice2_axis0_eq, rows_apply]

/-- The argument array behind a reference, as launched. -/
abbrev arg (b : Ref sig .tc) : Buf (Elt Ideal) ((c : Thread nD τ).loc b) := m ((c : Thread nD τ).loc b)

/-! ## The stages -/

/-- After the first region: max(features · W1 + b1, 0). -/
theorem kX : W2 m ρ c (Proc.devRef .tc main_v5)
    = fun i => max (mm (arg m c main_arg0) (arg m c main_arg2) i + arg m c main_arg3 (ix1 (i 1 : Fin 64))) 0 := by
  refine (W2_arr m ρ c 3).trans ((final0 (V1 m ρ) c).trans ?_)
  show G0 (W1 m ρ c (Proc.devRef .tc main_arg0)) (W1 m ρ c (Proc.devRef .tc main_arg2)) (W1 m ρ c (Proc.devRef .tc main_v4)) = _
  rw [up_0_1 m ρ c main_arg0 (by decide), up_0_1 m ρ c main_arg2 (by decide), W1_v4]
  funext i
  obtain ⟨r, q, rfl⟩ : ∃ (r : Fin 50000) (q : Fin 64), i = ix2 r q := ⟨i 0, i 1, eq_ix2 i⟩
  show max (_ + shapeCast S1x64 (m ((c : Thread nD τ).loc main_arg3)) shapeCasts_S64_S1x64 (ix2 (0 : Fin 1) q)) 0 = _
  rw [shapeCast_a_1a_apply]

theorem kH1 : W3 m ρ c (Proc.devRef .tc main_v6) = mm (W2 m ρ c (Proc.devRef .tc main_v5)) (arg m c main_arg4) := by
  refine (W3_arr m ρ c 2).trans ((final1 (V2 m ρ) c).trans ?_)
  show mm (W2 m ρ c (Proc.devRef .tc main_v5)) (W2 m ρ c (Proc.devRef .tc main_arg4)) = _
  rw [up_0_2 m ρ c main_arg4 (by decide) (by decide)]

theorem kX11 : W4 m ρ c (Proc.devRef .tc main_v19)
    = agg64 (srcIdx (arg m c main_arg1)) (dstIdx (arg m c main_arg1)) (arg m c main_arg5) (W3 m ρ c (Proc.devRef .tc main_v6)) := by
  refine (W4_v19 m ρ c).trans ?_
  rw [(up_1_3 m ρ c main_v1 (by decide) (by decide)).trans (W1_v1 m ρ c),
    (up_1_3 m ρ c main_v3 (by decide) (by decide)).trans (W1_v3 m ρ c),
    up_0_3 m ρ c main_arg5 (by decide) (by decide) (by decide)]

theorem kH2 : W5 m ρ c (Proc.devRef .tc main_v20) = mm (W4 m ρ c (Proc.devRef .tc main_v19)) (arg m c main_arg4) := by
  refine (W5_arr m ρ c 2).trans ((final2 (V4 m ρ) c).trans ?_)
  show mm (W4 m ρ c (Proc.devRef .tc main_v19)) (W4 m ρ c (Proc.devRef .tc main_arg4)) = _
  rw [up_0_4 m ρ c main_arg4 (by decide) (by decide) (by decide) (by decide)]

theorem kX12 : W6 m ρ c (Proc.devRef .tc main_v33)
    = agg64 (srcIdx (arg m c main_arg1)) (dstIdx (arg m c main_arg1)) (arg m c main_arg5) (W5 m ρ c (Proc.devRef .tc main_v20)) := by
  refine (W6_v33 m ρ c).trans ?_
  rw [(up_1_5 m ρ c main_v1 (by decide) (by decide) (by decide) (by decide)).trans (W1_v1 m ρ c),
    (up_1_5 m ρ c main_v3 (by decide) (by decide) (by decide) (by decide)).trans (W1_v3 m ρ c),
    up_0_5 m ρ c main_arg5 (by decide) (by decide) (by decide) (by decide) (by decide)]

theorem kH3 : W7 m ρ c (Proc.devRef .tc main_v36)
    = fun i => mm (W4 m ρ c (Proc.devRef .tc main_v19)) (rows (arg m c main_arg6) 0 64 (by omega)) i
        + mm (W6 m ρ c (Proc.devRef .tc main_v33)) (rows (arg m c main_arg6) 64 64 (by omega)) i := by
  refine (W7_arr m ρ c 4).trans ((final3 (V6 m ρ) c).trans ?_)
  show (fun i => mm (W6 m ρ c (Proc.devRef .tc main_v19)) (W6 m ρ c (Proc.devRef .tc main_v34)) i
      + mm (W6 m ρ c (Proc.devRef .tc main_v33)) (W6 m ρ c (Proc.devRef .tc main_v35)) i) = _
  rw [up_4_6 m ρ c main_v19 (by decide) (by decide), W6_v34, W6_v35,
    up_0_5 m ρ c main_arg6 (by decide) (by decide) (by decide) (by decide) (by decide)]
  show (fun i => mm _ (extractStridedSlice ⟨2, ![64, 128]⟩ ![0, 0] (arg m c main_arg6 : Mat 128 128) slices_S128x128_S64x128_0_0) i
      + mm _ (extractStridedSlice ⟨2, ![64, 128]⟩ ![64, 0] (arg m c main_arg6 : Mat 128 128) slices_S128x128_S64x128_64_0) i) = _
  rw [slice_rows 0 _ _ (by omega), slice_rows 64 _ _ (by omega)]

theorem kX21 : W8 m ρ c (Proc.devRef .tc main_v49)
    = agg128 (srcIdx (arg m c main_arg1)) (dstIdx (arg m c main_arg1)) (arg m c main_arg7) (W7 m ρ c (Proc.devRef .tc main_v36)) := by
  refine (W8_v49 m ρ c).trans ?_
  rw [(up_1_7 m ρ c main_v1 (by decide) (by decide) (by decide) (by decide) (by decide) (by decide)).trans (W1_v1 m ρ c),
    (up_1_7 m ρ c main_v3 (by decide) (by decide) (by decide) (by decide) (by decide) (by decide)).trans (W1_v3 m ρ c),
    up_0_7 m ρ c main_arg7 (by decide) (by decide) (by decide) (by decide) (by decide) (by decide) (by decide)]

theorem kH4 : W9 m ρ c (Proc.devRef .tc main_v50) = mm (W8 m ρ c (Proc.devRef .tc main_v49)) (arg m c main_arg6) := by
  refine (W9_arr m ρ c 2).trans ((final4 (V8 m ρ) c).trans ?_)
  show mm (W8 m ρ c (Proc.devRef .tc main_v49)) (W8 m ρ c (Proc.devRef .tc main_arg6)) = _
  rw [up_0_8 m ρ c main_arg6 (by decide) (by decide) (by decide) (by decide) (by decide) (by decide) (by decide) (by decide)]

theorem kX22 : W10 m ρ c (Proc.devRef .tc main_v63)
    = agg128 (srcIdx (arg m c main_arg1)) (dstIdx (arg m c main_arg1)) (arg m c main_arg7) (W9 m ρ c (Proc.devRef .tc main_v50)) := by
  refine (W10_v63 m ρ c).trans ?_
  rw [(up_1_9 m ρ c main_v1 (by decide) (by decide) (by decide) (by decide) (by decide) (by decide) (by decide) (by decide)).trans (W1_v1 m ρ c),
    (up_1_9 m ρ c main_v3 (by decide) (by decide) (by decide) (by decide) (by decide) (by decide) (by decide) (by decide)).trans (W1_v3 m ρ c),
    up_0_9 m ρ c main_arg7 (by decide) (by decide) (by decide) (by decide) (by decide) (by decide) (by decide) (by decide) (by decide)]

/-- A host slice of an array that is known to be `W'` is the row block of `W'`. -/
theorem slice_of {K b k : Nat} (o : Nat) (W W' : Mat K b) (h : (⟨2, ![K, b]⟩ : Shape).Slices ![o, 0] ⟨2, ![k, b]⟩)
    (hk : o + k ≤ K) (e : W = W') : extractStridedSlice ⟨2, ![k, b]⟩ ![o, 0] W h = rows W' o k hk := by
  subst e; exact slice_rows o W h hk

/-- The last layer's function read with other names for equal operands. -/
theorem out5_congr {x0 x0' x1 x1' x2 x2' : Mat 50000 64} {x3 x3' x4 x4' : Mat 50000 128}
    {w0 w0' w1 w1' w2 w2' : Mat 64 50} {w3 w3' w4 w4' : Mat 128 50} {b : Mat 1 50}
    {a9 : (⟨1, ![50]⟩ : Shape).Idx → EReal}
    (e0 : x0 = x0') (e1 : x1 = x1') (e2 : x2 = x2') (e3 : x3 = x3') (e4 : x4 = x4')
    (f0 : w0 = w0') (f1 : w1 = w1') (f2 : w2 = w2') (f3 : w3 = w3') (f4 : w4 = w4')
    (eb : ∀ q : Fin 50, b (ix2 (0 : Fin 1) q) = a9 (ix1 q)) :
    (fun i : (⟨2, ![50000, 50]⟩ : Shape).Idx => Ideal.logistic (((((mm x0 w0 i + mm x1 w1 i) + mm x2 w2 i)
        + mm x3 w3 i) + mm x4 w4 i) + b (ix2 (0 : Fin 1) (i 1 : Fin 50))))
      = fun i => Ideal.logistic (((((mm x0' w0' i + mm x1' w1' i) + mm x2' w2' i) + mm x3' w3' i) + mm x4' w4' i)
        + a9 (ix1 (i 1 : Fin 50))) := by
  subst e0 e1 e2 e3 e4 f0 f1 f2 f3 f4
  funext i
  exact congrArg Ideal.logistic (congrArg₂ (· + ·) rfl (eb (i 1 : Fin 50)))

/-- The result: the logistic function of the five products over the row blocks of W2, plus the bias. -/
theorem kOut : W11 m ρ c (Proc.devRef .tc main_v70)
    = fun i => Ideal.logistic (((((mm (W2 m ρ c (Proc.devRef .tc main_v5)) (rows (arg m c main_arg8) 0 64 (by omega)) i
          + mm (W4 m ρ c (Proc.devRef .tc main_v19)) (rows (arg m c main_arg8) 64 64 (by omega)) i)
          + mm (W6 m ρ c (Proc.devRef .tc main_v33)) (rows (arg m c main_arg8) 128 64 (by omega)) i)
          + mm (W8 m ρ c (Proc.devRef .tc main_v49)) (rows (arg m c main_arg8) 192 128 (by omega)) i)
          + mm (W10 m ρ c (Proc.devRef .tc main_v63)) (rows (arg m c main_arg8) 320 128 (by omega)) i)
          + arg m c main_arg9 (ix1 (i 1 : Fin 50))) := by
  have a8 : W9 m ρ c (Proc.devRef .tc main_arg8) = arg m c main_arg8 :=
    up_0_9 m ρ c main_arg8 (by decide) (by decide) (by decide) (by decide) (by decide) (by decide) (by decide) (by decide) (by decide)
  have a9 : W9 m ρ c (Proc.devRef .tc main_arg9) = arg m c main_arg9 :=
    up_0_9 m ρ c main_arg9 (by decide) (by decide) (by decide) (by decide) (by decide) (by decide) (by decide) (by decide) (by decide)
  have e69 : W10 m ρ c (Proc.devRef .tc main_v69) = shapeCast S1x50 (arg m c main_arg9) shapeCasts_S50_S1x50 :=
    (W10_v69 m ρ c).trans (congrArg (fun a => shapeCast S1x50 a shapeCasts_S50_S1x50) a9)
  refine (W11_arr m ρ c 11).trans ((final5 (V10 m ρ) c).trans ?_)
  exact out5_congr
    (up_2_10 m ρ c main_v5 (by decide) (by decide) (by decide) (by decide) (by decide) (by decide) (by decide) (by decide))
    (up_4_10 m ρ c main_v19 (by decide) (by decide) (by decide) (by decide) (by decide) (by decide))
    (up_6_10 m ρ c main_v33 (by decide) (by decide) (by decide) (by decide))
    (up_8_10 m ρ c main_v49 (by decide) (by decide))
    rfl
    ((W10_v64 m ρ c).trans (slice_of 0 _ _ _ (by omega) a8))
    ((W10_v65 m ρ c).trans (slice_of 64 _ _ _ (by omega) a8))
    ((W10_v66 m ρ c).trans (slice_of 128 _ _ _ (by omega) a8))
    ((W10_v67 m ρ c).trans (slice_of 192 _ _ _ (by omega) a8))
    ((W10_v68 m ρ c).trans (slice_of 320 _ _ _ (by omega) a8))
    (fun q => (congrFun e69 (ix2 (0 : Fin 1) q)).trans (shapeCast_a_1a_apply _ _ 0 q))

end Cert.KernelIdeal.Fold

end
-- ==== Proof.Bridge.lean ====
/-
  The two programs compute one function. Stage by stage the kernel program's buffers and the reference's hold
  the same arrays: the first dense layer, the four products with their neighbourhood sums — the same host
  operations on both sides, applied to equal arrays —, and the last layer, where the reference multiplies the
  concatenation of the five stage arrays by the whole weight matrix and the kernel adds the five products with
  the weight matrix's row blocks: a sum over the joined axis split into the sums over its pieces.
-/
import proofs.«141040_j31164282700071_1_alg».proof.Proof.KernelStages
import proofs.«141040_j31164282700071_1_alg».proof.Proof.RefFold

set_option maxRecDepth 16384

noncomputable section

open Idealize.ShloMosaic Idealize.ShloMosaic.TcCoe Idealize.SL.Sem Idealize.ShloMosaic.ValueIdx

namespace Cert.Proof.Bridge

open Cert.RowProduct

/-- The edges' source and destination nodes and the neighbourhood sums are spelt the same in the two programs. -/
theorem srcIdx_eq : @Cert.KernelIdeal.Fold.srcIdx = @Cert.ReferenceIdeal.Hand.srcIdx := rfl
theorem dstIdx_eq : @Cert.KernelIdeal.Fold.dstIdx = @Cert.ReferenceIdeal.Hand.dstIdx := rfl
theorem agg64_eq : @Cert.KernelIdeal.Fold.agg64 = @Cert.ReferenceIdeal.Hand.agg64 := rfl
theorem agg128_eq : @Cert.KernelIdeal.Fold.agg128 = @Cert.ReferenceIdeal.Hand.agg128 := rfl

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- From memories that agree on the ten arguments, the kernel program's result buffer and the reference's end
    at the same array. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.KernelIdeal.Gen.W11 m ρ c (Proc.devRef .tc Cert.KernelIdeal.main_v70) = Cert.ReferenceIdeal.Hand.Q6 m' c (Proc.devRef .tc Cert.ReferenceIdeal.main_v77) := by
  have e1 : Cert.KernelIdeal.Gen.W2 m ρ c (Proc.devRef .tc Cert.KernelIdeal.main_v5) = Cert.ReferenceIdeal.Hand.Q1 m' c (Proc.devRef .tc Cert.ReferenceIdeal.main_v8) := by
    rw [Cert.KernelIdeal.Fold.kX, Cert.ReferenceIdeal.Hand.stX, h0, h2, h3]
  have e2 : Cert.KernelIdeal.Gen.W3 m ρ c (Proc.devRef .tc Cert.KernelIdeal.main_v6) = Cert.ReferenceIdeal.Hand.Q1 m' c (Proc.devRef .tc Cert.ReferenceIdeal.main_v9) := by
    rw [Cert.KernelIdeal.Fold.kH1, Cert.ReferenceIdeal.Hand.stH1, e1, h4]
  have e3 : Cert.KernelIdeal.Gen.W4 m ρ c (Proc.devRef .tc Cert.KernelIdeal.main_v19) = Cert.ReferenceIdeal.Hand.Q2 m' c (Proc.devRef .tc Cert.ReferenceIdeal.main_v22) := by
    rw [Cert.KernelIdeal.Fold.kX11, Cert.ReferenceIdeal.Hand.stX11, e2, h1, h5, srcIdx_eq, dstIdx_eq, agg64_eq]
  have e4 : Cert.KernelIdeal.Gen.W5 m ρ c (Proc.devRef .tc Cert.KernelIdeal.main_v20) = Cert.ReferenceIdeal.Hand.Q2 m' c (Proc.devRef .tc Cert.ReferenceIdeal.main_v23) := by
    rw [Cert.KernelIdeal.Fold.kH2, Cert.ReferenceIdeal.Hand.stH2, e3, h4]
  have e5 : Cert.KernelIdeal.Gen.W6 m ρ c (Proc.devRef .tc Cert.KernelIdeal.main_v33) = Cert.ReferenceIdeal.Hand.Q3 m' c (Proc.devRef .tc Cert.ReferenceIdeal.main_v36) := by
    rw [Cert.KernelIdeal.Fold.kX12, Cert.ReferenceIdeal.Hand.stX12, e4, h1, h5, srcIdx_eq, dstIdx_eq, agg64_eq]
  have e6 : Cert.KernelIdeal.Gen.W7 m ρ c (Proc.devRef .tc Cert.KernelIdeal.main_v36) = Cert.ReferenceIdeal.Hand.Q3 m' c (Proc.devRef .tc Cert.ReferenceIdeal.main_v38) := by
    rw [Cert.KernelIdeal.Fold.kH3, Cert.ReferenceIdeal.Hand.stH3, e3, e5, h6]
  have e7 : Cert.KernelIdeal.Gen.W8 m ρ c (Proc.devRef .tc Cert.KernelIdeal.main_v49) = Cert.ReferenceIdeal.Hand.Q4 m' c (Proc.devRef .tc Cert.ReferenceIdeal.main_v51) := by
    rw [Cert.KernelIdeal.Fold.kX21, Cert.ReferenceIdeal.Hand.stX21, e6, h1, h7, srcIdx_eq, dstIdx_eq, agg128_eq]
  have e8 : Cert.KernelIdeal.Gen.W9 m ρ c (Proc.devRef .tc Cert.KernelIdeal.main_v50) = Cert.ReferenceIdeal.Hand.Q4 m' c (Proc.devRef .tc Cert.ReferenceIdeal.main_v52) := by
    rw [Cert.KernelIdeal.Fold.kH4, Cert.ReferenceIdeal.Hand.stH4, e7, h6]
  have e9 : Cert.KernelIdeal.Gen.W10 m ρ c (Proc.devRef .tc Cert.KernelIdeal.main_v63) = Cert.ReferenceIdeal.Hand.Q5 m' c (Proc.devRef .tc Cert.ReferenceIdeal.main_v65) := by
    rw [Cert.KernelIdeal.Fold.kX22, Cert.ReferenceIdeal.Hand.stX22, e8, h1, h7, srcIdx_eq, dstIdx_eq, agg128_eq]
  rw [Cert.KernelIdeal.Fold.kOut, Cert.ReferenceIdeal.Hand.stOut, e1, e3, e5, e7, e9, h8, h9]

end Cert.Proof.Bridge

end
-- ==== Proof.lean ====
/-
  The certificate of the stacked dense layers with neighbourhood sums (six row-tiled kernels among host
  gathers and scatter-adds) against the reference that concatenates the stage arrays.

  Frames: the two kernel programs' frames are the generated ones; the reference's is its run, read in chunks,
  with the result dropped. The idealization rewrote nothing, so the preservation claim is trivial. The value
  claim: the kernel program's result buffer ends at the fold of its regions and host stretches, the reference's at
  the fold of its chunks, and the two folds are one function of the arguments (Proof/Bridge.lean): each dense
  layer is the row-by-column product, the neighbourhood sums are the same host operations on both sides, and a
  product with a concatenation is the sum of the products with the matching row blocks of the weights — only
  the associativity and commutativity of addition, so the finiteness of the inputs is never used.
-/
import proofs.«141040_j31164282700071_1_alg».proof.Defs
import proofs.«141040_j31164282700071_1_alg».proof.Proof.Gen.Kernel
import proofs.«141040_j31164282700071_1_alg».proof.Proof.Gen.Kernel.Frame
import proofs.«141040_j31164282700071_1_alg».proof.Proof.Gen.KernelIdeal
import proofs.«141040_j31164282700071_1_alg».proof.Proof.Gen.KernelIdeal.Frame
import proofs.«141040_j31164282700071_1_alg».proof.Proof.Gen.ReferenceIdeal
import proofs.«141040_j31164282700071_1_alg».proof.Proof.Gen.Pre_finite_inputs
import proofs.«141040_j31164282700071_1_alg».proof.Proof.KernelRun
import proofs.«141040_j31164282700071_1_alg».proof.Proof.RefRun
import proofs.«141040_j31164282700071_1_alg».proof.Proof.RefFold
import proofs.«141040_j31164282700071_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run, each argument's buffer read at the last chunk's contents. -/
theorem frame_ri : @Cert.frame_ReferenceIdeal Cert.ReferenceIdeal.Gen.facts Cert.Pre_finite_inputs.Gen.facts :=
  fun m ρ _ => (θ_run Cert.ReferenceIdeal.defs _ _).mono (fun _ h c =>
    ⟨(h c Cert.ReferenceIdeal.main_arg0).trans (Cert.ReferenceIdeal.Hand.Q6_arg0 m c),
     (h c Cert.ReferenceIdeal.main_arg1).trans (Cert.ReferenceIdeal.Hand.Q6_arg1 m c),
     (h c Cert.ReferenceIdeal.main_arg2).trans (Cert.ReferenceIdeal.Hand.Q6_arg2 m c),
     (h c Cert.ReferenceIdeal.main_arg3).trans (Cert.ReferenceIdeal.Hand.Q6_arg3 m c),
     (h c Cert.ReferenceIdeal.main_arg4).trans (Cert.ReferenceIdeal.Hand.Q6_arg4 m c),
     (h c Cert.ReferenceIdeal.main_arg5).trans (Cert.ReferenceIdeal.Hand.Q6_arg5 m c),
     (h c Cert.ReferenceIdeal.main_arg6).trans (Cert.ReferenceIdeal.Hand.Q6_arg6 m c),
     (h c Cert.ReferenceIdeal.main_arg7).trans (Cert.ReferenceIdeal.Hand.Q6_arg7 m c),
     (h c Cert.ReferenceIdeal.main_arg8).trans (Cert.ReferenceIdeal.Hand.Q6_arg8 m c),
     (h c Cert.ReferenceIdeal.main_arg9).trans (Cert.ReferenceIdeal.Hand.Q6_arg9 m c)⟩)
    (Cert.ReferenceIdeal.Hand.run (F := Ideal) m ρ)

/-- Both idealized programs run, end with the arguments as launched and with equal results. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W11 m ρ c (Proc.devRef .tc Cert.KernelIdeal.main_v70),
    Cert.KernelIdeal.RunOut.run_out (F := Ideal) m ρ, ?_⟩
  refine (θ_run Cert.ReferenceIdeal.defs _ _).mono (fun _ h c => ?_) (Cert.ReferenceIdeal.Hand.run (F := Ideal) m' ρ')
  obtain ⟨h0, h1, h2, h3, h4, h5, h6, h7, h8, h9⟩ := hagree c
  exact ⟨(h c Cert.ReferenceIdeal.main_v77).trans (Cert.Proof.Bridge.result_eq m ρ m' c h0 h1 h2 h3 h4 h5 h6 h7 h8 h9).symm,
     (h c Cert.ReferenceIdeal.main_arg0).trans (Cert.ReferenceIdeal.Hand.Q6_arg0 m' c),
     (h c Cert.ReferenceIdeal.main_arg1).trans (Cert.ReferenceIdeal.Hand.Q6_arg1 m' c),
     (h c Cert.ReferenceIdeal.main_arg2).trans (Cert.ReferenceIdeal.Hand.Q6_arg2 m' c),
     (h c Cert.ReferenceIdeal.main_arg3).trans (Cert.ReferenceIdeal.Hand.Q6_arg3 m' c),
     (h c Cert.ReferenceIdeal.main_arg4).trans (Cert.ReferenceIdeal.Hand.Q6_arg4 m' c),
     (h c Cert.ReferenceIdeal.main_arg5).trans (Cert.ReferenceIdeal.Hand.Q6_arg5 m' c),
     (h c Cert.ReferenceIdeal.main_arg6).trans (Cert.ReferenceIdeal.Hand.Q6_arg6 m' c),
     (h c Cert.ReferenceIdeal.main_arg7).trans (Cert.ReferenceIdeal.Hand.Q6_arg7 m' c),
     (h c Cert.ReferenceIdeal.main_arg8).trans (Cert.ReferenceIdeal.Hand.Q6_arg8 m' c),
     (h c Cert.ReferenceIdeal.main_arg9).trans (Cert.ReferenceIdeal.Hand.Q6_arg9 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
